-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x64 : Shape := ⟨2, ![1024, 64]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S8x2048x1024 .f32) (main_arg1 : FVec F S1024x64 .f32) (main_arg2 : FVec F S1024x64 .f32) (main_arg3 : FVec F S1024x64 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S8x2048x1024 : Shape := ⟨3, ![8, 2048, 1024]⟩
abbrev S1024x64 : Shape := ⟨2, ![1024, 64]⟩
abbrev S1024x192 : Shape := ⟨2, ![1024, 192]⟩
abbrev S8x2048x64 : Shape := ⟨3, ![8, 2048, 64]⟩
abbrev S1x1024x1024 : Shape := ⟨3, ![1, 1024, 1024]⟩
abbrev S1x1024x64 : Shape := ⟨3, ![1, 1024, 64]⟩
abbrev S1024x1024 : Shape := ⟨2, ![1024, 1024]⟩
abbrev S1x512x64 : Shape := ⟨3, ![1, 512, 64]⟩
abbrev S512x1 : Shape := ⟨2, ![512, 1]⟩
abbrev S512x64 : Shape := ⟨2, ![512, 64]⟩
abbrev S64x512 : Shape := ⟨2, ![64, 512]⟩
abbrev S512x512 : Shape := ⟨2, ![512, 512]⟩
abbrev S512 : Shape := ⟨1, ![512]⟩

abbrev nBuf : Space → Nat
  | .hbm => 9
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S1024x192, .f32⟩
  | .hbm, ⟨5, _⟩ => ⟨S8x2048x64, .bf16⟩
  | .hbm, ⟨6, _⟩ => ⟨S8x2048x64, .bf16⟩
  | .hbm, ⟨7, _⟩ => ⟨S8x2048x64, .bf16⟩
  | .hbm, ⟨8, _⟩ => ⟨S8x2048x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x192, .f32⟩
  | .local _ .vmem, ⟨3, _⟩ => ⟨S1x1024x64, .bf16⟩
  | .local _ .vmem, ⟨4, _⟩ => ⟨S1x1024x64, .bf16⟩
  | .local _ .vmem, ⟨5, _⟩ => ⟨S1x1024x64, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x1024x64, .bf16⟩
  | .local _ .vmem, ⟨9, _⟩ => ⟨S1x512x64, .bf16⟩
  | .local _ .vmem, ⟨10, _⟩ => ⟨S1x512x64, .bf16⟩
  | .local _ .vmem, ⟨11, _⟩ => ⟨S1x512x64, .bf16⟩
  | .local _ .vmem, ⟨12, _⟩ => ⟨S1x512x64, .bf16⟩
  | .local _ .vmem, ⟨13, _⟩ => ⟨S1x512x64, .bf16⟩
  | .local _ .vmem, ⟨14, _⟩ => ⟨S1x512x64, .bf16⟩
  | .local _ .vmem, ⟨15, _⟩ => ⟨S1x512x64, .f32⟩
  | .local _ .vmem, ⟨16, _⟩ => ⟨S1x512x64, .f32⟩
  | .local _ .vmem, ⟨17, _⟩ => ⟨S512x1, .f32⟩
  | .local _ .vmem, ⟨18, _⟩ => ⟨S512x1, .f32⟩
  | .local _ .vmem, ⟨19, _⟩ => ⟨S512x64, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![8, 4, 4], ![false, false, false]⟩

def k1_cond3 (i : grid1.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  concatenates_S1024x64_S1024x64_S1024x64_S1024x192_d1 : Shape.Concatenates [S1024x64, S1024x64, S1024x64] S1024x192 1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  slices_S1024x192_o0_0_S1024x64 : S1024x192.Slices ![0, 0] S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  slices_S1024x192_o0_64_S1024x64 : S1024x192.Slices ![0, 64] S1024x64
  slices_S1024x192_o0_128_S1024x64 : S1024x192.Slices ![0, 128] S1024x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  transposes_S512x64_p1_0_S64x512 : S512x64.Transposes [1, 0] S64x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  shapeCasts_S512x64_S1x512x64 : S512x64.ShapeCasts S1x512x64
  dot_S1024x1024_S1024x192_S1024x192_1_0_0_1_n_n_wf : DotDims.WF S1024x1024 S1024x192 S1024x192 [1] [0] [0] [1] [] []
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x192.size a ≤ S1024x192.size a
  hwx0_1 : ∀ i : grid0.Coords, EltTy.bits .f32 = 32 ∨ (Rect.block (s := S1024x192) S1024x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S8x2048x64.size a
  hwx0_2 : ∀ i : grid0.Coords, EltTy.bits .bf16 = 32 ∨ (Rect.block (s := S8x2048x64) S1x1024x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S8x2048x64.size a
  hwx0_3 : ∀ i : grid0.Coords, EltTy.bits .bf16 = 32 ∨ (Rect.block (s := S8x2048x64) S1x1024x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S8x2048x64.size a
  hwx0_4 : ∀ i : grid0.Coords, EltTy.bits .bf16 = 32 ∨ (Rect.block (s := S8x2048x64) S1x1024x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S8x2048x64.size a
  hwx1_0 : ∀ i : grid1.Coords, EltTy.bits .bf16 = 32 ∨ (Rect.block (s := S8x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64.size a ≤ S8x2048x64.size a
  hwx1_1 : ∀ i : grid1.Coords, EltTy.bits .bf16 = 32 ∨ (Rect.block (s := S8x2048x64) S1x512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S8x2048x64.size a
  hwx1_2 : ∀ i : grid1.Coords, EltTy.bits .bf16 = 32 ∨ (Rect.block (s := S8x2048x64) S1x512x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S8x2048x64.size a
  hwx1_3 : ∀ i : grid1.Coords, EltTy.bits .f32 = 32 ∨ (Rect.block (s := S8x2048x64) S1x512x64.size (cc1_transform_3 i) (hinb1_3 i)).WholeWords (EltTy.packing .f32)

variable [Facts₀]

def dot_S1024x1024_S1024x192_S1024x192_1_0_0_1_n_n : DotDims S1024x1024 S1024x192 S1024x192 where
  lhsContracting := [1]
  rhsContracting := [0]
  lhsNonContracting := [0]
  rhsNonContracting := [1]
  lhsBatch := []
  rhsBatch := []
  wf := dot_S1024x1024_S1024x192_S1024x192_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1_0) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_2) S1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x64 : Shape := ⟨2, ![1024, 64]⟩
abbrev S8x2048x64 : Shape := ⟨3, ![8, 2048, 64]⟩
abbrev S8x2048x2048 : Shape := ⟨3, ![8, 2048, 2048]⟩
abbrev S_ : Shape := ⟨0, ![]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8x2048x64, .f32⟩
  | .hbm, ⟨5, _⟩ => ⟨S8x2048x64, .f32⟩
  | .hbm, ⟨6, _⟩ => ⟨S8x2048x64, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x64_S8x2048x64_2_0_01_1_n_n_wf : DotDims.WF S8x2048x1024 S1024x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S1024x64_S8x2048x64_2_0_01_1_n_n : DotDims S8x2048x1024 S1024x64 S8x2048x64 where
  lhsContracting := [2]
  rhsContracting := [0]
  lhsNonContracting := [0, 1]
  rhsNonContracting := [1]
  lhsBatch := []
  rhsBatch := []
  wf := dot_S8x2048x1024_S1024x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.KRegion0.lean ====
/-
  The projection call: one grid point per (batch, row tile of 1024 rows). At a point the body reads the tile of x
  (1024 × 1024) and the whole concatenated weight matrix (1024 × 192), forms their product once, and stores the three
  column bands 0–63, 64–127, 128–191 of the product as the tile's rows of q, k and v. Nothing is carried from point to
  point. Stated here, for any float interpretation: each window's block at a point, what each output buffer holds after
  the body (its one store, over the product of the two input blocks), the body's triple, the proof data, and the
  body's obligation at every point.
-/
import proofs.«178913_j5025111736349_2_alg».proof.Proof.Gen.Kernel.Launch
import proofs.«178913_j5025111736349_2_alg».proof.Proof.Gen.Kernel.Skeleton
import proofs.«178913_j5025111736349_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the contents of the TensorCore's buffers when the call is entered
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x tile's buffer holds the tile at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's buffer holds the whole matrix at every point, though it is fetched at the first only: its
    block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rx : Rect S1x1024x1024 := Rect.unit (s := S1x1024x1024) ![0, 0, 0] S1x1024x1024.size inb_S1x1024x1024_S1x1024x1024_0_0_0
abbrev rw : Rect S1024x192 := Rect.unit (s := S1024x192) ![0, 0] S1024x192.size inb_S1024x192_S1024x192_0_0
abbrev ro : Rect S1x1024x64 := Rect.unit (s := S1x1024x64) ![0, 0, 0] S1x1024x64.size inb_S1x1024x64_S1x1024x64_0_0_0

/-! ## What the body leaves in each output buffer: one store, of a column band of the product -/

def outQ (x0 : Vec F S1x1024x1024 .f32) (x1 : Vec F S1024x192 .f32) : Vec F S1x1024x64 .bf16 :=
  View.canon [⟨ro, k0_pay2 (View.ld x0 rx) (View.ld x1 rw)⟩]
def outK (x0 : Vec F S1x1024x1024 .f32) (x1 : Vec F S1024x192 .f32) : Vec F S1x1024x64 .bf16 :=
  View.canon [⟨ro, k0_pay3 (View.ld x0 rx) (View.ld x1 rw)⟩]
def outV (x0 : Vec F S1x1024x1024 .f32) (x1 : Vec F S1024x192 .f32) : Vec F S1x1024x64 .bf16 :=
  View.canon [⟨ro, k0_pay4 (View.ld x0 rx) (View.ld x1 rw)⟩]

/-- The one store covers the buffer. -/
theorem cover_o (p0 : Vec F S1x1024x64 .bf16) (y : S1x1024x64.Idx) :
    ∃ pc ∈ ([⟨ro, p0⟩] : List (View.Piece (Elt F) S1x1024x64 .bf16)), y ∈ pc.1.set :=
  View.cover_of_tiled [⟨ro, p0⟩] S1x1024x64.size (by rfl) y

/-! ## The body's triple -/

set_option maxHeartbeats 1000000 in
/-- On whole buffers, the inputs' at read contents and the outputs' at anything, the body runs to the continuation
    holding the inputs' as they were and each output's at its band of the product. -/
theorem sound_kernel0 (c : Dev nD) (E : Set ℕ) (i : grid0.Coords)
    (arg2 : Memref sig .tc .vmem S1x1024x1024 .f32) (harg2 : arg2.IsWhole) (arg3 : Memref sig .tc .vmem S1024x192 .f32) (harg3 : arg3.IsWhole)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole)
    (x0 : Vec F S1x1024x1024 .f32) (x1 : Vec F S1024x192 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (outQ x0 x1) ∗ owns (c : Thread nD τ) arg5 fullShare (outK x0 x1)
            ∗ owns (c : Thread nD τ) arg6 fullShare (outV x0 x1)) -∗ K ⟨⟩))
      ⊢ wp frame (wpE (defs₀ (F := F)) Variants.none c none) E (cc0__proj_kernel i arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_o _)
  isplitl [H3]
  · iexists _; isplitr
    swap; · iexact H3
    ipureintro
    exact View.read_writes_eq_canon _ _ _ (cover_o _)
  iexists _; isplitr
  swap; · iexact H4
  ipureintro
  exact View.read_writes_eq_canon _ _ _ (cover_o _)

/-! ## The proof data -/

/-- The call's proof data on core `c`: the arrays as the call finds them; after the body at point `t` each input's
    buffer at its block and each output's at its band of the product of the two input blocks; the scratch buffers of the
    other call and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outQ (iblk0 V c 0 t) (iblk0 V c 1 t)
    | ⟨3, _⟩ => outK (iblk0 V c 0 t) (iblk0 V c 1 t)
    | ⟨4, _⟩ => outV (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outQ (iblk0 V c 0 t) (iblk0 V c 1 t) := by dsimp only [dat0]
theorem after0_3 (c : Dev nD) (t : Fin cfg0.N) : (dat0 V c).after 3 t = outK (iblk0 V c 0 t) (iblk0 V c 1 t) := by dsimp only [dat0]
theorem after0_4 (c : Dev nD) (t : Fin cfg0.N) : (dat0 V c).after 4 t = outV (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KRegion1Cond.lean ====
/-
  The attention call: grid points (batch, query tile, key tile), the key tile the fastest axis; tiles of 512 positions.
  The body has three conditionals, each on the grid coordinates only: the first key tile (reset the running maximum,
  denominator and numerator), a key tile not wholly after the query tile (one step of the online softmax), the last key
  tile (normalise and store the output). Here: the three conditions in closed form over the 128 points, where the
  output window is idle (every point but the last key tile's), the memrefs the body is called with, and the call's
  invariant written out: the other call's staging buffers, the three scratch buffers, the generator register.
-/
import proofs.«178913_j5025111736349_2_alg».proof.Proof.Gen.Kernel.Launch
import proofs.«178913_j5025111736349_2_alg».proof.Proof.Gen.Kernel.Skeleton
import proofs.«178913_j5025111736349_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, from the grid coordinates -/

/-- The key tile is the first. -/
abbrev cond1_0 (i : grid1.Coords) : Prop :=
  (Scalar.cmpi .ne (Scalar.extui (Scalar.cmpi .eq (BitVec.ofNat 32 (i 2).val) 0#32)) 0#32) = 1#1
/-- The key tile starts before the query tile ends: some key position of the tile is visible to some query of the tile. -/
abbrev cond1_1 (i : grid1.Coords) : Prop :=
  (Scalar.cmpi .ne (Scalar.extui (Scalar.cmpi .slt (Scalar.muli (BitVec.ofNat 32 (i 2).val) 512#32)
    (Scalar.muli (Scalar.addi (BitVec.ofNat 32 (i 1).val) 1#32) 512#32))) 0#32) = 1#1
/-- The key tile is the last. -/
abbrev cond1_2 (i : grid1.Coords) : Prop := k1_cond3 i = 1#1

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 ≤ t.val / 4 % 4 :=
  (by decide +kernel : ∀ t : Fin grid1.N, cond1_1 (grid1.coords t) ↔ t.val % 4 ≤ t.val / 4 % 4)
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key tile nothing is stored into the output window, -/
theorem idleAt1_3 : ∀ t : Fin cfg1.N, ¬cond1_2 (grid1.coords t) → cfg1.idle 3 (grid1.coords t) = true := by decide +kernel
/-- and its block is not written back there; -/
theorem noFlush1_3 : ∀ t : Fin cfg1.N, ¬cond1_2 (grid1.coords t) → (cfg1.win 3).flush t = false := by decide +kernel
/-- at the last key tile it is live. -/
theorem liveAt1_3 : ∀ t : Fin cfg1.N, cond1_2 (grid1.coords t) → cfg1.idle 3 (grid1.coords t) = false := by decide +kernel

/-! ## The memrefs the body is called with -/

abbrev ms1_0 (t : Fin cfg1.N) : Memref sig .tc .vmem S1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x64 .f32 := win1_3.stage (cfg1.slots t 3)
abbrev hs1_3 (t : Fin cfg1.N) : (ms1_3 t).IsWhole := hstage1_3 ((cfg1.slots t 3).cast nbuf1_3)
/-- The running maximum, the running denominator and the running numerator: whole scratch buffers of the call's own. -/
abbrev scM : Memref sig .tc .vmem S512x1 .f32 := Memref.whole cc1_scratch0
abbrev scL : Memref sig .tc .vmem S512x1 .f32 := Memref.whole cc1_scratch1
abbrev scA : Memref sig .tc .vmem S512x64 .f32 := Memref.whole cc1_scratch2
/-- One staging buffer of the output window, and the scratch buffers, as views: contents are stated through them. -/
abbrev VO : View sig .tc .vmem S1x512x64 .f32 := (Memref.whole cc1_stg3_0 : Memref sig .tc .vmem S1x512x64 .f32).view
abbrev VM : View sig .tc .vmem S512x1 .f32 := scM.view
abbrev VL : View sig .tc .vmem S512x1 .f32 := scL.view
abbrev VA : View sig .tc .vmem S512x64 .f32 := scA.view

/-! ## The call's invariant written out -/

/-- The other call's nine staging buffers, each at some contents, beside a remainder `T`. -/
def withOthers (c : Dev nD) (T : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ T)

/-- The remainder may be exchanged. -/
theorem withOthers_mono (c : Dev nD) {T T' : sProp 𝕄} (h : T ⊢ T') : withOthers (F := F) c T ⊢ withOthers c T' := by
  unfold withOthers
  iintro ⟨F0, F1, F2, F3, F4, F5, F6, F7, F8, HT⟩
  isplitl [F0]; · iexact F0
  isplitl [F1]; · iexact F1
  isplitl [F2]; · iexact F2
  isplitl [F3]; · iexact F3
  isplitl [F4]; · iexact F4
  isplitl [F5]; · iexact F5
  isplitl [F6]; · iexact F6
  isplitl [F7]; · iexact F7
  isplitl [F8]; · iexact F8
  iapply h; iexact HT

/-- The class invariant of the call: the other call's staging buffers and the three scratch buffers at some contents,
    and the generator register at some state. -/
theorem PhiA1_eq (c : Dev nD) :
    (Pipeline.ΦA spec1 c : sProp 𝕄)
      = iprop(withOthers c iprop((∃ d, owns (c : Thread nD τ) scM fullShare d) ∗ (∃ d, owns (c : Thread nD τ) scL fullShare d)
          ∗ (∃ d, owns (c : Thread nD τ) scA fullShare d)) ∗ (∃ r, prngReg c r)) := by
  unfold Pipeline.ΦA withOthers; rw [scopedRest1_eq]; simp only [scM, scL, scA, owns_whole]; try rfl

end Cert.Kernel.Hand

end
-- ==== Proof.KRegion1RunA.lean ====
/-
  The attention body in case A: the first key tile: reset, then one online-softmax step.
-/
import proofs.«178913_j5025111736349_2_alg».proof.Proof.Gen.Kernel.Launch
import proofs.«178913_j5025111736349_2_alg».proof.Proof.Gen.Kernel.Skeleton
import proofs.«178913_j5025111736349_2_alg».proof.Proof.Gen.Kernel.Points
import proofs.«178913_j5025111736349_2_alg».proof.Proof.KRegion1Cond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (the first key tile: reset, then one online-softmax step). What the body's stores leave in each buffer it stores into, as pieces (last first), with
    the proof that on whole buffers — the inputs at their blocks, the output's handed back untouched, the scratch at anything —
    the body runs to the continuation holding the inputs as they were and every stored buffer with its pieces written. -/
noncomputable def kernelRun1_A (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i)
    (x0 x1 x2 : Vec F S1x512x64 .bf16) :
    Σ' (LM : List (View.Piece (Elt F) S512x1 .f32)) (LL : List (View.Piece (Elt F) S512x1 .f32)), { LA : List (View.Piece (Elt F) S512x64 .f32) //
      ∀ (xi3 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1_flash_kernel i arg3 harg3 arg4 harg4 arg5 harg5 arg6 harg6 arg7 harg7 arg8 harg8 arg9 harg9) K } := by
  refine ⟨?_, ?_, ?_, fun xi3 E K => ?run⟩
  case run =>
    simp only [cc1_flash_kernel_eq_skeleton, k1_part1_eq_skeleton]; unfold cc1_flash_kernel_skel
    unfold owns
    iintro ⟨⟨%f0, %hf0, H0⟩, ⟨%f1, %hf1, H1⟩, ⟨%f2, %hf2, H2⟩, ⟨%f3, %hf3, H3⟩, ⟨%dM, %fM, -, HM⟩, ⟨%dL, %fL, -, HL⟩, ⟨%dA, %fA, -, HA⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HM]; · iexists _; iexact HM
    isplitl [HL]; · iexists _; iexact HL
    iexists _; iexact HA

end Cert.Kernel.Hand

end
-- ==== Proof.KRegion1RunB.lean ====
/-
  The attention body in case B: a middle key tile not after the query tile: one online-softmax step.
-/
import proofs.«178913_j5025111736349_2_alg».proof.Proof.Gen.Kernel.Launch
import proofs.«178913_j5025111736349_2_alg».proof.Proof.Gen.Kernel.Skeleton
import proofs.«178913_j5025111736349_2_alg».proof.Proof.Gen.Kernel.Points
import proofs.«178913_j5025111736349_2_alg».proof.Proof.KRegion1Cond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (a middle key tile not after the query tile: one online-softmax step). What the body's stores leave in each buffer it stores into, as pieces (last first), with
    the proof that on whole buffers — the inputs at their blocks, the output's handed back untouched, the scratch at what the point before left —
    the body runs to the continuation holding the inputs as they were and every stored buffer with its pieces written. -/
noncomputable def kernelRun1_B (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i)
    (x0 x1 x2 : Vec F S1x512x64 .bf16) (xsM : Vec F S512x1 .f32) (xsL : Vec F S512x1 .f32) (xsA : Vec F S512x64 .f32) :
    Σ' (LM : List (View.Piece (Elt F) S512x1 .f32)) (LL : List (View.Piece (Elt F) S512x1 .f32)), { LA : List (View.Piece (Elt F) S512x64 .f32) //
      ∀ (xi3 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xsM ∗ owns (c : Thread nD τ) arg8 fullShare xsL ∗ owns (c : Thread nD τ) arg9 fullShare xsA
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1_flash_kernel i arg3 harg3 arg4 harg4 arg5 harg5 arg6 harg6 arg7 harg7 arg8 harg8 arg9 harg9) K } := by
  refine ⟨?_, ?_, ?_, fun xi3 E K => ?run⟩
  case run =>
    simp only [cc1_flash_kernel_eq_skeleton, k1_part1_eq_skeleton]; unfold cc1_flash_kernel_skel
    unfold owns
    iintro ⟨⟨%f0, %hf0, H0⟩, ⟨%f1, %hf1, H1⟩, ⟨%f2, %hf2, H2⟩, ⟨%f3, %hf3, H3⟩, ⟨%fM, %hfM, HM⟩, ⟨%fL, %hfL, HL⟩, ⟨%fA, %hfA, HA⟩, Hk⟩
    obtain rfl := harg3.eq_unread hf0; obtain rfl := harg4.eq_unread hf1; obtain rfl := harg5.eq_unread hf2; obtain rfl := harg6.eq_unread hf3; obtain rfl := harg7.eq_unread hfM; obtain rfl := harg8.eq_unread hfL; obtain rfl := harg9.eq_unread hfA
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HM]; · iexists _; iexact HM
    isplitl [HL]; · iexists _; iexact HL
    iexists _; iexact HA

end Cert.Kernel.Hand

end
-- ==== Proof.KRegion1RunC.lean ====
/-
  The attention body in case C: a middle key tile wholly after the query tile: nothing happens.
-/
import proofs.«178913_j5025111736349_2_alg».proof.Proof.Gen.Kernel.Launch
import proofs.«178913_j5025111736349_2_alg».proof.Proof.Gen.Kernel.Skeleton
import proofs.«178913_j5025111736349_2_alg».proof.Proof.Gen.Kernel.Points
import proofs.«178913_j5025111736349_2_alg».proof.Proof.KRegion1Cond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (a middle key tile wholly after the query tile: nothing happens): the body hands every buffer back as it found it. -/
theorem kernelRun1_C (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : ¬cond1_2 i)
    (x0 x1 x2 : Vec F S1x512x64 .bf16) (xsM : Vec F S512x1 .f32) (xsL : Vec F S512x1 .f32) (xsA : Vec F S512x64 .f32) :
    ∀ (xi3 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xsM ∗ owns (c : Thread nD τ) arg8 fullShare xsL ∗ owns (c : Thread nD τ) arg9 fullShare xsA
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xsM ∗ owns (c : Thread nD τ) arg8 fullShare xsL ∗ owns (c : Thread nD τ) arg9 fullShare xsA) -∗ K ⟨⟩))
          ⊢ wp frame (wpE (defs₀ (F := F)) Variants.none c none) E (cc1_flash_kernel i arg3 harg3 arg4 harg4 arg5 harg5 arg6 harg6 arg7 harg7 arg8 harg8 arg9 harg9) K := by
  intro xi3 E K
  simp only [cc1_flash_kernel_eq_skeleton, k1_part1_eq_skeleton]; unfold cc1_flash_kernel_skel
  unfold owns
  iintro ⟨⟨%f0, %hf0, H0⟩, ⟨%f1, %hf1, H1⟩, ⟨%f2, %hf2, H2⟩, ⟨%f3, %hf3, H3⟩, ⟨%fM, %hfM, HM⟩, ⟨%fL, %hfL, HL⟩, ⟨%fA, %hfA, HA⟩, Hk⟩
  obtain rfl := harg3.eq_unread hf0; obtain rfl := harg4.eq_unread hf1; obtain rfl := harg5.eq_unread hf2; obtain rfl := harg6.eq_unread hf3; obtain rfl := harg7.eq_unread hfM; obtain rfl := harg8.eq_unread hfL; obtain rfl := harg9.eq_unread hfA
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HM]
  · iexists _; isplitr; · ipureintro; exact harg7.read_unread _
    iexact HM
  isplitl [HL]
  · iexists _; isplitr; · ipureintro; exact harg8.read_unread _
    iexact HL
  iexists _; isplitr; · ipureintro; exact harg9.read_unread _
  iexact HA

end Cert.Kernel.Hand

end
-- ==== Proof.KRegion1RunD.lean ====
/-
  The attention body in case D: the last key tile, on the diagonal: one online-softmax step, then normalise and store.
-/
import proofs.«178913_j5025111736349_2_alg».proof.Proof.Gen.Kernel.Launch
import proofs.«178913_j5025111736349_2_alg».proof.Proof.Gen.Kernel.Skeleton
import proofs.«178913_j5025111736349_2_alg».proof.Proof.Gen.Kernel.Points
import proofs.«178913_j5025111736349_2_alg».proof.Proof.KRegion1Cond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case D (the last key tile, on the diagonal: one online-softmax step, then normalise and store). What the body's stores leave in each buffer it stores into, as pieces (last first), with
    the proof that on whole buffers — the inputs at their blocks, the output's at anything, the scratch at what the point before left —
    the body runs to the continuation holding the inputs as they were and every stored buffer with its pieces written. -/
noncomputable def kernelRun1_D (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xsM : Vec F S512x1 .f32) (xsL : Vec F S512x1 .f32) (xsA : Vec F S512x64 .f32) :
    Σ' (LO : List (View.Piece (Elt F) S1x512x64 .f32)) (LM : List (View.Piece (Elt F) S512x1 .f32)) (LL : List (View.Piece (Elt F) S512x1 .f32)), { LA : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xsM ∗ owns (c : Thread nD τ) arg8 fullShare xsL ∗ owns (c : Thread nD τ) arg9 fullShare xsA
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1_flash_kernel i arg3 harg3 arg4 harg4 arg5 harg5 arg6 harg6 arg7 harg7 arg8 harg8 arg9 harg9) K } := by
  refine ⟨?_, ?_, ?_, ?_, fun E K => ?run⟩
  case run =>
    simp only [cc1_flash_kernel_eq_skeleton, k1_part1_eq_skeleton]; unfold cc1_flash_kernel_skel
    unfold owns
    iintro ⟨⟨%f0, %hf0, H0⟩, ⟨%f1, %hf1, H1⟩, ⟨%f2, %hf2, H2⟩, ⟨%d3, %f3, -, H3⟩, ⟨%fM, %hfM, HM⟩, ⟨%fL, %hfL, HL⟩, ⟨%fA, %hfA, HA⟩, Hk⟩
    obtain rfl := harg3.eq_unread hf0; obtain rfl := harg4.eq_unread hf1; obtain rfl := harg5.eq_unread hf2; obtain rfl := harg7.eq_unread hfM; obtain rfl := harg8.eq_unread hfL; obtain rfl := harg9.eq_unread hfA
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HM]; · iexists _; iexact HM
    isplitl [HL]; · iexists _; iexact HL
    iexists _; iexact HA

end Cert.Kernel.Hand

end
-- ==== Proof.KRegion1RunE.lean ====
/-
  The attention body in case E: the last key tile, wholly after the query tile: normalise and store.
-/
import proofs.«178913_j5025111736349_2_alg».proof.Proof.Gen.Kernel.Launch
import proofs.«178913_j5025111736349_2_alg».proof.Proof.Gen.Kernel.Skeleton
import proofs.«178913_j5025111736349_2_alg».proof.Proof.Gen.Kernel.Points
import proofs.«178913_j5025111736349_2_alg».proof.Proof.KRegion1Cond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case E (the last key tile, wholly after the query tile: normalise and store). What the body's stores leave in each buffer it stores into, as pieces (last first), with
    the proof that on whole buffers — the inputs at their blocks, the output's at anything, the scratch at what the point before left —
    the body runs to the continuation holding the inputs as they were and every stored buffer with its pieces written. -/
noncomputable def kernelRun1_E (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : cond1_2 i)
    (x0 x1 x2 : Vec F S1x512x64 .bf16) (xsM : Vec F S512x1 .f32) (xsL : Vec F S512x1 .f32) (xsA : Vec F S512x64 .f32) :
    { LO : List (View.Piece (Elt F) S1x512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xsM ∗ owns (c : Thread nD τ) arg8 fullShare xsL ∗ owns (c : Thread nD τ) arg9 fullShare xsA
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ owns (c : Thread nD τ) arg7 fullShare xsM ∗ owns (c : Thread nD τ) arg8 fullShare xsL ∗ owns (c : Thread nD τ) arg9 fullShare xsA) -∗ K ⟨⟩))
          ⊢ wp frame (wpE (defs₀ (F := F)) Variants.none c none) E (cc1_flash_kernel i arg3 harg3 arg4 harg4 arg5 harg5 arg6 harg6 arg7 harg7 arg8 harg8 arg9 harg9) K } := by
  refine ⟨?_, fun E K => ?run⟩
  case run =>
    simp only [cc1_flash_kernel_eq_skeleton, k1_part1_eq_skeleton]; unfold cc1_flash_kernel_skel
    unfold owns
    iintro ⟨⟨%f0, %hf0, H0⟩, ⟨%f1, %hf1, H1⟩, ⟨%f2, %hf2, H2⟩, ⟨%d3, %f3, -, H3⟩, ⟨%fM, %hfM, HM⟩, ⟨%fL, %hfL, HL⟩, ⟨%fA, %hfA, HA⟩, Hk⟩
    obtain rfl := harg3.eq_unread hf0; obtain rfl := harg4.eq_unread hf1; obtain rfl := harg5.eq_unread hf2; obtain rfl := harg7.eq_unread hfM; obtain rfl := harg8.eq_unread hfL; obtain rfl := harg9.eq_unread hfA
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HM]
    · iexists _; isplitr; · ipureintro; exact harg7.read_unread _
      iexact HM
    isplitl [HL]
    · iexists _; isplitr; · ipureintro; exact harg8.read_unread _
      iexact HL
    iexists _; isplitr; · ipureintro; exact harg9.read_unread _
    iexact HA

end Cert.Kernel.Hand

end
-- ==== Proof.KRegion1.lean ====
/-
  The attention call's proof data. What the output buffer and the three scratch buffers (running maximum, denominator,
  numerator) hold after each grid point, by recursion on the point: the case the point is in decides which buffers are
  stored into, and a case that reads the scratch reads what the point before left there. Off the last key tile the
  output window is idle: its entry is a placeholder nothing consults. The call's invariant names the scratch contents
  after each point; the body's obligation at a point is its case's run.
-/
import proofs.«178913_j5025111736349_2_alg».proof.Proof.Gen.Kernel.Launch
import proofs.«178913_j5025111736349_2_alg».proof.Proof.Gen.Kernel.Skeleton
import proofs.«178913_j5025111736349_2_alg».proof.Proof.Gen.Kernel.Points
import proofs.«178913_j5025111736349_2_alg».proof.Proof.KRegion1RunA
import proofs.«178913_j5025111736349_2_alg».proof.Proof.KRegion1RunB
import proofs.«178913_j5025111736349_2_alg».proof.Proof.KRegion1RunC
import proofs.«178913_j5025111736349_2_alg».proof.Proof.KRegion1RunD
import proofs.«178913_j5025111736349_2_alg».proof.Proof.KRegion1RunE
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the buffers it stores into -/

/-- Case A's stores into the running maximum cover it. -/
theorem coverM_A (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i)
    (x0 x1 x2 : Vec F S1x512x64 .bf16) (y : S512x1.Idx) :
    ∃ pc ∈ (kernelRun1_A c i arg3 harg3 arg4 harg4 arg5 harg5 arg6 harg6 arg7 harg7 arg8 harg8 arg9 harg9 hc0 hc1 hc2 x0 x1 x2).1, y ∈ pc.1.set :=
  View.cover_of_tiledL (kernelRun1_A c i arg3 harg3 arg4 harg4 arg5 harg5 arg6 harg6 arg7 harg7 arg8 harg8 arg9 harg9 hc0 hc1 hc2 x0 x1 x2).1 S512x1.size (by sl_kernel_rfl) y
/-- What case A leaves there: its pieces read back. -/
def soutM_A (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i)
    (x0 x1 x2 : Vec F S1x512x64 .bf16) : Vec F S512x1 .f32 :=
  VM.read (Elt F) (VM.writes (Elt F) VM.junk (kernelRun1_A c i arg3 harg3 arg4 harg4 arg5 harg5 arg6 harg6 arg7 harg7 arg8 harg8 arg9 harg9 hc0 hc1 hc2 x0 x1 x2).1)
/-- Case A's stores into the running denominator cover it. -/
theorem coverL_A (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i)
    (x0 x1 x2 : Vec F S1x512x64 .bf16) (y : S512x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL (kernelRun1_A c i arg3 harg3 arg4 harg4 arg5 harg5 arg6 harg6 arg7 harg7 arg8 harg8 arg9 harg9 hc0 hc1 hc2 x0 x1 x2).2.1 S512x1.size (by sl_kernel_rfl) y
/-- What case A leaves there: its pieces read back. -/
def soutL_A (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i)
    (x0 x1 x2 : Vec F S1x512x64 .bf16) : Vec F S512x1 .f32 :=
  VL.read (Elt F) (VL.writes (Elt F) VL.junk (kernelRun1_A c i arg3 harg3 arg4 harg4 arg5 harg5 arg6 harg6 arg7 harg7 arg8 harg8 arg9 harg9 hc0 hc1 hc2 x0 x1 x2).2.1)
/-- Case A's stores into the running numerator cover it. -/
theorem coverA_A (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i)
    (x0 x1 x2 : Vec F S1x512x64 .bf16) (y : S512x64.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL (kernelRun1_A c i arg3 harg3 arg4 harg4 arg5 harg5 arg6 harg6 arg7 harg7 arg8 harg8 arg9 harg9 hc0 hc1 hc2 x0 x1 x2).2.2.1 S512x64.size (by sl_kernel_rfl) y
/-- What case A leaves there: its pieces read back. -/
def soutA_A (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i)
    (x0 x1 x2 : Vec F S1x512x64 .bf16) : Vec F S512x64 .f32 :=
  VA.read (Elt F) (VA.writes (Elt F) VA.junk (kernelRun1_A c i arg3 harg3 arg4 harg4 arg5 harg5 arg6 harg6 arg7 harg7 arg8 harg8 arg9 harg9 hc0 hc1 hc2 x0 x1 x2).2.2.1)
/-- Case B's stores into the running maximum cover it. -/
theorem coverM_B (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i)
    (x0 x1 x2 : Vec F S1x512x64 .bf16) (xsM : Vec F S512x1 .f32) (xsL : Vec F S512x1 .f32) (xsA : Vec F S512x64 .f32) (y : S512x1.Idx) :
    ∃ pc ∈ (kernelRun1_B c i arg3 harg3 arg4 harg4 arg5 harg5 arg6 harg6 arg7 harg7 arg8 harg8 arg9 harg9 hc0 hc1 hc2 x0 x1 x2 xsM xsL xsA).1, y ∈ pc.1.set :=
  View.cover_of_tiledL (kernelRun1_B c i arg3 harg3 arg4 harg4 arg5 harg5 arg6 harg6 arg7 harg7 arg8 harg8 arg9 harg9 hc0 hc1 hc2 x0 x1 x2 xsM xsL xsA).1 S512x1.size (by sl_kernel_rfl) y
/-- What case B leaves there: its pieces read back. -/
def soutM_B (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i)
    (x0 x1 x2 : Vec F S1x512x64 .bf16) (xsM : Vec F S512x1 .f32) (xsL : Vec F S512x1 .f32) (xsA : Vec F S512x64 .f32) : Vec F S512x1 .f32 :=
  VM.read (Elt F) (VM.writes (Elt F) VM.junk (kernelRun1_B c i arg3 harg3 arg4 harg4 arg5 harg5 arg6 harg6 arg7 harg7 arg8 harg8 arg9 harg9 hc0 hc1 hc2 x0 x1 x2 xsM xsL xsA).1)
/-- Case B's stores into the running denominator cover it. -/
theorem coverL_B (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i)
    (x0 x1 x2 : Vec F S1x512x64 .bf16) (xsM : Vec F S512x1 .f32) (xsL : Vec F S512x1 .f32) (xsA : Vec F S512x64 .f32) (y : S512x1.Idx) :
    ∃ pc ∈ (kernelRun1_B c i arg3 harg3 arg4 harg4 arg5 harg5 arg6 harg6 arg7 harg7 arg8 harg8 arg9 harg9 hc0 hc1 hc2 x0 x1 x2 xsM xsL xsA).2.1, y ∈ pc.1.set :=
  View.cover_of_tiledL (kernelRun1_B c i arg3 harg3 arg4 harg4 arg5 harg5 arg6 harg6 arg7 harg7 arg8 harg8 arg9 harg9 hc0 hc1 hc2 x0 x1 x2 xsM xsL xsA).2.1 S512x1.size (by sl_kernel_rfl) y
/-- What case B leaves there: its pieces read back. -/
def soutL_B (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i)
    (x0 x1 x2 : Vec F S1x512x64 .bf16) (xsM : Vec F S512x1 .f32) (xsL : Vec F S512x1 .f32) (xsA : Vec F S512x64 .f32) : Vec F S512x1 .f32 :=
  VL.read (Elt F) (VL.writes (Elt F) VL.junk (kernelRun1_B c i arg3 harg3 arg4 harg4 arg5 harg5 arg6 harg6 arg7 harg7 arg8 harg8 arg9 harg9 hc0 hc1 hc2 x0 x1 x2 xsM xsL xsA).2.1)
/-- Case B's stores into the running numerator cover it. -/
theorem coverA_B (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i)
    (x0 x1 x2 : Vec F S1x512x64 .bf16) (xsM : Vec F S512x1 .f32) (xsL : Vec F S512x1 .f32) (xsA : Vec F S512x64 .f32) (y : S512x64.Idx) :
    ∃ pc ∈ (kernelRun1_B c i arg3 harg3 arg4 harg4 arg5 harg5 arg6 harg6 arg7 harg7 arg8 harg8 arg9 harg9 hc0 hc1 hc2 x0 x1 x2 xsM xsL xsA).2.2.1, y ∈ pc.1.set :=
  View.cover_of_tiledL (kernelRun1_B c i arg3 harg3 arg4 harg4 arg5 harg5 arg6 harg6 arg7 harg7 arg8 harg8 arg9 harg9 hc0 hc1 hc2 x0 x1 x2 xsM xsL xsA).2.2.1 S512x64.size (by sl_kernel_rfl) y
/-- What case B leaves there: its pieces read back. -/
def soutA_B (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i)
    (x0 x1 x2 : Vec F S1x512x64 .bf16) (xsM : Vec F S512x1 .f32) (xsL : Vec F S512x1 .f32) (xsA : Vec F S512x64 .f32) : Vec F S512x64 .f32 :=
  VA.read (Elt F) (VA.writes (Elt F) VA.junk (kernelRun1_B c i arg3 harg3 arg4 harg4 arg5 harg5 arg6 harg6 arg7 harg7 arg8 harg8 arg9 harg9 hc0 hc1 hc2 x0 x1 x2 xsM xsL xsA).2.2.1)
/-- Case D's stores into the output buffer cover it. -/
theorem coverO_D (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xsM : Vec F S512x1 .f32) (xsL : Vec F S512x1 .f32) (xsA : Vec F S512x64 .f32) (y : S1x512x64.Idx) :
    ∃ pc ∈ (kernelRun1_D c i arg3 harg3 arg4 harg4 arg5 harg5 arg6 harg6 arg7 harg7 arg8 harg8 arg9 harg9 hc0 hc1 hc2 x0 x1 x2 xsM xsL xsA).1, y ∈ pc.1.set :=
  View.cover_of_tiledL (kernelRun1_D c i arg3 harg3 arg4 harg4 arg5 harg5 arg6 harg6 arg7 harg7 arg8 harg8 arg9 harg9 hc0 hc1 hc2 x0 x1 x2 xsM xsL xsA).1 S1x512x64.size (by sl_kernel_rfl) y
/-- What case D leaves there: its pieces read back. -/
def soutO_D (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xsM : Vec F S512x1 .f32) (xsL : Vec F S512x1 .f32) (xsA : Vec F S512x64 .f32) : Vec F S1x512x64 .f32 :=
  VO.read (Elt F) (VO.writes (Elt F) VO.junk (kernelRun1_D c i arg3 harg3 arg4 harg4 arg5 harg5 arg6 harg6 arg7 harg7 arg8 harg8 arg9 harg9 hc0 hc1 hc2 x0 x1 x2 xsM xsL xsA).1)
/-- Case D's stores into the running maximum cover it. -/
theorem coverM_D (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xsM : Vec F S512x1 .f32) (xsL : Vec F S512x1 .f32) (xsA : Vec F S512x64 .f32) (y : S512x1.Idx) :
    ∃ pc ∈ (kernelRun1_D c i arg3 harg3 arg4 harg4 arg5 harg5 arg6 harg6 arg7 harg7 arg8 harg8 arg9 harg9 hc0 hc1 hc2 x0 x1 x2 xsM xsL xsA).2.1, y ∈ pc.1.set :=
  View.cover_of_tiledL (kernelRun1_D c i arg3 harg3 arg4 harg4 arg5 harg5 arg6 harg6 arg7 harg7 arg8 harg8 arg9 harg9 hc0 hc1 hc2 x0 x1 x2 xsM xsL xsA).2.1 S512x1.size (by sl_kernel_rfl) y
/-- What case D leaves there: its pieces read back. -/
def soutM_D (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xsM : Vec F S512x1 .f32) (xsL : Vec F S512x1 .f32) (xsA : Vec F S512x64 .f32) : Vec F S512x1 .f32 :=
  VM.read (Elt F) (VM.writes (Elt F) VM.junk (kernelRun1_D c i arg3 harg3 arg4 harg4 arg5 harg5 arg6 harg6 arg7 harg7 arg8 harg8 arg9 harg9 hc0 hc1 hc2 x0 x1 x2 xsM xsL xsA).2.1)
/-- Case D's stores into the running denominator cover it. -/
theorem coverL_D (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xsM : Vec F S512x1 .f32) (xsL : Vec F S512x1 .f32) (xsA : Vec F S512x64 .f32) (y : S512x1.Idx) :
    ∃ pc ∈ (kernelRun1_D c i arg3 harg3 arg4 harg4 arg5 harg5 arg6 harg6 arg7 harg7 arg8 harg8 arg9 harg9 hc0 hc1 hc2 x0 x1 x2 xsM xsL xsA).2.2.1, y ∈ pc.1.set :=
  View.cover_of_tiledL (kernelRun1_D c i arg3 harg3 arg4 harg4 arg5 harg5 arg6 harg6 arg7 harg7 arg8 harg8 arg9 harg9 hc0 hc1 hc2 x0 x1 x2 xsM xsL xsA).2.2.1 S512x1.size (by sl_kernel_rfl) y
/-- What case D leaves there: its pieces read back. -/
def soutL_D (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xsM : Vec F S512x1 .f32) (xsL : Vec F S512x1 .f32) (xsA : Vec F S512x64 .f32) : Vec F S512x1 .f32 :=
  VL.read (Elt F) (VL.writes (Elt F) VL.junk (kernelRun1_D c i arg3 harg3 arg4 harg4 arg5 harg5 arg6 harg6 arg7 harg7 arg8 harg8 arg9 harg9 hc0 hc1 hc2 x0 x1 x2 xsM xsL xsA).2.2.1)
/-- Case D's stores into the running numerator cover it. -/
theorem coverA_D (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xsM : Vec F S512x1 .f32) (xsL : Vec F S512x1 .f32) (xsA : Vec F S512x64 .f32) (y : S512x64.Idx) :
    ∃ pc ∈ (kernelRun1_D c i arg3 harg3 arg4 harg4 arg5 harg5 arg6 harg6 arg7 harg7 arg8 harg8 arg9 harg9 hc0 hc1 hc2 x0 x1 x2 xsM xsL xsA).2.2.2.1, y ∈ pc.1.set :=
  View.cover_of_tiledL (kernelRun1_D c i arg3 harg3 arg4 harg4 arg5 harg5 arg6 harg6 arg7 harg7 arg8 harg8 arg9 harg9 hc0 hc1 hc2 x0 x1 x2 xsM xsL xsA).2.2.2.1 S512x64.size (by sl_kernel_rfl) y
/-- What case D leaves there: its pieces read back. -/
def soutA_D (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xsM : Vec F S512x1 .f32) (xsL : Vec F S512x1 .f32) (xsA : Vec F S512x64 .f32) : Vec F S512x64 .f32 :=
  VA.read (Elt F) (VA.writes (Elt F) VA.junk (kernelRun1_D c i arg3 harg3 arg4 harg4 arg5 harg5 arg6 harg6 arg7 harg7 arg8 harg8 arg9 harg9 hc0 hc1 hc2 x0 x1 x2 xsM xsL xsA).2.2.2.1)
/-- Case E's stores into the output buffer cover it. -/
theorem coverO_E (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : cond1_2 i)
    (x0 x1 x2 : Vec F S1x512x64 .bf16) (xsM : Vec F S512x1 .f32) (xsL : Vec F S512x1 .f32) (xsA : Vec F S512x64 .f32) (y : S1x512x64.Idx) :
    ∃ pc ∈ (kernelRun1_E c i arg3 harg3 arg4 harg4 arg5 harg5 arg6 harg6 arg7 harg7 arg8 harg8 arg9 harg9 hc0 hc1 hc2 x0 x1 x2 xsM xsL xsA).1, y ∈ pc.1.set :=
  View.cover_of_tiledL (kernelRun1_E c i arg3 harg3 arg4 harg4 arg5 harg5 arg6 harg6 arg7 harg7 arg8 harg8 arg9 harg9 hc0 hc1 hc2 x0 x1 x2 xsM xsL xsA).1 S1x512x64.size (by sl_kernel_rfl) y
/-- What case E leaves there: its pieces read back. -/
def soutO_E (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : cond1_2 i)
    (x0 x1 x2 : Vec F S1x512x64 .bf16) (xsM : Vec F S512x1 .f32) (xsL : Vec F S512x1 .f32) (xsA : Vec F S512x64 .f32) : Vec F S1x512x64 .f32 :=
  VO.read (Elt F) (VO.writes (Elt F) VO.junk (kernelRun1_E c i arg3 harg3 arg4 harg4 arg5 harg5 arg6 harg6 arg7 harg7 arg8 harg8 arg9 harg9 hc0 hc1 hc2 x0 x1 x2 xsM xsL xsA).1)

section Region1
-- the contents of the TensorCore's buffers when the call is entered
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile's buffer holds the tile at every point (it is fetched when the query tile changes). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key tile's buffer holds the block its index names at every point: where it is not fetched the index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for the value tile. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The buffers after a point, case by case -/

/-- The output buffer and the three scratch buffers after a point of case A. -/
def caseA (c : Dev nD) (t : Fin cfg1.N) (h0 : t.val % 4 = 0) (h1 : t.val % 4 ≤ t.val / 4 % 4) (h2 : ¬t.val % 4 = 3) : Vec F S1x512x64 .f32 × Vec F S512x1 .f32 × Vec F S512x1 .f32 × Vec F S512x64 .f32 :=
  (VO.read (Elt F) VO.junk, soutM_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) ((hcond1_1 t).mpr h1) (fun h => h2 ((hcond1_2 t).mp h)) (iblk1 V c 0 t) (iblk1 V c 1 t) (iblk1 V c 2 t), soutL_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) ((hcond1_1 t).mpr h1) (fun h => h2 ((hcond1_2 t).mp h)) (iblk1 V c 0 t) (iblk1 V c 1 t) (iblk1 V c 2 t), soutA_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) ((hcond1_1 t).mpr h1) (fun h => h2 ((hcond1_2 t).mp h)) (iblk1 V c 0 t) (iblk1 V c 1 t) (iblk1 V c 2 t))
/-- The output buffer and the three scratch buffers after a point of case B, from what the point before left in the scratch (`p`). -/
def caseB (c : Dev nD) (t : Fin cfg1.N) (h0 : ¬t.val % 4 = 0) (h1 : t.val % 4 ≤ t.val / 4 % 4) (h2 : ¬t.val % 4 = 3) (p : Vec F S512x1 .f32 × Vec F S512x1 .f32 × Vec F S512x64 .f32) : Vec F S1x512x64 .f32 × Vec F S512x1 .f32 × Vec F S512x1 .f32 × Vec F S512x64 .f32 :=
  (VO.read (Elt F) VO.junk, soutM_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) (fun h => h2 ((hcond1_2 t).mp h)) (iblk1 V c 0 t) (iblk1 V c 1 t) (iblk1 V c 2 t) p.1 p.2.1 p.2.2, soutL_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) (fun h => h2 ((hcond1_2 t).mp h)) (iblk1 V c 0 t) (iblk1 V c 1 t) (iblk1 V c 2 t) p.1 p.2.1 p.2.2, soutA_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) (fun h => h2 ((hcond1_2 t).mp h)) (iblk1 V c 0 t) (iblk1 V c 1 t) (iblk1 V c 2 t) p.1 p.2.1 p.2.2)
/-- The output buffer and the three scratch buffers after a point of case C, from what the point before left in the scratch (`p`). -/
def caseC (c : Dev nD) (t : Fin cfg1.N) (h0 : ¬t.val % 4 = 0) (h1 : ¬t.val % 4 ≤ t.val / 4 % 4) (h2 : ¬t.val % 4 = 3) (p : Vec F S512x1 .f32 × Vec F S512x1 .f32 × Vec F S512x64 .f32) : Vec F S1x512x64 .f32 × Vec F S512x1 .f32 × Vec F S512x1 .f32 × Vec F S512x64 .f32 :=
  (VO.read (Elt F) VO.junk, p.1, p.2.1, p.2.2)
/-- The output buffer and the three scratch buffers after a point of case D, from what the point before left in the scratch (`p`). -/
def caseD (c : Dev nD) (t : Fin cfg1.N) (h0 : ¬t.val % 4 = 0) (h1 : t.val % 4 ≤ t.val / 4 % 4) (h2 : t.val % 4 = 3) (p : Vec F S512x1 .f32 × Vec F S512x1 .f32 × Vec F S512x64 .f32) : Vec F S1x512x64 .f32 × Vec F S512x1 .f32 × Vec F S512x1 .f32 × Vec F S512x64 .f32 :=
  (soutO_D c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) ((hcond1_2 t).mpr h2) (iblk1 V c 0 t) (iblk1 V c 1 t) (iblk1 V c 2 t) p.1 p.2.1 p.2.2, soutM_D c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) ((hcond1_2 t).mpr h2) (iblk1 V c 0 t) (iblk1 V c 1 t) (iblk1 V c 2 t) p.1 p.2.1 p.2.2, soutL_D c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) ((hcond1_2 t).mpr h2) (iblk1 V c 0 t) (iblk1 V c 1 t) (iblk1 V c 2 t) p.1 p.2.1 p.2.2, soutA_D c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) ((hcond1_2 t).mpr h2) (iblk1 V c 0 t) (iblk1 V c 1 t) (iblk1 V c 2 t) p.1 p.2.1 p.2.2)
/-- The output buffer and the three scratch buffers after a point of case E, from what the point before left in the scratch (`p`). -/
def caseE (c : Dev nD) (t : Fin cfg1.N) (h0 : ¬t.val % 4 = 0) (h1 : ¬t.val % 4 ≤ t.val / 4 % 4) (h2 : t.val % 4 = 3) (p : Vec F S512x1 .f32 × Vec F S512x1 .f32 × Vec F S512x64 .f32) : Vec F S1x512x64 .f32 × Vec F S512x1 .f32 × Vec F S512x1 .f32 × Vec F S512x64 .f32 :=
  (soutO_E c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) ((hcond1_2 t).mpr h2) (iblk1 V c 0 t) (iblk1 V c 1 t) (iblk1 V c 2 t) p.1 p.2.1 p.2.2, p.1, p.2.1, p.2.2)

/-- THE ACCUMULATION: the output buffer and the scratch buffers after the body at position `n`. The key tile is
    `n % 4`, the query tile `n / 4 % 4`. -/
def outsAt1 (c : Dev nD) : (n : ℕ) → n < cfg1.N → Vec F S1x512x64 .f32 × Vec F S512x1 .f32 × Vec F S512x1 .f32 × Vec F S512x64 .f32
  | 0, hn => caseA V c ⟨0, hn⟩ (Nat.zero_mod _) (Nat.zero_le _) (by show ¬0 % 4 = 3; decide)
  | n + 1, hn =>
    if h0 : (n + 1) % 4 = 0 then caseA V c ⟨n + 1, hn⟩ h0 (by show (n + 1) % 4 ≤ (n + 1) / 4 % 4; omega) (by show ¬(n + 1) % 4 = 3; omega)
    else if h2 : (n + 1) % 4 = 3 then
      if h1 : (n + 1) % 4 ≤ (n + 1) / 4 % 4 then caseD V c ⟨n + 1, hn⟩ h0 h1 h2 (outsAt1 c n (Nat.lt_of_succ_lt hn)).2
      else caseE V c ⟨n + 1, hn⟩ h0 h1 h2 (outsAt1 c n (Nat.lt_of_succ_lt hn)).2
    else
      if h1 : (n + 1) % 4 ≤ (n + 1) / 4 % 4 then caseB V c ⟨n + 1, hn⟩ h0 h1 h2 (outsAt1 c n (Nat.lt_of_succ_lt hn)).2
      else caseC c ⟨n + 1, hn⟩ h0 h1 h2 (outsAt1 c n (Nat.lt_of_succ_lt hn)).2

theorem outsAt1_A (c : Dev nD) (t : Fin cfg1.N) (h0 : t.val % 4 = 0) (h1 : t.val % 4 ≤ t.val / 4 % 4) (h2 : ¬t.val % 4 = 3) :
    outsAt1 V c t.val t.isLt = caseA V c t h0 h1 h2 := by
  obtain ⟨n, hn⟩ := t
  cases n with
  | zero => rfl
  | succ n => exact dif_pos h0
theorem outsAt1_B (c : Dev nD) (t : Fin cfg1.N) (h0 : ¬t.val % 4 = 0) (h1 : t.val % 4 ≤ t.val / 4 % 4) (h2 : ¬t.val % 4 = 3) :
    outsAt1 V c t.val t.isLt = caseB V c t h0 h1 h2 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h2).trans ((dif_pos h1).trans rfl))
theorem outsAt1_C (c : Dev nD) (t : Fin cfg1.N) (h0 : ¬t.val % 4 = 0) (h1 : ¬t.val % 4 ≤ t.val / 4 % 4) (h2 : ¬t.val % 4 = 3) :
    outsAt1 V c t.val t.isLt = caseC c t h0 h1 h2 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h2).trans ((dif_neg h1).trans rfl))
theorem outsAt1_D (c : Dev nD) (t : Fin cfg1.N) (h0 : ¬t.val % 4 = 0) (h1 : t.val % 4 ≤ t.val / 4 % 4) (h2 : t.val % 4 = 3) :
    outsAt1 V c t.val t.isLt = caseD V c t h0 h1 h2 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h2).trans ((dif_pos h1).trans rfl))
theorem outsAt1_E (c : Dev nD) (t : Fin cfg1.N) (h0 : ¬t.val % 4 = 0) (h1 : ¬t.val % 4 ≤ t.val / 4 % 4) (h2 : t.val % 4 = 3) :
    outsAt1 V c t.val t.isLt = caseE V c t h0 h1 h2 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h2).trans ((dif_neg h1).trans rfl))

/-! ## The invariant: the scratch buffers at what the point before left -/

/-- The three scratch buffers at named contents, beside the other call's staging buffers and the generator register. -/
def scratchAt (c : Dev nD) (p : Vec F S512x1 .f32 × Vec F S512x1 .f32 × Vec F S512x64 .f32) : sProp 𝕄 :=
  iprop(withOthers c iprop(owns (c : Thread nD τ) scM fullShare p.1 ∗ owns (c : Thread nD τ) scL fullShare p.2.1
    ∗ owns (c : Thread nD τ) scA fullShare p.2.2) ∗ (∃ r, prngReg c r))

/-- Before the first point the class invariant (every scratch at anything); afterwards the scratch at what the point
    before left. -/
def PhiS (c : Dev nD) : (n : ℕ) → n ≤ cfg1.N → sProp 𝕄
  | 0, _ => Pipeline.ΦA spec1 c
  | n + 1, hn => scratchAt c (outsAt1 V c n hn).2

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) : PhiS V c (n + 1) hn = scratchAt c (outsAt1 V c n hn).2 := rfl
theorem PhiS_pos (c : Dev nD) (n : ℕ) (h : n ≤ cfg1.N) (hz : n ≠ 0) :
    PhiS V c n h = scratchAt c (outsAt1 V c (n - 1) (by omega)).2 := by
  cases n with
  | zero => exact absurd rfl hz
  | succ n => rfl

/-- Named scratch contents may be forgotten: the class invariant. -/
theorem scratchAt_forget (c : Dev nD) (p : Vec F S512x1 .f32 × Vec F S512x1 .f32 × Vec F S512x64 .f32) :
    scratchAt (F := F) c p ⊢ Pipeline.ΦA spec1 c := by
  rw [PhiA1_eq]; unfold scratchAt
  iintro ⟨Hw, Hg⟩
  isplitl [Hw]
  · iapply (withOthers_mono c (T := iprop(owns (c : Thread nD τ) scM fullShare p.1 ∗ owns (c : Thread nD τ) scL fullShare p.2.1 ∗ owns (c : Thread nD τ) scA fullShare p.2.2)) (by
      iintro ⟨HM, HL, HA⟩
      isplitl [HM]; · iexists _; iexact HM
      isplitl [HL]; · iexists _; iexact HL
      iexists _; iexact HA))
    iexact Hw
  iexact Hg

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's obligation at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point: the closed forms say which case the point is in; that case's run applies, the invariant
    handing it the scratch at what the point before left and taking it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 128 := lt_of_lt_of_eq t.isLt (show cfg1.N = 128 from N_1)
  by_cases h0 : t.val % 4 = 0
  · have h1 : t.val % 4 ≤ t.val / 4 % 4 := by omega
    have h2 : ¬t.val % 4 = 3 := by omega
    rw [Dat.leavesExact_idle (dat1 V c) 3 t (idleAt1_3 t (fun h => h2 ((hcond1_2 t).mp h))) (noFlush1_3 t (fun h => h2 ((hcond1_2 t).mp h)))]
    rw [outsAt1_A V c t h0 h1 h2]
    unfold caseA soutM_A soutL_A soutA_A scratchAt withOthers; (try dsimp only)
    by_cases hz : t.val = 0
    · rw [PhiS_castSucc V c t, PhiS_zero V c _ _ hz, PhiA1_eq]; unfold withOthers
      iintro ⟨⟨⟨F0, F1, F2, F3, F4, F5, F6, F7, F8, HM, HL, HA⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) ((hcond1_1 t).mpr h1) (fun h => h2 ((hcond1_2 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%eM, HM⟩, ⟨%eL, HL⟩, ⟨%eA, HA⟩⟩
      isplitl [F0 F1 F2 F3 F4 F5 F6 F7 F8 HM HL HA Hg]
      · isplitl [F0 F1 F2 F3 F4 F5 F6 F7 F8 HM HL HA]
        · isplitl [F0]; · iexact F0
          isplitl [F1]; · iexact F1
          isplitl [F2]; · iexact F2
          isplitl [F3]; · iexact F3
          isplitl [F4]; · iexact F4
          isplitl [F5]; · iexact F5
          isplitl [F6]; · iexact F6
          isplitl [F7]; · iexact F7
          isplitl [F8]; · iexact F8
          isplitl [HM]
          · unfold owns; iexists _; isplitr
            swap; · iexact HM
            ipureintro; exact View.read_writes_of_cover _ _ _ _ _ (coverM_A c _ _ _ _ _ _ _ _ _ _ _ _ _ _ _ _ _ _ _ _ _)
          isplitl [HL]
          · unfold owns; iexists _; isplitr
            swap; · iexact HL
            ipureintro; exact View.read_writes_of_cover _ _ _ _ _ (coverL_A c _ _ _ _ _ _ _ _ _ _ _ _ _ _ _ _ _ _ _ _ _)
          unfold owns; iexists _; isplitr
          swap; · iexact HA
          ipureintro; exact View.read_writes_of_cover _ _ _ _ _ (coverA_A c _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]; unfold scratchAt withOthers
      iintro ⟨⟨⟨F0, F1, F2, F3, F4, F5, F6, F7, F8, HM, HL, HA⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) ((hcond1_1 t).mpr h1) (fun h => h2 ((hcond1_2 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HM]; · iexists _; iexact HM
      isplitl [HL]; · iexists _; iexact HL
      isplitl [HA]; · iexists _; iexact HA
      iintro ⟨H0, H1, H2, H3, ⟨%eM, HM⟩, ⟨%eL, HL⟩, ⟨%eA, HA⟩⟩
      isplitl [F0 F1 F2 F3 F4 F5 F6 F7 F8 HM HL HA Hg]
      · isplitl [F0 F1 F2 F3 F4 F5 F6 F7 F8 HM HL HA]
        · isplitl [F0]; · iexact F0
          isplitl [F1]; · iexact F1
          isplitl [F2]; · iexact F2
          isplitl [F3]; · iexact F3
          isplitl [F4]; · iexact F4
          isplitl [F5]; · iexact F5
          isplitl [F6]; · iexact F6
          isplitl [F7]; · iexact F7
          isplitl [F8]; · iexact F8
          isplitl [HM]
          · unfold owns; iexists _; isplitr
            swap; · iexact HM
            ipureintro; exact View.read_writes_of_cover _ _ _ _ _ (coverM_A c _ _ _ _ _ _ _ _ _ _ _ _ _ _ _ _ _ _ _ _ _)
          isplitl [HL]
          · unfold owns; iexists _; isplitr
            swap; · iexact HL
            ipureintro; exact View.read_writes_of_cover _ _ _ _ _ (coverL_A c _ _ _ _ _ _ _ _ _ _ _ _ _ _ _ _ _ _ _ _ _)
          unfold owns; iexists _; isplitr
          swap; · iexact HA
          ipureintro; exact View.read_writes_of_cover _ _ _ _ _ (coverA_A c _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · by_cases h2 : t.val % 4 = 3
    · by_cases h1 : t.val % 4 ≤ t.val / 4 % 4
      ·
        rw [show (dat1 V c).leavesExact 3 t = owns (c : Thread nD τ) (ms1_3 t) fullShare ((dat1 V c).after 3 t) from by
          unfold Dat.leavesExact; rw [liveAt1_3 t ((hcond1_2 t).mpr h2)], after1_3]
        rw [outsAt1_D V c t h0 h1 h2]
        unfold caseD soutO_D soutM_D soutL_D soutA_D scratchAt withOthers; (try dsimp only)
        have hz : t.val ≠ 0 := by omega
        rw [PhiS_castSucc V c t, PhiS_pos V c _ _ hz]; unfold scratchAt withOthers
        iintro ⟨⟨⟨F0, F1, F2, F3, F4, F5, F6, F7, F8, HM, HL, HA⟩, Hg⟩, Ho, ⟨%d0, H0⟩, ⟨%d1, H1⟩, ⟨%d2, H2⟩, ⟨%d3, H3⟩⟩
        iapply ((kernelRun1_D c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) ((hcond1_2 t).mpr h2) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HM]; · iexact HM
        isplitl [HL]; · iexact HL
        isplitl [HA]; · iexact HA
        iintro ⟨H0, H1, H2, ⟨%e3, H3⟩, ⟨%eM, HM⟩, ⟨%eL, HL⟩, ⟨%eA, HA⟩⟩
        isplitl [F0 F1 F2 F3 F4 F5 F6 F7 F8 HM HL HA Hg]
        · isplitl [F0 F1 F2 F3 F4 F5 F6 F7 F8 HM HL HA]
          · isplitl [F0]; · iexact F0
            isplitl [F1]; · iexact F1
            isplitl [F2]; · iexact F2
            isplitl [F3]; · iexact F3
            isplitl [F4]; · iexact F4
            isplitl [F5]; · iexact F5
            isplitl [F6]; · iexact F6
            isplitl [F7]; · iexact F7
            isplitl [F8]; · iexact F8
            isplitl [HM]
            · unfold owns; iexists _; isplitr
              swap; · iexact HM
              ipureintro; exact View.read_writes_of_cover _ _ _ _ _ (coverM_D c _ _ _ _ _ _ _ _ _ _ _ _ _ _ _ _ _ _ _ _ _ _ _ _)
            isplitl [HL]
            · unfold owns; iexists _; isplitr
              swap; · iexact HL
              ipureintro; exact View.read_writes_of_cover _ _ _ _ _ (coverL_D c _ _ _ _ _ _ _ _ _ _ _ _ _ _ _ _ _ _ _ _ _ _ _ _)
            unfold owns; iexists _; isplitr
            swap; · iexact HA
            ipureintro; exact View.read_writes_of_cover _ _ _ _ _ (coverA_D c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverO_D c _ _ _ _ _ _ _ _ _ _ _ _ _ _ _ _ _ _ _ _ _ _ _ _)
      ·
        rw [show (dat1 V c).leavesExact 3 t = owns (c : Thread nD τ) (ms1_3 t) fullShare ((dat1 V c).after 3 t) from by
          unfold Dat.leavesExact; rw [liveAt1_3 t ((hcond1_2 t).mpr h2)], after1_3]
        rw [outsAt1_E V c t h0 h1 h2]
        unfold caseE soutO_E scratchAt withOthers; (try dsimp only)
        have hz : t.val ≠ 0 := by omega
        rw [PhiS_castSucc V c t, PhiS_pos V c _ _ hz]; unfold scratchAt withOthers
        iintro ⟨⟨⟨F0, F1, F2, F3, F4, F5, F6, F7, F8, HM, HL, HA⟩, Hg⟩, Ho, ⟨%d0, H0⟩, ⟨%d1, H1⟩, ⟨%d2, H2⟩, ⟨%d3, H3⟩⟩
        iapply ((kernelRun1_E c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) ((hcond1_2 t).mpr h2) (iblk1 V c 0 t) (iblk1 V c 1 t) (iblk1 V c 2 t) _ _ _).2 Set.univ _)
        isplitl [H0]; · iexact H0
        isplitl [H1]; · iexact H1
        isplitl [H2]; · iexact H2
        isplitl [H3]; · iexists _; iexact H3
        isplitl [HM]; · iexact HM
        isplitl [HL]; · iexact HL
        isplitl [HA]; · iexact HA
        iintro ⟨H0, H1, H2, ⟨%e3, H3⟩, HM, HL, HA⟩
        isplitl [F0 F1 F2 F3 F4 F5 F6 F7 F8 HM HL HA Hg]
        · isplitl [F0 F1 F2 F3 F4 F5 F6 F7 F8 HM HL HA]
          · isplitl [F0]; · iexact F0
            isplitl [F1]; · iexact F1
            isplitl [F2]; · iexact F2
            isplitl [F3]; · iexact F3
            isplitl [F4]; · iexact F4
            isplitl [F5]; · iexact F5
            isplitl [F6]; · iexact F6
            isplitl [F7]; · iexact F7
            isplitl [F8]; · iexact F8
            isplitl [HM]; · iexact HM
            isplitl [HL]; · iexact HL
            iexact HA
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverO_E c _ _ _ _ _ _ _ _ _ _ _ _ _ _ _ _ _ _ _ _ _ _ _ _)
    · by_cases h1 : t.val % 4 ≤ t.val / 4 % 4
      ·
        rw [Dat.leavesExact_idle (dat1 V c) 3 t (idleAt1_3 t (fun h => h2 ((hcond1_2 t).mp h))) (noFlush1_3 t (fun h => h2 ((hcond1_2 t).mp h)))]
        rw [outsAt1_B V c t h0 h1 h2]
        unfold caseB soutM_B soutL_B soutA_B scratchAt withOthers; (try dsimp only)
        have hz : t.val ≠ 0 := by omega
        rw [PhiS_castSucc V c t, PhiS_pos V c _ _ hz]; unfold scratchAt withOthers
        iintro ⟨⟨⟨F0, F1, F2, F3, F4, F5, F6, F7, F8, HM, HL, HA⟩, Hg⟩, Ho, ⟨%d0, H0⟩, ⟨%d1, H1⟩, ⟨%d2, H2⟩, ⟨%d3, H3⟩⟩
        iapply ((kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) (fun h => h2 ((hcond1_2 t).mp h)) (iblk1 V c 0 t) (iblk1 V c 1 t) (iblk1 V c 2 t) _ _ _).2.2.2 _ Set.univ _)
        isplitl [H0]; · iexact H0
        isplitl [H1]; · iexact H1
        isplitl [H2]; · iexact H2
        isplitl [H3]; · iexact H3
        isplitl [HM]; · iexact HM
        isplitl [HL]; · iexact HL
        isplitl [HA]; · iexact HA
        iintro ⟨H0, H1, H2, H3, ⟨%eM, HM⟩, ⟨%eL, HL⟩, ⟨%eA, HA⟩⟩
        isplitl [F0 F1 F2 F3 F4 F5 F6 F7 F8 HM HL HA Hg]
        · isplitl [F0 F1 F2 F3 F4 F5 F6 F7 F8 HM HL HA]
          · isplitl [F0]; · iexact F0
            isplitl [F1]; · iexact F1
            isplitl [F2]; · iexact F2
            isplitl [F3]; · iexact F3
            isplitl [F4]; · iexact F4
            isplitl [F5]; · iexact F5
            isplitl [F6]; · iexact F6
            isplitl [F7]; · iexact F7
            isplitl [F8]; · iexact F8
            isplitl [HM]
            · unfold owns; iexists _; isplitr
              swap; · iexact HM
              ipureintro; exact View.read_writes_of_cover _ _ _ _ _ (coverM_B c _ _ _ _ _ _ _ _ _ _ _ _ _ _ _ _ _ _ _ _ _ _ _ _)
            isplitl [HL]
            · unfold owns; iexists _; isplitr
              swap; · iexact HL
              ipureintro; exact View.read_writes_of_cover _ _ _ _ _ (coverL_B c _ _ _ _ _ _ _ _ _ _ _ _ _ _ _ _ _ _ _ _ _ _ _ _)
            unfold owns; iexists _; isplitr
            swap; · iexact HA
            ipureintro; exact View.read_writes_of_cover _ _ _ _ _ (coverA_B c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      ·
        rw [Dat.leavesExact_idle (dat1 V c) 3 t (idleAt1_3 t (fun h => h2 ((hcond1_2 t).mp h))) (noFlush1_3 t (fun h => h2 ((hcond1_2 t).mp h)))]
        rw [outsAt1_C V c t h0 h1 h2]
        unfold caseC scratchAt withOthers; (try dsimp only)
        have hz : t.val ≠ 0 := by omega
        rw [PhiS_castSucc V c t, PhiS_pos V c _ _ hz]; unfold scratchAt withOthers
        iintro ⟨⟨⟨F0, F1, F2, F3, F4, F5, F6, F7, F8, HM, HL, HA⟩, Hg⟩, Ho, ⟨%d0, H0⟩, ⟨%d1, H1⟩, ⟨%d2, H2⟩, ⟨%d3, H3⟩⟩
        iapply (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (fun h => h2 ((hcond1_2 t).mp h)) (iblk1 V c 0 t) (iblk1 V c 1 t) (iblk1 V c 2 t) _ _ _ _ Set.univ _)
        isplitl [H0]; · iexact H0
        isplitl [H1]; · iexact H1
        isplitl [H2]; · iexact H2
        isplitl [H3]; · iexact H3
        isplitl [HM]; · iexact HM
        isplitl [HL]; · iexact HL
        isplitl [HA]; · iexact HA
        iintro ⟨H0, H1, H2, H3, HM, HL, HA⟩
        isplitl [F0 F1 F2 F3 F4 F5 F6 F7 F8 HM HL HA Hg]
        · isplitl [F0 F1 F2 F3 F4 F5 F6 F7 F8 HM HL HA]
          · isplitl [F0]; · iexact F0
            isplitl [F1]; · iexact F1
            isplitl [F2]; · iexact F2
            isplitl [F3]; · iexact F3
            isplitl [F4]; · iexact F4
            isplitl [F5]; · iexact F5
            isplitl [F6]; · iexact F6
            isplitl [F7]; · iexact F7
            isplitl [F8]; · iexact F8
            isplitl [HM]; · iexact HM
            isplitl [HL]; · iexact HL
            iexact HA
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the scratch's named contents are forgotten. -/
theorem hout1 (c : Dev nD) : (dat1 V c).Φ (Fin.last cfg1.N) ⊢ Pipeline.ΦA spec1 c := by
  have hN : cfg1.N = 128 := N_1
  rw [show (dat1 V c).Φ (Fin.last cfg1.N) = PhiS V c (Fin.last cfg1.N).val (Nat.le_of_lt_succ (Fin.last cfg1.N).isLt) from rfl,
    PhiS_pos V c _ _ (by rw [Fin.val_last]; omega)]
  exact scratchAt_forget c _

end Region1

end Cert.Kernel.Hand

end
-- ==== Proof.KRun.lean ====
/-
  The whole program's run. @main is the concatenation of the three weight matrices on the host, the projection call and
  the attention call. Between two items every unscoped buffer of the core is held at known contents: the launch memory,
  then with the concatenated matrix written, then with q, k, v at what the projection call's write-backs leave, then with
  the result at what the attention call's write-backs leave. Each call is a segment entered from the contents before it
  and left at the contents after it; the run ends with every unscoped buffer at the last contents, from which both the
  arguments (never written) and the result are read.
-/
import proofs.«178913_j5025111736349_2_alg».proof.Proof.Gen.Kernel.Launch
import proofs.«178913_j5025111736349_2_alg».proof.Proof.Gen.Kernel.Skeleton
import proofs.«178913_j5025111736349_2_alg».proof.Proof.Gen.Kernel.Points
import proofs.«178913_j5025111736349_2_alg».proof.Proof.KRegion0
import proofs.«178913_j5025111736349_2_alg».proof.Proof.KRegion1
import proofs.«178913_j5025111736349_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the concatenation (the projection call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At the attention call's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The calls as segments -/

set_option backward.isDefEq.respectTransparency.types false in
/-- The projection call: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered from every unscoped buffer at `W2`, left at `W3`; its invariant is the class invariant
    before the first point and gives it back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## What the last contents are at the buffers the claims speak of -/

/-- The result is what the attention call's write-backs leave in its output array. -/
theorem W3_result (c : Dev nD) : W3 m ρ c (Proc.devRef .tc main_v2) = (dat1 (V2 m ρ) c).arrAt 3 cfg1.N :=
  W3_arr m ρ c 3

/-- No item writes an argument: the concatenation writes its own result, the calls their own outputs. -/
theorem W1_arg (c : Dev nD) (r : Ref sig .tc) (h : r ∉ hostOps0_W) : W1 m ρ c (Proc.devRef .tc r) = m ((c : Thread nD τ).loc r) :=
  V1_of m c r h
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_arg m ρ c main_arg0 (by decide)
theorem W3_main_arg1 (c : Dev nD) : W3 m ρ c (Proc.devRef .tc main_arg1) = m ((c : Thread nD τ).loc main_arg1) :=
  (W3_of_ne m ρ c main_arg1 (by decide)).trans ((W2_of_ne m ρ c main_arg1 (by decide)).trans (W1_arg m ρ c main_arg1 (by decide)))
theorem W3_main_arg2 (c : Dev nD) : W3 m ρ c (Proc.devRef .tc main_arg2) = m ((c : Thread nD τ).loc main_arg2) :=
  (W3_of_ne m ρ c main_arg2 (by decide)).trans ((W2_of_ne m ρ c main_arg2 (by decide)).trans (W1_arg m ρ c main_arg2 (by decide)))
theorem W3_main_arg3 (c : Dev nD) : W3 m ρ c (Proc.devRef .tc main_arg3) = m ((c : Thread nD τ).loc main_arg3) :=
  (W3_of_ne m ρ c main_arg3 (by decide)).trans ((W2_of_ne m ρ c main_arg3 (by decide)).trans (W1_arg m ρ c main_arg3 (by decide)))

/-- The run with its post read at the result and the arguments. -/
theorem run_main : θ_run defs (onTc (τ := τ) (main (F := F))) ⟨m, fun _ => 0, ρ⟩ (fun r => ∀ c : Dev nD,
      r.2.mem ((c.tc : Thread nD τ).loc main_v2) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans (W3_result m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Hand

end
-- ==== Proof.Region0.lean ====
/-
  The projection call: one grid point per (batch, row tile of 1024 rows). At a point the body reads the tile of x
  (1024 × 1024) and the whole concatenated weight matrix (1024 × 192), forms their product once, and stores the three
  column bands 0–63, 64–127, 128–191 of the product as the tile's rows of q, k and v. Nothing is carried from point to
  point. Stated here, for any float interpretation: each window's block at a point, what each output buffer holds after
  the body (its one store, over the product of the two input blocks), the body's triple, the proof data, and the
  body's obligation at every point.
-/
import proofs.«178913_j5025111736349_2_alg».proof.Proof.Gen.KernelIdeal.Launch
import proofs.«178913_j5025111736349_2_alg».proof.Proof.Gen.KernelIdeal.Skeleton
import proofs.«178913_j5025111736349_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
-- the contents of the TensorCore's buffers when the call is entered
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x tile's buffer holds the tile at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's buffer holds the whole matrix at every point, though it is fetched at the first only: its
    block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rx : Rect S1x1024x1024 := Rect.unit (s := S1x1024x1024) ![0, 0, 0] S1x1024x1024.size inb_S1x1024x1024_S1x1024x1024_0_0_0
abbrev rw : Rect S1024x192 := Rect.unit (s := S1024x192) ![0, 0] S1024x192.size inb_S1024x192_S1024x192_0_0
abbrev ro : Rect S1x1024x64 := Rect.unit (s := S1x1024x64) ![0, 0, 0] S1x1024x64.size inb_S1x1024x64_S1x1024x64_0_0_0

/-! ## What the body leaves in each output buffer: one store, of a column band of the product -/

def outQ (x0 : Vec F S1x1024x1024 .f32) (x1 : Vec F S1024x192 .f32) : Vec F S1x1024x64 .bf16 :=
  View.canon [⟨ro, k0_pay2 (View.ld x0 rx) (View.ld x1 rw)⟩]
def outK (x0 : Vec F S1x1024x1024 .f32) (x1 : Vec F S1024x192 .f32) : Vec F S1x1024x64 .bf16 :=
  View.canon [⟨ro, k0_pay3 (View.ld x0 rx) (View.ld x1 rw)⟩]
def outV (x0 : Vec F S1x1024x1024 .f32) (x1 : Vec F S1024x192 .f32) : Vec F S1x1024x64 .bf16 :=
  View.canon [⟨ro, k0_pay4 (View.ld x0 rx) (View.ld x1 rw)⟩]

/-- The one store covers the buffer. -/
theorem cover_o (p0 : Vec F S1x1024x64 .bf16) (y : S1x1024x64.Idx) :
    ∃ pc ∈ ([⟨ro, p0⟩] : List (View.Piece (Elt F) S1x1024x64 .bf16)), y ∈ pc.1.set :=
  View.cover_of_tiled [⟨ro, p0⟩] S1x1024x64.size (by rfl) y

/-! ## The body's triple -/

set_option maxHeartbeats 1000000 in
/-- On whole buffers, the inputs' at read contents and the outputs' at anything, the body runs to the continuation
    holding the inputs' as they were and each output's at its band of the product. -/
theorem sound_kernel0 (c : Dev nD) (E : Set ℕ) (i : grid0.Coords)
    (arg2 : Memref sig .tc .vmem S1x1024x1024 .f32) (harg2 : arg2.IsWhole) (arg3 : Memref sig .tc .vmem S1024x192 .f32) (harg3 : arg3.IsWhole)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole)
    (x0 : Vec F S1x1024x1024 .f32) (x1 : Vec F S1024x192 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (outQ x0 x1) ∗ owns (c : Thread nD τ) arg5 fullShare (outK x0 x1)
            ∗ owns (c : Thread nD τ) arg6 fullShare (outV x0 x1)) -∗ K ⟨⟩))
      ⊢ wp frame (wpE (defs₀ (F := F)) Variants.none c none) E (cc0__proj_kernel i arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_o _)
  isplitl [H3]
  · iexists _; isplitr
    swap; · iexact H3
    ipureintro
    exact View.read_writes_eq_canon _ _ _ (cover_o _)
  iexists _; isplitr
  swap; · iexact H4
  ipureintro
  exact View.read_writes_eq_canon _ _ _ (cover_o _)

/-! ## The proof data -/

/-- The call's proof data on core `c`: the arrays as the call finds them; after the body at point `t` each input's
    buffer at its block and each output's at its band of the product of the two input blocks; the scratch buffers of the
    other call and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outQ (iblk0 V c 0 t) (iblk0 V c 1 t)
    | ⟨3, _⟩ => outK (iblk0 V c 0 t) (iblk0 V c 1 t)
    | ⟨4, _⟩ => outV (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outQ (iblk0 V c 0 t) (iblk0 V c 1 t) := by dsimp only [dat0]
theorem after0_3 (c : Dev nD) (t : Fin cfg0.N) : (dat0 V c).after 3 t = outK (iblk0 V c 0 t) (iblk0 V c 1 t) := by dsimp only [dat0]
theorem after0_4 (c : Dev nD) (t : Fin cfg0.N) : (dat0 V c).after 4 t = outV (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Region1Cond.lean ====
/-
  The attention call: grid points (batch, query tile, key tile), the key tile the fastest axis; tiles of 512 positions.
  The body has three conditionals, each on the grid coordinates only: the first key tile (reset the running maximum,
  denominator and numerator), a key tile not wholly after the query tile (one step of the online softmax), the last key
  tile (normalise and store the output). Here: the three conditions in closed form over the 128 points, where the
  output window is idle (every point but the last key tile's), the memrefs the body is called with, and the call's
  invariant written out: the other call's staging buffers, the three scratch buffers, the generator register.
-/
import proofs.«178913_j5025111736349_2_alg».proof.Proof.Gen.KernelIdeal.Launch
import proofs.«178913_j5025111736349_2_alg».proof.Proof.Gen.KernelIdeal.Skeleton
import proofs.«178913_j5025111736349_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The branch conditions, from the grid coordinates -/

/-- The key tile is the first. -/
abbrev cond1_0 (i : grid1.Coords) : Prop :=
  (Scalar.cmpi .ne (Scalar.extui (Scalar.cmpi .eq (BitVec.ofNat 32 (i 2).val) 0#32)) 0#32) = 1#1
/-- The key tile starts before the query tile ends: some key position of the tile is visible to some query of the tile. -/
abbrev cond1_1 (i : grid1.Coords) : Prop :=
  (Scalar.cmpi .ne (Scalar.extui (Scalar.cmpi .slt (Scalar.muli (BitVec.ofNat 32 (i 2).val) 512#32)
    (Scalar.muli (Scalar.addi (BitVec.ofNat 32 (i 1).val) 1#32) 512#32))) 0#32) = 1#1
/-- The key tile is the last. -/
abbrev cond1_2 (i : grid1.Coords) : Prop := k1_cond3 i = 1#1

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 ≤ t.val / 4 % 4 :=
  (by decide +kernel : ∀ t : Fin grid1.N, cond1_1 (grid1.coords t) ↔ t.val % 4 ≤ t.val / 4 % 4)
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key tile nothing is stored into the output window, -/
theorem idleAt1_3 : ∀ t : Fin cfg1.N, ¬cond1_2 (grid1.coords t) → cfg1.idle 3 (grid1.coords t) = true := by decide +kernel
/-- and its block is not written back there; -/
theorem noFlush1_3 : ∀ t : Fin cfg1.N, ¬cond1_2 (grid1.coords t) → (cfg1.win 3).flush t = false := by decide +kernel
/-- at the last key tile it is live. -/
theorem liveAt1_3 : ∀ t : Fin cfg1.N, cond1_2 (grid1.coords t) → cfg1.idle 3 (grid1.coords t) = false := by decide +kernel

/-! ## The memrefs the body is called with -/

abbrev ms1_0 (t : Fin cfg1.N) : Memref sig .tc .vmem S1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x64 .f32 := win1_3.stage (cfg1.slots t 3)
abbrev hs1_3 (t : Fin cfg1.N) : (ms1_3 t).IsWhole := hstage1_3 ((cfg1.slots t 3).cast nbuf1_3)
/-- The running maximum, the running denominator and the running numerator: whole scratch buffers of the call's own. -/
abbrev scM : Memref sig .tc .vmem S512x1 .f32 := Memref.whole cc1_scratch0
abbrev scL : Memref sig .tc .vmem S512x1 .f32 := Memref.whole cc1_scratch1
abbrev scA : Memref sig .tc .vmem S512x64 .f32 := Memref.whole cc1_scratch2
/-- One staging buffer of the output window, and the scratch buffers, as views: contents are stated through them. -/
abbrev VO : View sig .tc .vmem S1x512x64 .f32 := (Memref.whole cc1_stg3_0 : Memref sig .tc .vmem S1x512x64 .f32).view
abbrev VM : View sig .tc .vmem S512x1 .f32 := scM.view
abbrev VL : View sig .tc .vmem S512x1 .f32 := scL.view
abbrev VA : View sig .tc .vmem S512x64 .f32 := scA.view

/-! ## The call's invariant written out -/

/-- The other call's nine staging buffers, each at some contents, beside a remainder `T`. -/
def withOthers (c : Dev nD) (T : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ T)

/-- The remainder may be exchanged. -/
theorem withOthers_mono (c : Dev nD) {T T' : sProp 𝕄} (h : T ⊢ T') : withOthers (F := F) c T ⊢ withOthers c T' := by
  unfold withOthers
  iintro ⟨F0, F1, F2, F3, F4, F5, F6, F7, F8, HT⟩
  isplitl [F0]; · iexact F0
  isplitl [F1]; · iexact F1
  isplitl [F2]; · iexact F2
  isplitl [F3]; · iexact F3
  isplitl [F4]; · iexact F4
  isplitl [F5]; · iexact F5
  isplitl [F6]; · iexact F6
  isplitl [F7]; · iexact F7
  isplitl [F8]; · iexact F8
  iapply h; iexact HT

/-- The class invariant of the call: the other call's staging buffers and the three scratch buffers at some contents,
    and the generator register at some state. -/
theorem PhiA1_eq (c : Dev nD) :
    (Pipeline.ΦA spec1 c : sProp 𝕄)
      = iprop(withOthers c iprop((∃ d, owns (c : Thread nD τ) scM fullShare d) ∗ (∃ d, owns (c : Thread nD τ) scL fullShare d)
          ∗ (∃ d, owns (c : Thread nD τ) scA fullShare d)) ∗ (∃ r, prngReg c r)) := by
  unfold Pipeline.ΦA withOthers; rw [scopedRest1_eq]; simp only [scM, scL, scA, owns_whole]; try rfl

end Cert.KernelIdeal.Hand

end
-- ==== Proof.Region1RunA.lean ====
/-
  The attention body in case A: the first key tile: reset, then one online-softmax step.
-/
import proofs.«178913_j5025111736349_2_alg».proof.Proof.Gen.KernelIdeal.Launch
import proofs.«178913_j5025111736349_2_alg».proof.Proof.Gen.KernelIdeal.Skeleton
import proofs.«178913_j5025111736349_2_alg».proof.Proof.Gen.KernelIdeal.Points
import proofs.«178913_j5025111736349_2_alg».proof.Proof.Region1Cond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case A (the first key tile: reset, then one online-softmax step). What the body's stores leave in each buffer it stores into, as pieces (last first), with
    the proof that on whole buffers — the inputs at their blocks, the output's handed back untouched, the scratch at anything —
    the body runs to the continuation holding the inputs as they were and every stored buffer with its pieces written. -/
noncomputable def kernelRun1_A (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i)
    (x0 x1 x2 : Vec F S1x512x64 .bf16) :
    Σ' (LM : List (View.Piece (Elt F) S512x1 .f32)) (LL : List (View.Piece (Elt F) S512x1 .f32)), { LA : List (View.Piece (Elt F) S512x64 .f32) //
      ∀ (xi3 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1_flash_kernel i arg3 harg3 arg4 harg4 arg5 harg5 arg6 harg6 arg7 harg7 arg8 harg8 arg9 harg9) K } := by
  refine ⟨?_, ?_, ?_, fun xi3 E K => ?run⟩
  case run =>
    simp only [cc1_flash_kernel_eq_skeleton, k1_part1_eq_skeleton]; unfold cc1_flash_kernel_skel
    unfold owns
    iintro ⟨⟨%f0, %hf0, H0⟩, ⟨%f1, %hf1, H1⟩, ⟨%f2, %hf2, H2⟩, ⟨%f3, %hf3, H3⟩, ⟨%dM, %fM, -, HM⟩, ⟨%dL, %fL, -, HL⟩, ⟨%dA, %fA, -, HA⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HM]; · iexists _; iexact HM
    isplitl [HL]; · iexists _; iexact HL
    iexists _; iexact HA

end Cert.KernelIdeal.Hand

end
-- ==== Proof.Region1RunB.lean ====
/-
  The attention body in case B: a middle key tile not after the query tile: one online-softmax step.
-/
import proofs.«178913_j5025111736349_2_alg».proof.Proof.Gen.KernelIdeal.Launch
import proofs.«178913_j5025111736349_2_alg».proof.Proof.Gen.KernelIdeal.Skeleton
import proofs.«178913_j5025111736349_2_alg».proof.Proof.Gen.KernelIdeal.Points
import proofs.«178913_j5025111736349_2_alg».proof.Proof.Region1Cond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case B (a middle key tile not after the query tile: one online-softmax step). What the body's stores leave in each buffer it stores into, as pieces (last first), with
    the proof that on whole buffers — the inputs at their blocks, the output's handed back untouched, the scratch at what the point before left —
    the body runs to the continuation holding the inputs as they were and every stored buffer with its pieces written. -/
noncomputable def kernelRun1_B (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i)
    (x0 x1 x2 : Vec F S1x512x64 .bf16) (xsM : Vec F S512x1 .f32) (xsL : Vec F S512x1 .f32) (xsA : Vec F S512x64 .f32) :
    Σ' (LM : List (View.Piece (Elt F) S512x1 .f32)) (LL : List (View.Piece (Elt F) S512x1 .f32)), { LA : List (View.Piece (Elt F) S512x64 .f32) //
      ∀ (xi3 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xsM ∗ owns (c : Thread nD τ) arg8 fullShare xsL ∗ owns (c : Thread nD τ) arg9 fullShare xsA
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1_flash_kernel i arg3 harg3 arg4 harg4 arg5 harg5 arg6 harg6 arg7 harg7 arg8 harg8 arg9 harg9) K } := by
  refine ⟨?_, ?_, ?_, fun xi3 E K => ?run⟩
  case run =>
    simp only [cc1_flash_kernel_eq_skeleton, k1_part1_eq_skeleton]; unfold cc1_flash_kernel_skel
    unfold owns
    iintro ⟨⟨%f0, %hf0, H0⟩, ⟨%f1, %hf1, H1⟩, ⟨%f2, %hf2, H2⟩, ⟨%f3, %hf3, H3⟩, ⟨%fM, %hfM, HM⟩, ⟨%fL, %hfL, HL⟩, ⟨%fA, %hfA, HA⟩, Hk⟩
    obtain rfl := harg3.eq_unread hf0; obtain rfl := harg4.eq_unread hf1; obtain rfl := harg5.eq_unread hf2; obtain rfl := harg6.eq_unread hf3; obtain rfl := harg7.eq_unread hfM; obtain rfl := harg8.eq_unread hfL; obtain rfl := harg9.eq_unread hfA
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HM]; · iexists _; iexact HM
    isplitl [HL]; · iexists _; iexact HL
    iexists _; iexact HA

end Cert.KernelIdeal.Hand

end
-- ==== Proof.Region1RunC.lean ====
/-
  The attention body in case C: a middle key tile wholly after the query tile: nothing happens.
-/
import proofs.«178913_j5025111736349_2_alg».proof.Proof.Gen.KernelIdeal.Launch
import proofs.«178913_j5025111736349_2_alg».proof.Proof.Gen.KernelIdeal.Skeleton
import proofs.«178913_j5025111736349_2_alg».proof.Proof.Gen.KernelIdeal.Points
import proofs.«178913_j5025111736349_2_alg».proof.Proof.Region1Cond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case C (a middle key tile wholly after the query tile: nothing happens): the body hands every buffer back as it found it. -/
theorem kernelRun1_C (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : ¬cond1_2 i)
    (x0 x1 x2 : Vec F S1x512x64 .bf16) (xsM : Vec F S512x1 .f32) (xsL : Vec F S512x1 .f32) (xsA : Vec F S512x64 .f32) :
    ∀ (xi3 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xsM ∗ owns (c : Thread nD τ) arg8 fullShare xsL ∗ owns (c : Thread nD τ) arg9 fullShare xsA
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xsM ∗ owns (c : Thread nD τ) arg8 fullShare xsL ∗ owns (c : Thread nD τ) arg9 fullShare xsA) -∗ K ⟨⟩))
          ⊢ wp frame (wpE (defs₀ (F := F)) Variants.none c none) E (cc1_flash_kernel i arg3 harg3 arg4 harg4 arg5 harg5 arg6 harg6 arg7 harg7 arg8 harg8 arg9 harg9) K := by
  intro xi3 E K
  simp only [cc1_flash_kernel_eq_skeleton, k1_part1_eq_skeleton]; unfold cc1_flash_kernel_skel
  unfold owns
  iintro ⟨⟨%f0, %hf0, H0⟩, ⟨%f1, %hf1, H1⟩, ⟨%f2, %hf2, H2⟩, ⟨%f3, %hf3, H3⟩, ⟨%fM, %hfM, HM⟩, ⟨%fL, %hfL, HL⟩, ⟨%fA, %hfA, HA⟩, Hk⟩
  obtain rfl := harg3.eq_unread hf0; obtain rfl := harg4.eq_unread hf1; obtain rfl := harg5.eq_unread hf2; obtain rfl := harg6.eq_unread hf3; obtain rfl := harg7.eq_unread hfM; obtain rfl := harg8.eq_unread hfL; obtain rfl := harg9.eq_unread hfA
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HM]
  · iexists _; isplitr; · ipureintro; exact harg7.read_unread _
    iexact HM
  isplitl [HL]
  · iexists _; isplitr; · ipureintro; exact harg8.read_unread _
    iexact HL
  iexists _; isplitr; · ipureintro; exact harg9.read_unread _
  iexact HA

end Cert.KernelIdeal.Hand

end
-- ==== Proof.Region1RunD.lean ====
/-
  The attention body in case D: the last key tile, on the diagonal: one online-softmax step, then normalise and store.
-/
import proofs.«178913_j5025111736349_2_alg».proof.Proof.Gen.KernelIdeal.Launch
import proofs.«178913_j5025111736349_2_alg».proof.Proof.Gen.KernelIdeal.Skeleton
import proofs.«178913_j5025111736349_2_alg».proof.Proof.Gen.KernelIdeal.Points
import proofs.«178913_j5025111736349_2_alg».proof.Proof.Region1Cond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case D (the last key tile, on the diagonal: one online-softmax step, then normalise and store). What the body's stores leave in each buffer it stores into, as pieces (last first), with
    the proof that on whole buffers — the inputs at their blocks, the output's at anything, the scratch at what the point before left —
    the body runs to the continuation holding the inputs as they were and every stored buffer with its pieces written. -/
noncomputable def kernelRun1_D (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xsM : Vec F S512x1 .f32) (xsL : Vec F S512x1 .f32) (xsA : Vec F S512x64 .f32) :
    Σ' (LO : List (View.Piece (Elt F) S1x512x64 .f32)) (LM : List (View.Piece (Elt F) S512x1 .f32)) (LL : List (View.Piece (Elt F) S512x1 .f32)), { LA : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xsM ∗ owns (c : Thread nD τ) arg8 fullShare xsL ∗ owns (c : Thread nD τ) arg9 fullShare xsA
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1_flash_kernel i arg3 harg3 arg4 harg4 arg5 harg5 arg6 harg6 arg7 harg7 arg8 harg8 arg9 harg9) K } := by
  refine ⟨?_, ?_, ?_, ?_, fun E K => ?run⟩
  case run =>
    simp only [cc1_flash_kernel_eq_skeleton, k1_part1_eq_skeleton]; unfold cc1_flash_kernel_skel
    unfold owns
    iintro ⟨⟨%f0, %hf0, H0⟩, ⟨%f1, %hf1, H1⟩, ⟨%f2, %hf2, H2⟩, ⟨%d3, %f3, -, H3⟩, ⟨%fM, %hfM, HM⟩, ⟨%fL, %hfL, HL⟩, ⟨%fA, %hfA, HA⟩, Hk⟩
    obtain rfl := harg3.eq_unread hf0; obtain rfl := harg4.eq_unread hf1; obtain rfl := harg5.eq_unread hf2; obtain rfl := harg7.eq_unread hfM; obtain rfl := harg8.eq_unread hfL; obtain rfl := harg9.eq_unread hfA
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HM]; · iexists _; iexact HM
    isplitl [HL]; · iexists _; iexact HL
    iexists _; iexact HA

end Cert.KernelIdeal.Hand

end
-- ==== Proof.Region1RunE.lean ====
/-
  The attention body in case E: the last key tile, wholly after the query tile: normalise and store.
-/
import proofs.«178913_j5025111736349_2_alg».proof.Proof.Gen.KernelIdeal.Launch
import proofs.«178913_j5025111736349_2_alg».proof.Proof.Gen.KernelIdeal.Skeleton
import proofs.«178913_j5025111736349_2_alg».proof.Proof.Gen.KernelIdeal.Points
import proofs.«178913_j5025111736349_2_alg».proof.Proof.Region1Cond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case E (the last key tile, wholly after the query tile: normalise and store). What the body's stores leave in each buffer it stores into, as pieces (last first), with
    the proof that on whole buffers — the inputs at their blocks, the output's at anything, the scratch at what the point before left —
    the body runs to the continuation holding the inputs as they were and every stored buffer with its pieces written. -/
noncomputable def kernelRun1_E (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : cond1_2 i)
    (x0 x1 x2 : Vec F S1x512x64 .bf16) (xsM : Vec F S512x1 .f32) (xsL : Vec F S512x1 .f32) (xsA : Vec F S512x64 .f32) :
    { LO : List (View.Piece (Elt F) S1x512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xsM ∗ owns (c : Thread nD τ) arg8 fullShare xsL ∗ owns (c : Thread nD τ) arg9 fullShare xsA
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ owns (c : Thread nD τ) arg7 fullShare xsM ∗ owns (c : Thread nD τ) arg8 fullShare xsL ∗ owns (c : Thread nD τ) arg9 fullShare xsA) -∗ K ⟨⟩))
          ⊢ wp frame (wpE (defs₀ (F := F)) Variants.none c none) E (cc1_flash_kernel i arg3 harg3 arg4 harg4 arg5 harg5 arg6 harg6 arg7 harg7 arg8 harg8 arg9 harg9) K } := by
  refine ⟨?_, fun E K => ?run⟩
  case run =>
    simp only [cc1_flash_kernel_eq_skeleton, k1_part1_eq_skeleton]; unfold cc1_flash_kernel_skel
    unfold owns
    iintro ⟨⟨%f0, %hf0, H0⟩, ⟨%f1, %hf1, H1⟩, ⟨%f2, %hf2, H2⟩, ⟨%d3, %f3, -, H3⟩, ⟨%fM, %hfM, HM⟩, ⟨%fL, %hfL, HL⟩, ⟨%fA, %hfA, HA⟩, Hk⟩
    obtain rfl := harg3.eq_unread hf0; obtain rfl := harg4.eq_unread hf1; obtain rfl := harg5.eq_unread hf2; obtain rfl := harg7.eq_unread hfM; obtain rfl := harg8.eq_unread hfL; obtain rfl := harg9.eq_unread hfA
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HM]
    · iexists _; isplitr; · ipureintro; exact harg7.read_unread _
      iexact HM
    isplitl [HL]
    · iexists _; isplitr; · ipureintro; exact harg8.read_unread _
      iexact HL
    iexists _; isplitr; · ipureintro; exact harg9.read_unread _
    iexact HA

end Cert.KernelIdeal.Hand

end
-- ==== Proof.Region1.lean ====
/-
  The attention call's proof data. What the output buffer and the three scratch buffers (running maximum, denominator,
  numerator) hold after each grid point, by recursion on the point: the case the point is in decides which buffers are
  stored into, and a case that reads the scratch reads what the point before left there. Off the last key tile the
  output window is idle: its entry is a placeholder nothing consults. The call's invariant names the scratch contents
  after each point; the body's obligation at a point is its case's run.
-/
import proofs.«178913_j5025111736349_2_alg».proof.Proof.Gen.KernelIdeal.Launch
import proofs.«178913_j5025111736349_2_alg».proof.Proof.Gen.KernelIdeal.Skeleton
import proofs.«178913_j5025111736349_2_alg».proof.Proof.Gen.KernelIdeal.Points
import proofs.«178913_j5025111736349_2_alg».proof.Proof.Region1RunA
import proofs.«178913_j5025111736349_2_alg».proof.Proof.Region1RunB
import proofs.«178913_j5025111736349_2_alg».proof.Proof.Region1RunC
import proofs.«178913_j5025111736349_2_alg».proof.Proof.Region1RunD
import proofs.«178913_j5025111736349_2_alg».proof.Proof.Region1RunE
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What each case leaves in the buffers it stores into -/

/-- Case A's stores into the running maximum cover it. -/
theorem coverM_A (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i)
    (x0 x1 x2 : Vec F S1x512x64 .bf16) (y : S512x1.Idx) :
    ∃ pc ∈ (kernelRun1_A c i arg3 harg3 arg4 harg4 arg5 harg5 arg6 harg6 arg7 harg7 arg8 harg8 arg9 harg9 hc0 hc1 hc2 x0 x1 x2).1, y ∈ pc.1.set :=
  View.cover_of_tiledL (kernelRun1_A c i arg3 harg3 arg4 harg4 arg5 harg5 arg6 harg6 arg7 harg7 arg8 harg8 arg9 harg9 hc0 hc1 hc2 x0 x1 x2).1 S512x1.size (by sl_kernel_rfl) y
/-- What case A leaves there: its pieces read back. -/
def soutM_A (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i)
    (x0 x1 x2 : Vec F S1x512x64 .bf16) : Vec F S512x1 .f32 :=
  VM.read (Elt F) (VM.writes (Elt F) VM.junk (kernelRun1_A c i arg3 harg3 arg4 harg4 arg5 harg5 arg6 harg6 arg7 harg7 arg8 harg8 arg9 harg9 hc0 hc1 hc2 x0 x1 x2).1)
/-- Case A's stores into the running denominator cover it. -/
theorem coverL_A (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i)
    (x0 x1 x2 : Vec F S1x512x64 .bf16) (y : S512x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL (kernelRun1_A c i arg3 harg3 arg4 harg4 arg5 harg5 arg6 harg6 arg7 harg7 arg8 harg8 arg9 harg9 hc0 hc1 hc2 x0 x1 x2).2.1 S512x1.size (by sl_kernel_rfl) y
/-- What case A leaves there: its pieces read back. -/
def soutL_A (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i)
    (x0 x1 x2 : Vec F S1x512x64 .bf16) : Vec F S512x1 .f32 :=
  VL.read (Elt F) (VL.writes (Elt F) VL.junk (kernelRun1_A c i arg3 harg3 arg4 harg4 arg5 harg5 arg6 harg6 arg7 harg7 arg8 harg8 arg9 harg9 hc0 hc1 hc2 x0 x1 x2).2.1)
/-- Case A's stores into the running numerator cover it. -/
theorem coverA_A (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i)
    (x0 x1 x2 : Vec F S1x512x64 .bf16) (y : S512x64.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL (kernelRun1_A c i arg3 harg3 arg4 harg4 arg5 harg5 arg6 harg6 arg7 harg7 arg8 harg8 arg9 harg9 hc0 hc1 hc2 x0 x1 x2).2.2.1 S512x64.size (by sl_kernel_rfl) y
/-- What case A leaves there: its pieces read back. -/
def soutA_A (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i)
    (x0 x1 x2 : Vec F S1x512x64 .bf16) : Vec F S512x64 .f32 :=
  VA.read (Elt F) (VA.writes (Elt F) VA.junk (kernelRun1_A c i arg3 harg3 arg4 harg4 arg5 harg5 arg6 harg6 arg7 harg7 arg8 harg8 arg9 harg9 hc0 hc1 hc2 x0 x1 x2).2.2.1)
/-- Case B's stores into the running maximum cover it. -/
theorem coverM_B (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i)
    (x0 x1 x2 : Vec F S1x512x64 .bf16) (xsM : Vec F S512x1 .f32) (xsL : Vec F S512x1 .f32) (xsA : Vec F S512x64 .f32) (y : S512x1.Idx) :
    ∃ pc ∈ (kernelRun1_B c i arg3 harg3 arg4 harg4 arg5 harg5 arg6 harg6 arg7 harg7 arg8 harg8 arg9 harg9 hc0 hc1 hc2 x0 x1 x2 xsM xsL xsA).1, y ∈ pc.1.set :=
  View.cover_of_tiledL (kernelRun1_B c i arg3 harg3 arg4 harg4 arg5 harg5 arg6 harg6 arg7 harg7 arg8 harg8 arg9 harg9 hc0 hc1 hc2 x0 x1 x2 xsM xsL xsA).1 S512x1.size (by sl_kernel_rfl) y
/-- What case B leaves there: its pieces read back. -/
def soutM_B (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i)
    (x0 x1 x2 : Vec F S1x512x64 .bf16) (xsM : Vec F S512x1 .f32) (xsL : Vec F S512x1 .f32) (xsA : Vec F S512x64 .f32) : Vec F S512x1 .f32 :=
  VM.read (Elt F) (VM.writes (Elt F) VM.junk (kernelRun1_B c i arg3 harg3 arg4 harg4 arg5 harg5 arg6 harg6 arg7 harg7 arg8 harg8 arg9 harg9 hc0 hc1 hc2 x0 x1 x2 xsM xsL xsA).1)
/-- Case B's stores into the running denominator cover it. -/
theorem coverL_B (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i)
    (x0 x1 x2 : Vec F S1x512x64 .bf16) (xsM : Vec F S512x1 .f32) (xsL : Vec F S512x1 .f32) (xsA : Vec F S512x64 .f32) (y : S512x1.Idx) :
    ∃ pc ∈ (kernelRun1_B c i arg3 harg3 arg4 harg4 arg5 harg5 arg6 harg6 arg7 harg7 arg8 harg8 arg9 harg9 hc0 hc1 hc2 x0 x1 x2 xsM xsL xsA).2.1, y ∈ pc.1.set :=
  View.cover_of_tiledL (kernelRun1_B c i arg3 harg3 arg4 harg4 arg5 harg5 arg6 harg6 arg7 harg7 arg8 harg8 arg9 harg9 hc0 hc1 hc2 x0 x1 x2 xsM xsL xsA).2.1 S512x1.size (by sl_kernel_rfl) y
/-- What case B leaves there: its pieces read back. -/
def soutL_B (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i)
    (x0 x1 x2 : Vec F S1x512x64 .bf16) (xsM : Vec F S512x1 .f32) (xsL : Vec F S512x1 .f32) (xsA : Vec F S512x64 .f32) : Vec F S512x1 .f32 :=
  VL.read (Elt F) (VL.writes (Elt F) VL.junk (kernelRun1_B c i arg3 harg3 arg4 harg4 arg5 harg5 arg6 harg6 arg7 harg7 arg8 harg8 arg9 harg9 hc0 hc1 hc2 x0 x1 x2 xsM xsL xsA).2.1)
/-- Case B's stores into the running numerator cover it. -/
theorem coverA_B (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i)
    (x0 x1 x2 : Vec F S1x512x64 .bf16) (xsM : Vec F S512x1 .f32) (xsL : Vec F S512x1 .f32) (xsA : Vec F S512x64 .f32) (y : S512x64.Idx) :
    ∃ pc ∈ (kernelRun1_B c i arg3 harg3 arg4 harg4 arg5 harg5 arg6 harg6 arg7 harg7 arg8 harg8 arg9 harg9 hc0 hc1 hc2 x0 x1 x2 xsM xsL xsA).2.2.1, y ∈ pc.1.set :=
  View.cover_of_tiledL (kernelRun1_B c i arg3 harg3 arg4 harg4 arg5 harg5 arg6 harg6 arg7 harg7 arg8 harg8 arg9 harg9 hc0 hc1 hc2 x0 x1 x2 xsM xsL xsA).2.2.1 S512x64.size (by sl_kernel_rfl) y
/-- What case B leaves there: its pieces read back. -/
def soutA_B (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i)
    (x0 x1 x2 : Vec F S1x512x64 .bf16) (xsM : Vec F S512x1 .f32) (xsL : Vec F S512x1 .f32) (xsA : Vec F S512x64 .f32) : Vec F S512x64 .f32 :=
  VA.read (Elt F) (VA.writes (Elt F) VA.junk (kernelRun1_B c i arg3 harg3 arg4 harg4 arg5 harg5 arg6 harg6 arg7 harg7 arg8 harg8 arg9 harg9 hc0 hc1 hc2 x0 x1 x2 xsM xsL xsA).2.2.1)
/-- Case D's stores into the output buffer cover it. -/
theorem coverO_D (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xsM : Vec F S512x1 .f32) (xsL : Vec F S512x1 .f32) (xsA : Vec F S512x64 .f32) (y : S1x512x64.Idx) :
    ∃ pc ∈ (kernelRun1_D c i arg3 harg3 arg4 harg4 arg5 harg5 arg6 harg6 arg7 harg7 arg8 harg8 arg9 harg9 hc0 hc1 hc2 x0 x1 x2 xsM xsL xsA).1, y ∈ pc.1.set :=
  View.cover_of_tiledL (kernelRun1_D c i arg3 harg3 arg4 harg4 arg5 harg5 arg6 harg6 arg7 harg7 arg8 harg8 arg9 harg9 hc0 hc1 hc2 x0 x1 x2 xsM xsL xsA).1 S1x512x64.size (by sl_kernel_rfl) y
/-- What case D leaves there: its pieces read back. -/
def soutO_D (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xsM : Vec F S512x1 .f32) (xsL : Vec F S512x1 .f32) (xsA : Vec F S512x64 .f32) : Vec F S1x512x64 .f32 :=
  VO.read (Elt F) (VO.writes (Elt F) VO.junk (kernelRun1_D c i arg3 harg3 arg4 harg4 arg5 harg5 arg6 harg6 arg7 harg7 arg8 harg8 arg9 harg9 hc0 hc1 hc2 x0 x1 x2 xsM xsL xsA).1)
/-- Case D's stores into the running maximum cover it. -/
theorem coverM_D (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xsM : Vec F S512x1 .f32) (xsL : Vec F S512x1 .f32) (xsA : Vec F S512x64 .f32) (y : S512x1.Idx) :
    ∃ pc ∈ (kernelRun1_D c i arg3 harg3 arg4 harg4 arg5 harg5 arg6 harg6 arg7 harg7 arg8 harg8 arg9 harg9 hc0 hc1 hc2 x0 x1 x2 xsM xsL xsA).2.1, y ∈ pc.1.set :=
  View.cover_of_tiledL (kernelRun1_D c i arg3 harg3 arg4 harg4 arg5 harg5 arg6 harg6 arg7 harg7 arg8 harg8 arg9 harg9 hc0 hc1 hc2 x0 x1 x2 xsM xsL xsA).2.1 S512x1.size (by sl_kernel_rfl) y
/-- What case D leaves there: its pieces read back. -/
def soutM_D (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xsM : Vec F S512x1 .f32) (xsL : Vec F S512x1 .f32) (xsA : Vec F S512x64 .f32) : Vec F S512x1 .f32 :=
  VM.read (Elt F) (VM.writes (Elt F) VM.junk (kernelRun1_D c i arg3 harg3 arg4 harg4 arg5 harg5 arg6 harg6 arg7 harg7 arg8 harg8 arg9 harg9 hc0 hc1 hc2 x0 x1 x2 xsM xsL xsA).2.1)
/-- Case D's stores into the running denominator cover it. -/
theorem coverL_D (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xsM : Vec F S512x1 .f32) (xsL : Vec F S512x1 .f32) (xsA : Vec F S512x64 .f32) (y : S512x1.Idx) :
    ∃ pc ∈ (kernelRun1_D c i arg3 harg3 arg4 harg4 arg5 harg5 arg6 harg6 arg7 harg7 arg8 harg8 arg9 harg9 hc0 hc1 hc2 x0 x1 x2 xsM xsL xsA).2.2.1, y ∈ pc.1.set :=
  View.cover_of_tiledL (kernelRun1_D c i arg3 harg3 arg4 harg4 arg5 harg5 arg6 harg6 arg7 harg7 arg8 harg8 arg9 harg9 hc0 hc1 hc2 x0 x1 x2 xsM xsL xsA).2.2.1 S512x1.size (by sl_kernel_rfl) y
/-- What case D leaves there: its pieces read back. -/
def soutL_D (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xsM : Vec F S512x1 .f32) (xsL : Vec F S512x1 .f32) (xsA : Vec F S512x64 .f32) : Vec F S512x1 .f32 :=
  VL.read (Elt F) (VL.writes (Elt F) VL.junk (kernelRun1_D c i arg3 harg3 arg4 harg4 arg5 harg5 arg6 harg6 arg7 harg7 arg8 harg8 arg9 harg9 hc0 hc1 hc2 x0 x1 x2 xsM xsL xsA).2.2.1)
/-- Case D's stores into the running numerator cover it. -/
theorem coverA_D (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xsM : Vec F S512x1 .f32) (xsL : Vec F S512x1 .f32) (xsA : Vec F S512x64 .f32) (y : S512x64.Idx) :
    ∃ pc ∈ (kernelRun1_D c i arg3 harg3 arg4 harg4 arg5 harg5 arg6 harg6 arg7 harg7 arg8 harg8 arg9 harg9 hc0 hc1 hc2 x0 x1 x2 xsM xsL xsA).2.2.2.1, y ∈ pc.1.set :=
  View.cover_of_tiledL (kernelRun1_D c i arg3 harg3 arg4 harg4 arg5 harg5 arg6 harg6 arg7 harg7 arg8 harg8 arg9 harg9 hc0 hc1 hc2 x0 x1 x2 xsM xsL xsA).2.2.2.1 S512x64.size (by sl_kernel_rfl) y
/-- What case D leaves there: its pieces read back. -/
def soutA_D (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xsM : Vec F S512x1 .f32) (xsL : Vec F S512x1 .f32) (xsA : Vec F S512x64 .f32) : Vec F S512x64 .f32 :=
  VA.read (Elt F) (VA.writes (Elt F) VA.junk (kernelRun1_D c i arg3 harg3 arg4 harg4 arg5 harg5 arg6 harg6 arg7 harg7 arg8 harg8 arg9 harg9 hc0 hc1 hc2 x0 x1 x2 xsM xsL xsA).2.2.2.1)
/-- Case E's stores into the output buffer cover it. -/
theorem coverO_E (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : cond1_2 i)
    (x0 x1 x2 : Vec F S1x512x64 .bf16) (xsM : Vec F S512x1 .f32) (xsL : Vec F S512x1 .f32) (xsA : Vec F S512x64 .f32) (y : S1x512x64.Idx) :
    ∃ pc ∈ (kernelRun1_E c i arg3 harg3 arg4 harg4 arg5 harg5 arg6 harg6 arg7 harg7 arg8 harg8 arg9 harg9 hc0 hc1 hc2 x0 x1 x2 xsM xsL xsA).1, y ∈ pc.1.set :=
  View.cover_of_tiledL (kernelRun1_E c i arg3 harg3 arg4 harg4 arg5 harg5 arg6 harg6 arg7 harg7 arg8 harg8 arg9 harg9 hc0 hc1 hc2 x0 x1 x2 xsM xsL xsA).1 S1x512x64.size (by sl_kernel_rfl) y
/-- What case E leaves there: its pieces read back. -/
def soutO_E (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : cond1_2 i)
    (x0 x1 x2 : Vec F S1x512x64 .bf16) (xsM : Vec F S512x1 .f32) (xsL : Vec F S512x1 .f32) (xsA : Vec F S512x64 .f32) : Vec F S1x512x64 .f32 :=
  VO.read (Elt F) (VO.writes (Elt F) VO.junk (kernelRun1_E c i arg3 harg3 arg4 harg4 arg5 harg5 arg6 harg6 arg7 harg7 arg8 harg8 arg9 harg9 hc0 hc1 hc2 x0 x1 x2 xsM xsL xsA).1)

section Region1
-- the contents of the TensorCore's buffers when the call is entered
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile's buffer holds the tile at every point (it is fetched when the query tile changes). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key tile's buffer holds the block its index names at every point: where it is not fetched the index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for the value tile. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The buffers after a point, case by case -/

/-- The output buffer and the three scratch buffers after a point of case A. -/
def caseA (c : Dev nD) (t : Fin cfg1.N) (h0 : t.val % 4 = 0) (h1 : t.val % 4 ≤ t.val / 4 % 4) (h2 : ¬t.val % 4 = 3) : Vec F S1x512x64 .f32 × Vec F S512x1 .f32 × Vec F S512x1 .f32 × Vec F S512x64 .f32 :=
  (VO.read (Elt F) VO.junk, soutM_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) ((hcond1_1 t).mpr h1) (fun h => h2 ((hcond1_2 t).mp h)) (iblk1 V c 0 t) (iblk1 V c 1 t) (iblk1 V c 2 t), soutL_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) ((hcond1_1 t).mpr h1) (fun h => h2 ((hcond1_2 t).mp h)) (iblk1 V c 0 t) (iblk1 V c 1 t) (iblk1 V c 2 t), soutA_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) ((hcond1_1 t).mpr h1) (fun h => h2 ((hcond1_2 t).mp h)) (iblk1 V c 0 t) (iblk1 V c 1 t) (iblk1 V c 2 t))
/-- The output buffer and the three scratch buffers after a point of case B, from what the point before left in the scratch (`p`). -/
def caseB (c : Dev nD) (t : Fin cfg1.N) (h0 : ¬t.val % 4 = 0) (h1 : t.val % 4 ≤ t.val / 4 % 4) (h2 : ¬t.val % 4 = 3) (p : Vec F S512x1 .f32 × Vec F S512x1 .f32 × Vec F S512x64 .f32) : Vec F S1x512x64 .f32 × Vec F S512x1 .f32 × Vec F S512x1 .f32 × Vec F S512x64 .f32 :=
  (VO.read (Elt F) VO.junk, soutM_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) (fun h => h2 ((hcond1_2 t).mp h)) (iblk1 V c 0 t) (iblk1 V c 1 t) (iblk1 V c 2 t) p.1 p.2.1 p.2.2, soutL_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) (fun h => h2 ((hcond1_2 t).mp h)) (iblk1 V c 0 t) (iblk1 V c 1 t) (iblk1 V c 2 t) p.1 p.2.1 p.2.2, soutA_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) (fun h => h2 ((hcond1_2 t).mp h)) (iblk1 V c 0 t) (iblk1 V c 1 t) (iblk1 V c 2 t) p.1 p.2.1 p.2.2)
/-- The output buffer and the three scratch buffers after a point of case C, from what the point before left in the scratch (`p`). -/
def caseC (c : Dev nD) (t : Fin cfg1.N) (h0 : ¬t.val % 4 = 0) (h1 : ¬t.val % 4 ≤ t.val / 4 % 4) (h2 : ¬t.val % 4 = 3) (p : Vec F S512x1 .f32 × Vec F S512x1 .f32 × Vec F S512x64 .f32) : Vec F S1x512x64 .f32 × Vec F S512x1 .f32 × Vec F S512x1 .f32 × Vec F S512x64 .f32 :=
  (VO.read (Elt F) VO.junk, p.1, p.2.1, p.2.2)
/-- The output buffer and the three scratch buffers after a point of case D, from what the point before left in the scratch (`p`). -/
def caseD (c : Dev nD) (t : Fin cfg1.N) (h0 : ¬t.val % 4 = 0) (h1 : t.val % 4 ≤ t.val / 4 % 4) (h2 : t.val % 4 = 3) (p : Vec F S512x1 .f32 × Vec F S512x1 .f32 × Vec F S512x64 .f32) : Vec F S1x512x64 .f32 × Vec F S512x1 .f32 × Vec F S512x1 .f32 × Vec F S512x64 .f32 :=
  (soutO_D c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) ((hcond1_2 t).mpr h2) (iblk1 V c 0 t) (iblk1 V c 1 t) (iblk1 V c 2 t) p.1 p.2.1 p.2.2, soutM_D c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) ((hcond1_2 t).mpr h2) (iblk1 V c 0 t) (iblk1 V c 1 t) (iblk1 V c 2 t) p.1 p.2.1 p.2.2, soutL_D c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) ((hcond1_2 t).mpr h2) (iblk1 V c 0 t) (iblk1 V c 1 t) (iblk1 V c 2 t) p.1 p.2.1 p.2.2, soutA_D c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) ((hcond1_2 t).mpr h2) (iblk1 V c 0 t) (iblk1 V c 1 t) (iblk1 V c 2 t) p.1 p.2.1 p.2.2)
/-- The output buffer and the three scratch buffers after a point of case E, from what the point before left in the scratch (`p`). -/
def caseE (c : Dev nD) (t : Fin cfg1.N) (h0 : ¬t.val % 4 = 0) (h1 : ¬t.val % 4 ≤ t.val / 4 % 4) (h2 : t.val % 4 = 3) (p : Vec F S512x1 .f32 × Vec F S512x1 .f32 × Vec F S512x64 .f32) : Vec F S1x512x64 .f32 × Vec F S512x1 .f32 × Vec F S512x1 .f32 × Vec F S512x64 .f32 :=
  (soutO_E c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) ((hcond1_2 t).mpr h2) (iblk1 V c 0 t) (iblk1 V c 1 t) (iblk1 V c 2 t) p.1 p.2.1 p.2.2, p.1, p.2.1, p.2.2)

/-- THE ACCUMULATION: the output buffer and the scratch buffers after the body at position `n`. The key tile is
    `n % 4`, the query tile `n / 4 % 4`. -/
def outsAt1 (c : Dev nD) : (n : ℕ) → n < cfg1.N → Vec F S1x512x64 .f32 × Vec F S512x1 .f32 × Vec F S512x1 .f32 × Vec F S512x64 .f32
  | 0, hn => caseA V c ⟨0, hn⟩ (Nat.zero_mod _) (Nat.zero_le _) (by show ¬0 % 4 = 3; decide)
  | n + 1, hn =>
    if h0 : (n + 1) % 4 = 0 then caseA V c ⟨n + 1, hn⟩ h0 (by show (n + 1) % 4 ≤ (n + 1) / 4 % 4; omega) (by show ¬(n + 1) % 4 = 3; omega)
    else if h2 : (n + 1) % 4 = 3 then
      if h1 : (n + 1) % 4 ≤ (n + 1) / 4 % 4 then caseD V c ⟨n + 1, hn⟩ h0 h1 h2 (outsAt1 c n (Nat.lt_of_succ_lt hn)).2
      else caseE V c ⟨n + 1, hn⟩ h0 h1 h2 (outsAt1 c n (Nat.lt_of_succ_lt hn)).2
    else
      if h1 : (n + 1) % 4 ≤ (n + 1) / 4 % 4 then caseB V c ⟨n + 1, hn⟩ h0 h1 h2 (outsAt1 c n (Nat.lt_of_succ_lt hn)).2
      else caseC c ⟨n + 1, hn⟩ h0 h1 h2 (outsAt1 c n (Nat.lt_of_succ_lt hn)).2

theorem outsAt1_A (c : Dev nD) (t : Fin cfg1.N) (h0 : t.val % 4 = 0) (h1 : t.val % 4 ≤ t.val / 4 % 4) (h2 : ¬t.val % 4 = 3) :
    outsAt1 V c t.val t.isLt = caseA V c t h0 h1 h2 := by
  obtain ⟨n, hn⟩ := t
  cases n with
  | zero => rfl
  | succ n => exact dif_pos h0
theorem outsAt1_B (c : Dev nD) (t : Fin cfg1.N) (h0 : ¬t.val % 4 = 0) (h1 : t.val % 4 ≤ t.val / 4 % 4) (h2 : ¬t.val % 4 = 3) :
    outsAt1 V c t.val t.isLt = caseB V c t h0 h1 h2 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h2).trans ((dif_pos h1).trans rfl))
theorem outsAt1_C (c : Dev nD) (t : Fin cfg1.N) (h0 : ¬t.val % 4 = 0) (h1 : ¬t.val % 4 ≤ t.val / 4 % 4) (h2 : ¬t.val % 4 = 3) :
    outsAt1 V c t.val t.isLt = caseC c t h0 h1 h2 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h2).trans ((dif_neg h1).trans rfl))
theorem outsAt1_D (c : Dev nD) (t : Fin cfg1.N) (h0 : ¬t.val % 4 = 0) (h1 : t.val % 4 ≤ t.val / 4 % 4) (h2 : t.val % 4 = 3) :
    outsAt1 V c t.val t.isLt = caseD V c t h0 h1 h2 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h2).trans ((dif_pos h1).trans rfl))
theorem outsAt1_E (c : Dev nD) (t : Fin cfg1.N) (h0 : ¬t.val % 4 = 0) (h1 : ¬t.val % 4 ≤ t.val / 4 % 4) (h2 : t.val % 4 = 3) :
    outsAt1 V c t.val t.isLt = caseE V c t h0 h1 h2 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h2).trans ((dif_neg h1).trans rfl))

/-! ## The invariant: the scratch buffers at what the point before left -/

/-- The three scratch buffers at named contents, beside the other call's staging buffers and the generator register. -/
def scratchAt (c : Dev nD) (p : Vec F S512x1 .f32 × Vec F S512x1 .f32 × Vec F S512x64 .f32) : sProp 𝕄 :=
  iprop(withOthers c iprop(owns (c : Thread nD τ) scM fullShare p.1 ∗ owns (c : Thread nD τ) scL fullShare p.2.1
    ∗ owns (c : Thread nD τ) scA fullShare p.2.2) ∗ (∃ r, prngReg c r))

/-- Before the first point the class invariant (every scratch at anything); afterwards the scratch at what the point
    before left. -/
def PhiS (c : Dev nD) : (n : ℕ) → n ≤ cfg1.N → sProp 𝕄
  | 0, _ => Pipeline.ΦA spec1 c
  | n + 1, hn => scratchAt c (outsAt1 V c n hn).2

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) : PhiS V c (n + 1) hn = scratchAt c (outsAt1 V c n hn).2 := rfl
theorem PhiS_pos (c : Dev nD) (n : ℕ) (h : n ≤ cfg1.N) (hz : n ≠ 0) :
    PhiS V c n h = scratchAt c (outsAt1 V c (n - 1) (by omega)).2 := by
  cases n with
  | zero => exact absurd rfl hz
  | succ n => rfl

/-- Named scratch contents may be forgotten: the class invariant. -/
theorem scratchAt_forget (c : Dev nD) (p : Vec F S512x1 .f32 × Vec F S512x1 .f32 × Vec F S512x64 .f32) :
    scratchAt (F := F) c p ⊢ Pipeline.ΦA spec1 c := by
  rw [PhiA1_eq]; unfold scratchAt
  iintro ⟨Hw, Hg⟩
  isplitl [Hw]
  · iapply (withOthers_mono c (T := iprop(owns (c : Thread nD τ) scM fullShare p.1 ∗ owns (c : Thread nD τ) scL fullShare p.2.1 ∗ owns (c : Thread nD τ) scA fullShare p.2.2)) (by
      iintro ⟨HM, HL, HA⟩
      isplitl [HM]; · iexists _; iexact HM
      isplitl [HL]; · iexists _; iexact HL
      iexists _; iexact HA))
    iexact Hw
  iexact Hg

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's obligation at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point: the closed forms say which case the point is in; that case's run applies, the invariant
    handing it the scratch at what the point before left and taking it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 128 := lt_of_lt_of_eq t.isLt (show cfg1.N = 128 from N_1)
  by_cases h0 : t.val % 4 = 0
  · have h1 : t.val % 4 ≤ t.val / 4 % 4 := by omega
    have h2 : ¬t.val % 4 = 3 := by omega
    rw [Dat.leavesExact_idle (dat1 V c) 3 t (idleAt1_3 t (fun h => h2 ((hcond1_2 t).mp h))) (noFlush1_3 t (fun h => h2 ((hcond1_2 t).mp h)))]
    rw [outsAt1_A V c t h0 h1 h2]
    unfold caseA soutM_A soutL_A soutA_A scratchAt withOthers; (try dsimp only)
    by_cases hz : t.val = 0
    · rw [PhiS_castSucc V c t, PhiS_zero V c _ _ hz, PhiA1_eq]; unfold withOthers
      iintro ⟨⟨⟨F0, F1, F2, F3, F4, F5, F6, F7, F8, HM, HL, HA⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) ((hcond1_1 t).mpr h1) (fun h => h2 ((hcond1_2 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%eM, HM⟩, ⟨%eL, HL⟩, ⟨%eA, HA⟩⟩
      isplitl [F0 F1 F2 F3 F4 F5 F6 F7 F8 HM HL HA Hg]
      · isplitl [F0 F1 F2 F3 F4 F5 F6 F7 F8 HM HL HA]
        · isplitl [F0]; · iexact F0
          isplitl [F1]; · iexact F1
          isplitl [F2]; · iexact F2
          isplitl [F3]; · iexact F3
          isplitl [F4]; · iexact F4
          isplitl [F5]; · iexact F5
          isplitl [F6]; · iexact F6
          isplitl [F7]; · iexact F7
          isplitl [F8]; · iexact F8
          isplitl [HM]
          · unfold owns; iexists _; isplitr
            swap; · iexact HM
            ipureintro; exact View.read_writes_of_cover _ _ _ _ _ (coverM_A c _ _ _ _ _ _ _ _ _ _ _ _ _ _ _ _ _ _ _ _ _)
          isplitl [HL]
          · unfold owns; iexists _; isplitr
            swap; · iexact HL
            ipureintro; exact View.read_writes_of_cover _ _ _ _ _ (coverL_A c _ _ _ _ _ _ _ _ _ _ _ _ _ _ _ _ _ _ _ _ _)
          unfold owns; iexists _; isplitr
          swap; · iexact HA
          ipureintro; exact View.read_writes_of_cover _ _ _ _ _ (coverA_A c _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]; unfold scratchAt withOthers
      iintro ⟨⟨⟨F0, F1, F2, F3, F4, F5, F6, F7, F8, HM, HL, HA⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) ((hcond1_1 t).mpr h1) (fun h => h2 ((hcond1_2 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HM]; · iexists _; iexact HM
      isplitl [HL]; · iexists _; iexact HL
      isplitl [HA]; · iexists _; iexact HA
      iintro ⟨H0, H1, H2, H3, ⟨%eM, HM⟩, ⟨%eL, HL⟩, ⟨%eA, HA⟩⟩
      isplitl [F0 F1 F2 F3 F4 F5 F6 F7 F8 HM HL HA Hg]
      · isplitl [F0 F1 F2 F3 F4 F5 F6 F7 F8 HM HL HA]
        · isplitl [F0]; · iexact F0
          isplitl [F1]; · iexact F1
          isplitl [F2]; · iexact F2
          isplitl [F3]; · iexact F3
          isplitl [F4]; · iexact F4
          isplitl [F5]; · iexact F5
          isplitl [F6]; · iexact F6
          isplitl [F7]; · iexact F7
          isplitl [F8]; · iexact F8
          isplitl [HM]
          · unfold owns; iexists _; isplitr
            swap; · iexact HM
            ipureintro; exact View.read_writes_of_cover _ _ _ _ _ (coverM_A c _ _ _ _ _ _ _ _ _ _ _ _ _ _ _ _ _ _ _ _ _)
          isplitl [HL]
          · unfold owns; iexists _; isplitr
            swap; · iexact HL
            ipureintro; exact View.read_writes_of_cover _ _ _ _ _ (coverL_A c _ _ _ _ _ _ _ _ _ _ _ _ _ _ _ _ _ _ _ _ _)
          unfold owns; iexists _; isplitr
          swap; · iexact HA
          ipureintro; exact View.read_writes_of_cover _ _ _ _ _ (coverA_A c _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · by_cases h2 : t.val % 4 = 3
    · by_cases h1 : t.val % 4 ≤ t.val / 4 % 4
      ·
        rw [show (dat1 V c).leavesExact 3 t = owns (c : Thread nD τ) (ms1_3 t) fullShare ((dat1 V c).after 3 t) from by
          unfold Dat.leavesExact; rw [liveAt1_3 t ((hcond1_2 t).mpr h2)], after1_3]
        rw [outsAt1_D V c t h0 h1 h2]
        unfold caseD soutO_D soutM_D soutL_D soutA_D scratchAt withOthers; (try dsimp only)
        have hz : t.val ≠ 0 := by omega
        rw [PhiS_castSucc V c t, PhiS_pos V c _ _ hz]; unfold scratchAt withOthers
        iintro ⟨⟨⟨F0, F1, F2, F3, F4, F5, F6, F7, F8, HM, HL, HA⟩, Hg⟩, Ho, ⟨%d0, H0⟩, ⟨%d1, H1⟩, ⟨%d2, H2⟩, ⟨%d3, H3⟩⟩
        iapply ((kernelRun1_D c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) ((hcond1_2 t).mpr h2) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HM]; · iexact HM
        isplitl [HL]; · iexact HL
        isplitl [HA]; · iexact HA
        iintro ⟨H0, H1, H2, ⟨%e3, H3⟩, ⟨%eM, HM⟩, ⟨%eL, HL⟩, ⟨%eA, HA⟩⟩
        isplitl [F0 F1 F2 F3 F4 F5 F6 F7 F8 HM HL HA Hg]
        · isplitl [F0 F1 F2 F3 F4 F5 F6 F7 F8 HM HL HA]
          · isplitl [F0]; · iexact F0
            isplitl [F1]; · iexact F1
            isplitl [F2]; · iexact F2
            isplitl [F3]; · iexact F3
            isplitl [F4]; · iexact F4
            isplitl [F5]; · iexact F5
            isplitl [F6]; · iexact F6
            isplitl [F7]; · iexact F7
            isplitl [F8]; · iexact F8
            isplitl [HM]
            · unfold owns; iexists _; isplitr
              swap; · iexact HM
              ipureintro; exact View.read_writes_of_cover _ _ _ _ _ (coverM_D c _ _ _ _ _ _ _ _ _ _ _ _ _ _ _ _ _ _ _ _ _ _ _ _)
            isplitl [HL]
            · unfold owns; iexists _; isplitr
              swap; · iexact HL
              ipureintro; exact View.read_writes_of_cover _ _ _ _ _ (coverL_D c _ _ _ _ _ _ _ _ _ _ _ _ _ _ _ _ _ _ _ _ _ _ _ _)
            unfold owns; iexists _; isplitr
            swap; · iexact HA
            ipureintro; exact View.read_writes_of_cover _ _ _ _ _ (coverA_D c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverO_D c _ _ _ _ _ _ _ _ _ _ _ _ _ _ _ _ _ _ _ _ _ _ _ _)
      ·
        rw [show (dat1 V c).leavesExact 3 t = owns (c : Thread nD τ) (ms1_3 t) fullShare ((dat1 V c).after 3 t) from by
          unfold Dat.leavesExact; rw [liveAt1_3 t ((hcond1_2 t).mpr h2)], after1_3]
        rw [outsAt1_E V c t h0 h1 h2]
        unfold caseE soutO_E scratchAt withOthers; (try dsimp only)
        have hz : t.val ≠ 0 := by omega
        rw [PhiS_castSucc V c t, PhiS_pos V c _ _ hz]; unfold scratchAt withOthers
        iintro ⟨⟨⟨F0, F1, F2, F3, F4, F5, F6, F7, F8, HM, HL, HA⟩, Hg⟩, Ho, ⟨%d0, H0⟩, ⟨%d1, H1⟩, ⟨%d2, H2⟩, ⟨%d3, H3⟩⟩
        iapply ((kernelRun1_E c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) ((hcond1_2 t).mpr h2) (iblk1 V c 0 t) (iblk1 V c 1 t) (iblk1 V c 2 t) _ _ _).2 Set.univ _)
        isplitl [H0]; · iexact H0
        isplitl [H1]; · iexact H1
        isplitl [H2]; · iexact H2
        isplitl [H3]; · iexists _; iexact H3
        isplitl [HM]; · iexact HM
        isplitl [HL]; · iexact HL
        isplitl [HA]; · iexact HA
        iintro ⟨H0, H1, H2, ⟨%e3, H3⟩, HM, HL, HA⟩
        isplitl [F0 F1 F2 F3 F4 F5 F6 F7 F8 HM HL HA Hg]
        · isplitl [F0 F1 F2 F3 F4 F5 F6 F7 F8 HM HL HA]
          · isplitl [F0]; · iexact F0
            isplitl [F1]; · iexact F1
            isplitl [F2]; · iexact F2
            isplitl [F3]; · iexact F3
            isplitl [F4]; · iexact F4
            isplitl [F5]; · iexact F5
            isplitl [F6]; · iexact F6
            isplitl [F7]; · iexact F7
            isplitl [F8]; · iexact F8
            isplitl [HM]; · iexact HM
            isplitl [HL]; · iexact HL
            iexact HA
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverO_E c _ _ _ _ _ _ _ _ _ _ _ _ _ _ _ _ _ _ _ _ _ _ _ _)
    · by_cases h1 : t.val % 4 ≤ t.val / 4 % 4
      ·
        rw [Dat.leavesExact_idle (dat1 V c) 3 t (idleAt1_3 t (fun h => h2 ((hcond1_2 t).mp h))) (noFlush1_3 t (fun h => h2 ((hcond1_2 t).mp h)))]
        rw [outsAt1_B V c t h0 h1 h2]
        unfold caseB soutM_B soutL_B soutA_B scratchAt withOthers; (try dsimp only)
        have hz : t.val ≠ 0 := by omega
        rw [PhiS_castSucc V c t, PhiS_pos V c _ _ hz]; unfold scratchAt withOthers
        iintro ⟨⟨⟨F0, F1, F2, F3, F4, F5, F6, F7, F8, HM, HL, HA⟩, Hg⟩, Ho, ⟨%d0, H0⟩, ⟨%d1, H1⟩, ⟨%d2, H2⟩, ⟨%d3, H3⟩⟩
        iapply ((kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) (fun h => h2 ((hcond1_2 t).mp h)) (iblk1 V c 0 t) (iblk1 V c 1 t) (iblk1 V c 2 t) _ _ _).2.2.2 _ Set.univ _)
        isplitl [H0]; · iexact H0
        isplitl [H1]; · iexact H1
        isplitl [H2]; · iexact H2
        isplitl [H3]; · iexact H3
        isplitl [HM]; · iexact HM
        isplitl [HL]; · iexact HL
        isplitl [HA]; · iexact HA
        iintro ⟨H0, H1, H2, H3, ⟨%eM, HM⟩, ⟨%eL, HL⟩, ⟨%eA, HA⟩⟩
        isplitl [F0 F1 F2 F3 F4 F5 F6 F7 F8 HM HL HA Hg]
        · isplitl [F0 F1 F2 F3 F4 F5 F6 F7 F8 HM HL HA]
          · isplitl [F0]; · iexact F0
            isplitl [F1]; · iexact F1
            isplitl [F2]; · iexact F2
            isplitl [F3]; · iexact F3
            isplitl [F4]; · iexact F4
            isplitl [F5]; · iexact F5
            isplitl [F6]; · iexact F6
            isplitl [F7]; · iexact F7
            isplitl [F8]; · iexact F8
            isplitl [HM]
            · unfold owns; iexists _; isplitr
              swap; · iexact HM
              ipureintro; exact View.read_writes_of_cover _ _ _ _ _ (coverM_B c _ _ _ _ _ _ _ _ _ _ _ _ _ _ _ _ _ _ _ _ _ _ _ _)
            isplitl [HL]
            · unfold owns; iexists _; isplitr
              swap; · iexact HL
              ipureintro; exact View.read_writes_of_cover _ _ _ _ _ (coverL_B c _ _ _ _ _ _ _ _ _ _ _ _ _ _ _ _ _ _ _ _ _ _ _ _)
            unfold owns; iexists _; isplitr
            swap; · iexact HA
            ipureintro; exact View.read_writes_of_cover _ _ _ _ _ (coverA_B c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      ·
        rw [Dat.leavesExact_idle (dat1 V c) 3 t (idleAt1_3 t (fun h => h2 ((hcond1_2 t).mp h))) (noFlush1_3 t (fun h => h2 ((hcond1_2 t).mp h)))]
        rw [outsAt1_C V c t h0 h1 h2]
        unfold caseC scratchAt withOthers; (try dsimp only)
        have hz : t.val ≠ 0 := by omega
        rw [PhiS_castSucc V c t, PhiS_pos V c _ _ hz]; unfold scratchAt withOthers
        iintro ⟨⟨⟨F0, F1, F2, F3, F4, F5, F6, F7, F8, HM, HL, HA⟩, Hg⟩, Ho, ⟨%d0, H0⟩, ⟨%d1, H1⟩, ⟨%d2, H2⟩, ⟨%d3, H3⟩⟩
        iapply (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (fun h => h2 ((hcond1_2 t).mp h)) (iblk1 V c 0 t) (iblk1 V c 1 t) (iblk1 V c 2 t) _ _ _ _ Set.univ _)
        isplitl [H0]; · iexact H0
        isplitl [H1]; · iexact H1
        isplitl [H2]; · iexact H2
        isplitl [H3]; · iexact H3
        isplitl [HM]; · iexact HM
        isplitl [HL]; · iexact HL
        isplitl [HA]; · iexact HA
        iintro ⟨H0, H1, H2, H3, HM, HL, HA⟩
        isplitl [F0 F1 F2 F3 F4 F5 F6 F7 F8 HM HL HA Hg]
        · isplitl [F0 F1 F2 F3 F4 F5 F6 F7 F8 HM HL HA]
          · isplitl [F0]; · iexact F0
            isplitl [F1]; · iexact F1
            isplitl [F2]; · iexact F2
            isplitl [F3]; · iexact F3
            isplitl [F4]; · iexact F4
            isplitl [F5]; · iexact F5
            isplitl [F6]; · iexact F6
            isplitl [F7]; · iexact F7
            isplitl [F8]; · iexact F8
            isplitl [HM]; · iexact HM
            isplitl [HL]; · iexact HL
            iexact HA
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the scratch's named contents are forgotten. -/
theorem hout1 (c : Dev nD) : (dat1 V c).Φ (Fin.last cfg1.N) ⊢ Pipeline.ΦA spec1 c := by
  have hN : cfg1.N = 128 := N_1
  rw [show (dat1 V c).Φ (Fin.last cfg1.N) = PhiS V c (Fin.last cfg1.N).val (Nat.le_of_lt_succ (Fin.last cfg1.N).isLt) from rfl,
    PhiS_pos V c _ _ (by rw [Fin.val_last]; omega)]
  exact scratchAt_forget c _

end Region1

end Cert.KernelIdeal.Hand

end
-- ==== Proof.Run.lean ====
/-
  The whole program's run. @main is the concatenation of the three weight matrices on the host, the projection call and
  the attention call. Between two items every unscoped buffer of the core is held at known contents: the launch memory,
  then with the concatenated matrix written, then with q, k, v at what the projection call's write-backs leave, then with
  the result at what the attention call's write-backs leave. Each call is a segment entered from the contents before it
  and left at the contents after it; the run ends with every unscoped buffer at the last contents, from which both the
  arguments (never written) and the result are read.
-/
import proofs.«178913_j5025111736349_2_alg».proof.Proof.Gen.KernelIdeal.Launch
import proofs.«178913_j5025111736349_2_alg».proof.Proof.Gen.KernelIdeal.Skeleton
import proofs.«178913_j5025111736349_2_alg».proof.Proof.Gen.KernelIdeal.Points
import proofs.«178913_j5025111736349_2_alg».proof.Proof.Region0
import proofs.«178913_j5025111736349_2_alg».proof.Proof.Region1
import proofs.«178913_j5025111736349_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the concatenation (the projection call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At the attention call's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The calls as segments -/

set_option backward.isDefEq.respectTransparency.types false in
/-- The projection call: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered from every unscoped buffer at `W2`, left at `W3`; its invariant is the class invariant
    before the first point and gives it back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## What the last contents are at the buffers the claims speak of -/

/-- The result is what the attention call's write-backs leave in its output array. -/
theorem W3_result (c : Dev nD) : W3 m ρ c (Proc.devRef .tc main_v2) = (dat1 (V2 m ρ) c).arrAt 3 cfg1.N :=
  W3_arr m ρ c 3

/-- No item writes an argument: the concatenation writes its own result, the calls their own outputs. -/
theorem W1_arg (c : Dev nD) (r : Ref sig .tc) (h : r ∉ hostOps0_W) : W1 m ρ c (Proc.devRef .tc r) = m ((c : Thread nD τ).loc r) :=
  V1_of m c r h
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_arg m ρ c main_arg0 (by decide)
theorem W3_main_arg1 (c : Dev nD) : W3 m ρ c (Proc.devRef .tc main_arg1) = m ((c : Thread nD τ).loc main_arg1) :=
  (W3_of_ne m ρ c main_arg1 (by decide)).trans ((W2_of_ne m ρ c main_arg1 (by decide)).trans (W1_arg m ρ c main_arg1 (by decide)))
theorem W3_main_arg2 (c : Dev nD) : W3 m ρ c (Proc.devRef .tc main_arg2) = m ((c : Thread nD τ).loc main_arg2) :=
  (W3_of_ne m ρ c main_arg2 (by decide)).trans ((W2_of_ne m ρ c main_arg2 (by decide)).trans (W1_arg m ρ c main_arg2 (by decide)))
theorem W3_main_arg3 (c : Dev nD) : W3 m ρ c (Proc.devRef .tc main_arg3) = m ((c : Thread nD τ).loc main_arg3) :=
  (W3_of_ne m ρ c main_arg3 (by decide)).trans ((W2_of_ne m ρ c main_arg3 (by decide)).trans (W1_arg m ρ c main_arg3 (by decide)))

/-- The run with its post read at the result and the arguments. -/
theorem run_main : θ_run defs (onTc (τ := τ) (main (F := F))) ⟨m, fun _ => 0, ρ⟩ (fun r => ∀ c : Dev nD,
      r.2.mem ((c.tc : Thread nD τ).loc main_v2) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans (W3_result m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Hand

end
-- ==== Proof.LibOnlineSoftmax.lean ====
/-
  The online (tile-by-tile) softmax accumulation equals the one-pass softmax sums.

  A row of scores is visited tile by tile. After tile j the running maximum is M (j+1), and the running
  denominator l and numerator acc are rescaled by e^{M j - M (j+1)} before the tile's own terms, taken against
  the NEW maximum, are added:
      l   (j+1) = e^{M j - M (j+1)} · l j   + Σ_k w j k (M (j+1))
      acc (j+1) = e^{M j - M (j+1)} · acc j + Σ_k w j k (M (j+1)) · v j k.
  Whenever the weights obey the shift law  w j k b = e^{a - b} · w j k a  (true of e^{s - M}, and of the weight
  0 of a masked score -∞), after n tiles both are the plain sums over every element seen so far, taken against
  the last maximum M n. Nothing is asked of the rescaling factor of the FIRST tile: it multiplies the empty
  start l 0 = acc 0 = 0. The maximum enters only through the shift law, so M may be any sequence of reals.

  Also here: the weight function on the extended reals (a real score or -∞ against a real shift), that it is
  the extended-real exponential of the difference, and that normalising the numerator by 1/L is the
  sum of the normalised weights times the values.
-/
import Idealize.ShloMosaic.PureOps.Ideal

noncomputable section

namespace OnlineSoftmax

open Finset Idealize.ShloMosaic

/-- The weight of a score `s` (a real number or -∞) against a real shift `M`: e^{s - M}, and 0 at -∞. -/
def wt (s : EReal) (M : ℝ) : ℝ := if s = ⊥ then 0 else Real.exp (s.toReal - M)

/-- Changing the shift from `a` to `b` multiplies every weight by e^{a - b}. -/
theorem wt_shift (s : EReal) (a b : ℝ) : wt s b = Real.exp (a - b) * wt s a := by
  unfold wt
  split_ifs with h
  · simp
  · rw [← Real.exp_add]; congr 1; ring

/-- A weight is never negative. -/
theorem wt_nonneg (s : EReal) (M : ℝ) : 0 ≤ wt s M := by
  unfold wt; split_ifs
  · exact le_refl 0
  · exact (Real.exp_pos _).le

/-- The weight of a real score against itself is 1: the maximal element contributes e^0. -/
theorem wt_self (x : ℝ) : wt (x : EReal) x = 1 := by
  simp [wt]

/-- On the extended reals, the exponential of (score - shift) IS the weight, for a score below +∞. -/
theorem exp_sub_eq_wt (s : EReal) (hs : s ≠ ⊤) (M : ℝ) :
    Ideal.exp (s - (M : EReal)) = ((wt s M : ℝ) : EReal) := by
  induction s using EReal.rec with
  | bot => simp [wt, EReal.bot_sub]
  | coe x => simp [wt, ← EReal.coe_sub]
  | top => exact absurd rfl hs

/-- THE ACCUMULATION. After `n` tiles the rescaled running sums are the plain sums against the last maximum. -/
theorem fold_eq {K : Type*} [Fintype K] (w : ℕ → K → ℝ → ℝ) (v : ℕ → K → ℝ) (M : ℕ → ℝ)
    (hshift : ∀ j k a b, w j k b = Real.exp (a - b) * w j k a)
    (l acc r : ℕ → ℝ) (hl0 : l 0 = 0) (hacc0 : acc 0 = 0)
    (hr : ∀ j, 0 < j → r j = Real.exp (M j - M (j + 1)))
    (hl : ∀ j, l (j + 1) = r j * l j + ∑ k, w j k (M (j + 1)))
    (hacc : ∀ j, acc (j + 1) = r j * acc j + ∑ k, w j k (M (j + 1)) * v j k) (n : ℕ) :
    l n = ∑ j ∈ range n, ∑ k, w j k (M n)
      ∧ acc n = ∑ j ∈ range n, ∑ k, w j k (M n) * v j k := by
  induction n with
  | zero => simp [hl0, hacc0]
  | succ n ih =>
    obtain ⟨ihl, ihacc⟩ := ih
    rcases Nat.eq_zero_or_pos n with rfl | hn
    · simp [hl, hacc, hl0, hacc0]
    · have hs : ∀ j k, Real.exp (M n - M (n + 1)) * w j k (M n) = w j k (M (n + 1)) :=
        fun j k => (hshift j k (M n) (M (n + 1))).symm
      constructor
      · rw [hl, hr n hn, ihl, Finset.sum_range_succ, Finset.mul_sum]
        congr 1
        refine Finset.sum_congr rfl fun j _ => ?_
        rw [Finset.mul_sum]
        exact Finset.sum_congr rfl fun k _ => hs j k
      · rw [hacc, hr n hn, ihacc, Finset.sum_range_succ, Finset.mul_sum]
        congr 1
        refine Finset.sum_congr rfl fun j _ => ?_
        rw [Finset.mul_sum]
        refine Finset.sum_congr rfl fun k _ => ?_
        rw [← mul_assoc, hs j k]

/-- Normalising at the end: the numerator times 1/L is the sum of the normalised weights times the values. -/
theorem mul_one_div_eq_sum {ι : Type*} (s : Finset ι) (p v : ι → ℝ) (L : ℝ) :
    (∑ i ∈ s, p i * v i) * (1 / L) = ∑ i ∈ s, (p i / L) * v i := by
  rw [Finset.sum_mul]
  refine Finset.sum_congr rfl fun i _ => ?_
  ring

/-- A denominator that contains the maximal element's weight 1 is at least 1, hence not zero. -/
theorem one_le_sum_of_mem {ι : Type*} (s : Finset ι) (p : ι → ℝ) (hp : ∀ i ∈ s, 0 ≤ p i) (i₀ : ι) (h₀ : i₀ ∈ s)
    (h1 : p i₀ = 1) : 1 ≤ ∑ i ∈ s, p i := by
  calc (1 : ℝ) = p i₀ := h1.symm
    _ ≤ ∑ i ∈ s, p i := Finset.single_le_sum hp h₀

end OnlineSoftmax

end
-- ==== Proof.Spec.lean ====
/-
  What causal single-head attention computes, stated once over the real numbers.

  From x (8 × 2048 × 1024) and three weight matrices (1024 × 64): the projections q, k, v (sums over the 1024 features);
  the score of key position k for query position q, the inner product of their 64 features divided by 64; the mask, which
  hides key positions after the query's own (score -∞); the row maximum over the visible positions; each position's
  weight e^{score - maximum} (0 where hidden); and the output, the weights normalised by their row sum and applied to v.
  `G` is that output as a function of extended-real argument arrays (read through their real parts), the one term both
  programs' results are compared with. Also: the coercion of a finite real sum to the extended reals is the sum of the
  coercions.
-/
import Idealize.ShloMosaic.PureOps.Ideal
import Idealize.ShloMosaic.Lib.ValueIdx
import proofs.«178913_j5025111736349_2_alg».proof.Proof.LibOnlineSoftmax

noncomputable section

namespace Cert.Spec

open Idealize.ShloMosaic Idealize.ShloMosaic.ValueIdx OnlineSoftmax

abbrev SX : Shape := ⟨3, ![8, 2048, 1024]⟩
abbrev SW : Shape := ⟨2, ![1024, 64]⟩
abbrev SO : Shape := ⟨3, ![8, 2048, 64]⟩

section Real

variable (x : Fin 8 → Fin 2048 → Fin 1024 → ℝ) (wq wk wv : Fin 1024 → Fin 64 → ℝ)

/-- A projection of x by a weight matrix. -/
def proj (w : Fin 1024 → Fin 64 → ℝ) (b : Fin 8) (s : Fin 2048) (h : Fin 64) : ℝ :=
  ∑ e : Fin 1024, x b s e * w e h

/-- The score of key position `k` for query position `q`: the inner product of their features, over 64. -/
def score (b : Fin 8) (q k : Fin 2048) : ℝ :=
  (∑ h : Fin 64, proj x wq b q h * proj x wk b k h) / 64

/-- The masked score: -∞ at the key positions after the query's. -/
def mscore (b : Fin 8) (q k : Fin 2048) : EReal :=
  if k ≤ q then ((score x wq wk b q k : ℝ) : EReal) else ⊥

/-- The row maximum, over the visible key positions `k ≤ q` (the query's own is one of them). -/
def rowMax (b : Fin 8) (q : Fin 2048) : ℝ :=
  (Finset.univ.filter (fun k : Fin 2048 => k ≤ q)).sup' ⟨q, by simp⟩ (score x wq wk b q)

/-- A key position's weight: e^{score - row maximum}, 0 where hidden. -/
def weight (b : Fin 8) (q k : Fin 2048) : ℝ := wt (mscore x wq wk b q k) (rowMax x wq wk b q)

/-- The row sum of the weights. -/
def denom (b : Fin 8) (q : Fin 2048) : ℝ := ∑ k : Fin 2048, weight x wq wk b q k

/-- The attention output. -/
def out (b : Fin 8) (q : Fin 2048) (h : Fin 64) : ℝ :=
  ∑ k : Fin 2048, (weight x wq wk b q k / denom x wq wk b q) * proj x wv b k h

end Real

/-- An array of extended reals all of whose entries are real numbers. -/
def IsReal {S : Shape} (X : S.Idx → EReal) : Prop := ∀ i, ∃ r : ℝ, X i = (r : EReal)

theorem IsReal.coe_toReal {S : Shape} {X : S.Idx → EReal} (h : IsReal X) (i : S.Idx) : ((X i).toReal : EReal) = X i := by
  obtain ⟨r, hr⟩ := h i; rw [hr, EReal.toReal_coe]

/-- The real parts of a rank-3 array, by coordinates. -/
def toR3 (X : SX.Idx → EReal) : Fin 8 → Fin 2048 → Fin 1024 → ℝ := fun b s e => (X (ix3 b s e)).toReal
/-- The real parts of a weight matrix, by coordinates. -/
def toR2 (W : SW.Idx → EReal) : Fin 1024 → Fin 64 → ℝ := fun e h => (W (ix2 e h)).toReal

/-- THE SPECIFICATION: the attention output of the arguments' real parts, as an array of extended reals. -/
def G (X : SX.Idx → EReal) (WQ WK WV : SW.Idx → EReal) : SO.Idx → EReal :=
  fun i => ((out (toR3 X) (toR2 WQ) (toR2 WK) (toR2 WV) (i 0) (i 1) (i 2) : ℝ) : EReal)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Spec

end
-- ==== Proof.Finite.lean ====
/-
  Finite inputs are real. The precondition compares every entry's absolute value with +∞ and takes the conjunction over
  each array and then over the four arrays; where it is all ones, every entry of every array is a real number.
-/
import proofs.«178913_j5025111736349_2_alg».proof.Proof.Gen.Pre_finite_inputs
import proofs.«178913_j5025111736349_2_alg».proof.Proof.Spec
import Idealize.ShloMosaic.Lib.ReduceAll
import Idealize.ShloMosaic.Lib.Pipeline.Value

noncomputable section

namespace Cert.Finite

open Idealize.ShloMosaic Idealize.ShloMosaic.ValueIdx Cert.Spec

instance : Subsingleton Cert.Pre_finite_inputs.S_.Idx := ⟨fun a b => funext fun d => d.elim0⟩

/-- An extended real whose absolute value compares below +∞ is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have htop : Ideal.ofBits .f32 0x7F800000#32 = (⊤ : EReal) := by simp [Ideal.ofBits, Ideal.ieee]
  change Ideal.cmp .olt (max x (-x)) (Ideal.ofBits .f32 0x7F800000#32) = 1#1 at h
  rw [htop] at h
  induction x using EReal.rec with
  | bot => simp [Ideal.cmp] at h
  | coe r => exact ⟨r, rfl⟩
  | top => simp [Ideal.cmp] at h

/-- One array: where the comparison of |x| with the broadcast +∞ is 1 at an index, the entry there is real. -/
theorem elem_real {S : Shape} (hb : Cert.Pre_finite_inputs.S_.BroadcastsInDim S (![] : Fin 0 → Fin S.rank)) (X : FVec Ideal S .f32)
    (i : S.Idx)
    (h : cmpf .olt (Host.absf X) (broadcastInDim S ![] hb (constant (F := Ideal) Cert.Pre_finite_inputs.S_ .f32 0x7F800000#32)) i = 1#1) :
    ∃ r : ℝ, X i = (r : EReal) := by
  rw [cmpf_apply, broadcastInDim_apply _ hb _ i ix0 (fun a => a.elim0)] at h
  exact real_of_abs_lt_inf (X i) h

/-- THE PRECONDITION GIVES REAL ENTRIES. -/
theorem of_pre (X : FVec Ideal Cert.Pre_finite_inputs.S8x2048x1024 .f32) (WQ WK WV : FVec Ideal Cert.Pre_finite_inputs.S1024x64 .f32)
    (h : Cert.Pre_finite_inputs.fn (F := Ideal) X WQ WK WV = (fun _ => 1#1)) :
    Cert.Spec.IsReal X ∧ Cert.Spec.IsReal WQ ∧ Cert.Spec.IsReal WK ∧ Cert.Spec.IsReal WV := by
  have h0 := congrFun h ix0
  dsimp only [Cert.Pre_finite_inputs.fn, Cert.Pre_finite_inputs.fn_part1] at h0
  obtain ⟨h123, h4⟩ := IntOp.andi_eq_one.mp h0
  obtain ⟨h12, h3⟩ := IntOp.andi_eq_one.mp h123
  obtain ⟨h1, h2⟩ := IntOp.andi_eq_one.mp h12
  refine ⟨fun i => ?_, fun i => ?_, fun i => ?_, fun i => ?_⟩
  · exact elem_real _ X i (Host.reduce_andi_all _ _ _ _ ix0 h1 i)
  · exact elem_real _ WQ i (Host.reduce_andi_all _ _ _ _ ix0 h2 i)
  · exact elem_real _ WK i (Host.reduce_andi_all _ _ _ _ ix0 h3 i)
  · exact elem_real _ WV i (Host.reduce_andi_all _ _ _ _ ix0 h4 i)

end Cert.Finite

end
-- ==== Proof.RefValue.lean ====
/-
  The reference program computes the specification.

  Read one element at a time, on argument arrays whose entries are real numbers: each projection is a finite sum of products
  of reals, hence the coercion of the real projection; the score is the inner product of two projections divided by 64
  (the word 0x42800000); the mask keeps the key positions up to the query's (row ≥ column on the 2048 × 2048 lower triangle)
  and puts -∞ elsewhere; the maximum from -∞ over a row of masked scores is the maximum of the visible scores, a real
  number because the query's own position is visible; the exponential of (masked score - row maximum) is the weight
  (0 at -∞); the sum from 0 of a row of weights is the row sum, at least 1 because a position attaining the maximum has
  weight 1; the quotient by it is the normalised weight; and the last contraction with the value projection is the
  attention output. Every step is an equation between extended reals of the form "… = the coercion of a real".
-/
import proofs.«178913_j5025111736349_2_alg».proof.Proof.Gen.ReferenceIdeal.Read
import proofs.«178913_j5025111736349_2_alg».proof.Proof.Spec
import Idealize.ShloMosaic.Lib.Affine
import Idealize.ShloMosaic.PureOps.Reduce

noncomputable section

namespace Cert.ReferenceIdeal.RefValue

open Idealize.ShloMosaic Idealize.ShloMosaic.ValueIdx Cert.ReferenceIdeal Cert.ReferenceIdeal.Read Cert.Spec OnlineSoftmax

/-- The word 0x42800000 is 64. -/
theorem ofBits_64 : Ideal.ofBits .f32 0x42800000#32 = ((64 : ℝ) : EReal) := by
  simp [Ideal.ofBits, Ideal.ieee]
  exact_mod_cast (by norm_num : (8388608 : ℝ) * (2 ^ 17)⁻¹ = 64)

/-- The word 0xFF800000 is -∞. -/
theorem ofBits_neg_inf : Ideal.ofBits .f32 0xFF800000#32 = (⊥ : EReal) := by
  simp [Ideal.ofBits, Ideal.ieee]

theorem lidx0 (b : Fin 8) (s : Fin 2048) (h : Fin 64) (e : Fin 1024) :
    lidx_main_v0 (ix3 b s h) e = ix3 b s e := by
  funext a; match a with | ⟨0, _⟩ => rfl | ⟨1, _⟩ => rfl | ⟨2, _⟩ => rfl

theorem ridx0 (b : Fin 8) (s : Fin 2048) (h : Fin 64) (e : Fin 1024) :
    ridx_main_v0 (ix3 b s h) e = ix2 e h := by
  funext a; match a with | ⟨0, _⟩ => rfl | ⟨1, _⟩ => rfl

/-- A projection of real arrays is the coercion of the real projection. -/
theorem v0_eq (X : SX.Idx → EReal) (W : SW.Idx → EReal) (hX : IsReal X) (hW : IsReal W) (b : Fin 8) (s : Fin 2048) (h : Fin 64) :
    val_main_v0 (F := Ideal) X W (ix3 b s h) = ((proj (toR3 X) (toR2 W) b s h : ℝ) : EReal) := by
  rw [val_main_v0_apply]
  unfold proj
  rw [coe_sum]
  refine Finset.sum_congr rfl fun e _ => ?_
  rw [lidx0, ridx0, EReal.coe_mul]
  unfold toR3 toR2
  rw [hX.coe_toReal, hW.coe_toReal]

/-- The three projections are one function of the array and the weight matrix. -/
theorem v1_eq_v0 (X : SX.Idx → EReal) (W : SW.Idx → EReal) : val_main_v1 (F := Ideal) X W = val_main_v0 (F := Ideal) X W := rfl
theorem v2_eq_v0 (X : SX.Idx → EReal) (W : SW.Idx → EReal) : val_main_v2 (F := Ideal) X W = val_main_v0 (F := Ideal) X W := rfl

theorem lidx3 (b : Fin 8) (q k : Fin 2048) (h : Fin 64) : lidx_main_v3 (ix3 b q k) h = ix3 b q h := by
  funext a; match a with | ⟨0, _⟩ => rfl | ⟨1, _⟩ => rfl | ⟨2, _⟩ => rfl
theorem ridx3 (b : Fin 8) (q k : Fin 2048) (h : Fin 64) : ridx_main_v3 (ix3 b q k) h = ix3 b k h := by
  funext a; match a with | ⟨0, _⟩ => rfl | ⟨1, _⟩ => rfl | ⟨2, _⟩ => rfl

/-- The scaled score is the coercion of the real score. -/
theorem v5_eq (X : SX.Idx → EReal) (WQ WK : SW.Idx → EReal) (hX : IsReal X) (hQ : IsReal WQ) (hK : IsReal WK)
    (b : Fin 8) (q k : Fin 2048) :
    val_main_v5 (F := Ideal) X WQ WK (ix3 b q k) = ((score (toR3 X) (toR2 WQ) (toR2 WK) b q k : ℝ) : EReal) := by
  have e : ∀ s : ℝ, ((s / 64 : ℝ) : EReal) = (s : EReal) * ((1 / 64 : ℝ) : EReal) := fun s => by
    rw [← EReal.coe_mul]; congr 1; ring
  unfold score
  rw [e, coe_sum, val_main_v5_apply, val_main_v4_apply, val_main_cst_apply, val_main_v3_apply]
  rw [Ideal.hostDivf_def, Ideal.ofBits_def, ofBits_64, Ideal.div_coe (by norm_num)]
  congr 1
  refine Finset.sum_congr rfl fun h _ => ?_
  rw [lidx3, ridx3, v1_eq_v0, v0_eq X WQ hX hQ, v0_eq X WK hX hK, EReal.coe_mul]

/-- The lower-triangle bit: 1 where the column is at most the row. -/
theorem tril_bit (q k : Fin 2048) :
    IntOp.cmpi .sge (IntOp.addi (BitVec.ofNat 32 q.val) 0#32) (BitVec.ofNat 32 k.val) = if k ≤ q then 1#1 else 0#1 := by
  have hq := q.isLt
  have hk := k.isLt
  have e0 : IntOp.addi (BitVec.ofNat 32 q.val) 0#32 = BitVec.ofNat 32 q.val := BitVec.add_zero _
  have e1 := BitVec.toInt_eq_toNat_cond (BitVec.ofNat 32 q.val)
  have e2 := BitVec.toInt_eq_toNat_cond (BitVec.ofNat 32 k.val)
  rw [BitVec.toNat_ofNat] at e1 e2
  rw [e0]
  split_ifs with h
  · rw [IntOp.cmpi_sge]
    have := Fin.le_def.mp h
    omega
  · refine eq_zero_of_ne_one fun h1 => h ?_
    have := IntOp.cmpi_sge.mp h1
    refine Fin.le_def.mpr ?_
    omega

theorem v7_eq (q k : Fin 2048) : val_main_v7 (F := Ideal) (ix2 q k) = if k ≤ q then 1#1 else 0#1 := by
  rw [val_main_v7_apply, val_main_call0_v4_apply, val_main_call0_v2_apply, val_main_call0_v0_apply, val_main_call0_v1_apply,
    val_main_call0_c_apply, val_main_call0_v3_apply, val_main_v6_apply, val_main_c_apply, val_main_call0_v5_apply, val_main_call0_c_0_apply]
  show Scalar.select (IntOp.cmpi .sge (IntOp.addi (BitVec.ofNat 32 q.val) 0#32) (BitVec.ofNat 32 k.val)) 1#1 0#1 = _
  rw [tril_bit]
  split_ifs
  · exact select_one _ _
  · exact select_zero _ _

theorem idx_c1v1 (b : Fin 8) (q k : Fin 2048) : idx_main_call1_v1 (ix3 b q k) = ix2 q k := by
  funext a; match a with | ⟨0, _⟩ => rfl | ⟨1, _⟩ => rfl

/-- The masked score: the score at the key positions up to the query's, -∞ after. -/
theorem v8_eq (X : SX.Idx → EReal) (WQ WK : SW.Idx → EReal) (hX : IsReal X) (hQ : IsReal WQ) (hK : IsReal WK)
    (b : Fin 8) (q k : Fin 2048) :
    val_main_v8 (F := Ideal) X WQ WK (ix3 b q k) = mscore (toR3 X) (toR2 WQ) (toR2 WK) b q k := by
  rw [val_main_v8_apply, val_main_call1_v1_apply, val_main_call1_v2_apply, val_main_call1_v0_apply, val_main_cst_0_apply,
    idx_c1v1, v7_eq, v5_eq X WQ WK hX hQ hK, Ideal.ofBits_def, ofBits_neg_inf]
  unfold mscore
  split_ifs
  · exact select_one _ _
  · exact select_zero _ _

/-- The source index over (b, q) with key position k put back is (b, q, k). -/
theorem lift_ix (hR : S8x2048x2048.Reduces [2] S8x2048) (b : Fin 8) (q : Fin 2048) (k : Fin (S8x2048x2048.size 2)) :
    hR.lift (ix2 b q) k = ix3 b q (⟨k.val, k.isLt⟩ : Fin 2048) := by
  funext c; apply Fin.ext
  match c with
  | ⟨0, _⟩ => rfl
  | ⟨1, _⟩ => rfl
  | ⟨2, _⟩ => rfl

section Real
variable (x : Fin 8 → Fin 2048 → Fin 1024 → ℝ) (wq wk : Fin 1024 → Fin 64 → ℝ)

theorem mscore_ne_top (b : Fin 8) (q k : Fin 2048) : mscore x wq wk b q k ≠ ⊤ := by
  unfold mscore
  split_ifs
  · exact EReal.coe_ne_top _
  · exact bot_ne_top

/-- The maximum from -∞ of a row of masked scores is the row maximum over the visible positions. -/
theorem fold_max_mscore (b : Fin 8) (q : Fin 2048) :
    Finset.fold max (⊥ : EReal) (fun k : Fin 2048 => mscore x wq wk b q k) Finset.univ = ((rowMax x wq wk b q : ℝ) : EReal) := by
  apply le_antisymm
  · rw [Finset.fold_max_le]
    refine ⟨bot_le, fun k _ => ?_⟩
    unfold mscore
    split_ifs with hk
    · rw [EReal.coe_le_coe_iff]
      unfold rowMax
      exact Finset.le_sup' _ (by simp [hk])
    · exact bot_le
  · rw [Finset.le_fold_max]
    right
    obtain ⟨k0, hk0, e⟩ := Finset.exists_mem_eq_sup' (s := Finset.univ.filter (fun k : Fin 2048 => k ≤ q)) ⟨q, by simp⟩ (score x wq wk b q)
    refine ⟨k0, Finset.mem_univ _, ?_⟩
    have hk : k0 ≤ q := (Finset.mem_filter.mp hk0).2
    unfold mscore rowMax
    rw [if_pos hk, e]

/-- Some visible position attains the row maximum: its weight is 1. -/
theorem exists_weight_one (b : Fin 8) (q : Fin 2048) : ∃ k0 : Fin 2048, weight x wq wk b q k0 = 1 := by
  obtain ⟨k0, hk0, e⟩ := Finset.exists_mem_eq_sup' (s := Finset.univ.filter (fun k : Fin 2048 => k ≤ q)) ⟨q, by simp⟩ (score x wq wk b q)
  have hk : k0 ≤ q := (Finset.mem_filter.mp hk0).2
  refine ⟨k0, ?_⟩
  unfold weight mscore rowMax
  rw [if_pos hk, e]
  exact wt_self _

/-- The row sum of the weights is at least 1. -/
theorem one_le_denom (b : Fin 8) (q : Fin 2048) : 1 ≤ denom x wq wk b q := by
  obtain ⟨k0, h1⟩ := exists_weight_one x wq wk b q
  unfold denom
  exact one_le_sum_of_mem Finset.univ (weight x wq wk b q) (fun k _ => wt_nonneg _ _) k0 (Finset.mem_univ _) h1

theorem denom_ne_zero (b : Fin 8) (q : Fin 2048) : denom x wq wk b q ≠ 0 := by
  have := one_le_denom x wq wk b q
  intro h; rw [h] at this; norm_num at this

end Real

/-- The reduce by maximum from -∞ over the key positions is the row maximum. -/
theorem v9_eq (X : SX.Idx → EReal) (WQ WK : SW.Idx → EReal) (hX : IsReal X) (hQ : IsReal WQ) (hK : IsReal WK)
    (b : Fin 8) (q : Fin 2048) :
    val_main_v9 (F := Ideal) X WQ WK (ix2 b q) = ((rowMax (toR3 X) (toR2 WQ) (toR2 WK) b q : ℝ) : EReal) := by
  have hR : S8x2048x2048.Reduces [2] S8x2048 := by decide
  unfold val_main_v9
  rw [Host.reduce_eq_fold_single FloatOps.maximumf _ _ _ hR _, val_main_cst_1_apply, Ideal.ofBits_def, ofBits_neg_inf]
  have hf : (val_main_v8 (F := Ideal) X WQ WK ∘ hR.lift (ix2 b q)) = fun k : Fin 2048 => mscore (toR3 X) (toR2 WQ) (toR2 WK) b q k :=
    funext fun k => by rw [Function.comp_apply, lift_ix, v8_eq X WQ WK hX hQ hK]; rfl
  rw [hf]
  exact fold_max_mscore _ _ _ b q

theorem v11_eq (X : SX.Idx → EReal) (WQ WK : SW.Idx → EReal) (hX : IsReal X) (hQ : IsReal WQ) (hK : IsReal WK)
    (b : Fin 8) (q : Fin 2048) :
    val_main_v11 (F := Ideal) X WQ WK (ix2 b q) = ((rowMax (toR3 X) (toR2 WQ) (toR2 WK) b q : ℝ) : EReal) := by
  rw [val_main_v11_apply, val_main_v10_apply, val_main_cst_2_apply, v9_eq X WQ WK hX hQ hK, Ideal.maximumf_def, Ideal.ofBits_def,
    ofBits_neg_inf]
  exact max_eq_right bot_le

theorem idx_12_13 (b : Fin 8) (q k : Fin 2048) : idx_main_v12 (idx_main_v13 (ix3 b q k)) = ix2 b q := by
  funext a; match a with | ⟨0, _⟩ => rfl | ⟨1, _⟩ => rfl

theorem v13_eq (X : SX.Idx → EReal) (WQ WK : SW.Idx → EReal) (hX : IsReal X) (hQ : IsReal WQ) (hK : IsReal WK)
    (b : Fin 8) (q k : Fin 2048) :
    val_main_v13 (F := Ideal) X WQ WK (ix3 b q k) = ((rowMax (toR3 X) (toR2 WQ) (toR2 WK) b q : ℝ) : EReal) := by
  rw [val_main_v13_apply, val_main_v12_apply, idx_12_13, v11_eq X WQ WK hX hQ hK]

/-- The exponential of (masked score - row maximum) is the weight. -/
theorem v15_eq (X : SX.Idx → EReal) (WQ WK : SW.Idx → EReal) (hX : IsReal X) (hQ : IsReal WQ) (hK : IsReal WK)
    (b : Fin 8) (q k : Fin 2048) :
    val_main_v15 (F := Ideal) X WQ WK (ix3 b q k) = ((weight (toR3 X) (toR2 WQ) (toR2 WK) b q k : ℝ) : EReal) := by
  rw [val_main_v15_apply, val_main_v14_apply, v8_eq X WQ WK hX hQ hK, v13_eq X WQ WK hX hQ hK, Ideal.hostUnary_exp_def, Ideal.subf_def,
    exp_sub_eq_wt _ (mscore_ne_top _ _ _ b q k)]
  rfl

theorem idx16 (b : Fin 8) (q k : Fin 2048) : idx_main_v16 (ix2 b q) k = ix3 b q k := by
  funext a; match a with | ⟨0, _⟩ => rfl | ⟨1, _⟩ => rfl | ⟨2, _⟩ => rfl

/-- The float sum from 0 of a row of weights is the row sum. -/
theorem v16_eq (X : SX.Idx → EReal) (WQ WK : SW.Idx → EReal) (hX : IsReal X) (hQ : IsReal WQ) (hK : IsReal WK)
    (b : Fin 8) (q : Fin 2048) :
    val_main_v16 (F := Ideal) X WQ WK (ix2 b q) = ((denom (toR3 X) (toR2 WQ) (toR2 WK) b q : ℝ) : EReal) := by
  rw [val_main_v16_apply, val_main_cst_3_apply, Ideal.ofBits_def, Ideal.ofBits_zero_f32, zero_add]
  unfold denom
  rw [coe_sum]
  refine Finset.sum_congr rfl fun k _ => ?_
  rw [idx16, v15_eq X WQ WK hX hQ hK]

theorem idx_17_18 (b : Fin 8) (q k : Fin 2048) : idx_main_v17 (idx_main_v18 (ix3 b q k)) = ix2 b q := by
  funext a; match a with | ⟨0, _⟩ => rfl | ⟨1, _⟩ => rfl

theorem v18_eq (X : SX.Idx → EReal) (WQ WK : SW.Idx → EReal) (hX : IsReal X) (hQ : IsReal WQ) (hK : IsReal WK)
    (b : Fin 8) (q k : Fin 2048) :
    val_main_v18 (F := Ideal) X WQ WK (ix3 b q k) = ((denom (toR3 X) (toR2 WQ) (toR2 WK) b q : ℝ) : EReal) := by
  rw [val_main_v18_apply, val_main_v17_apply, idx_17_18, v16_eq X WQ WK hX hQ hK]

/-- The quotient by the row sum is the normalised weight. -/
theorem v19_eq (X : SX.Idx → EReal) (WQ WK : SW.Idx → EReal) (hX : IsReal X) (hQ : IsReal WQ) (hK : IsReal WK)
    (b : Fin 8) (q k : Fin 2048) :
    val_main_v19 (F := Ideal) X WQ WK (ix3 b q k)
      = ((weight (toR3 X) (toR2 WQ) (toR2 WK) b q k / denom (toR3 X) (toR2 WQ) (toR2 WK) b q : ℝ) : EReal) := by
  rw [val_main_v19_apply, v15_eq X WQ WK hX hQ hK, v18_eq X WQ WK hX hQ hK, Ideal.hostDivf_def,
    Ideal.div_coe (denom_ne_zero _ _ _ b q), ← EReal.coe_mul]
  congr 1; ring

theorem lidx20 (b : Fin 8) (q : Fin 2048) (h : Fin 64) (k : Fin 2048) : lidx_main_v20 (ix3 b q h) k = ix3 b q k := by
  funext a; match a with | ⟨0, _⟩ => rfl | ⟨1, _⟩ => rfl | ⟨2, _⟩ => rfl
theorem ridx20 (b : Fin 8) (q : Fin 2048) (h : Fin 64) (k : Fin 2048) : ridx_main_v20 (ix3 b q h) k = ix3 b k h := by
  funext a; match a with | ⟨0, _⟩ => rfl | ⟨1, _⟩ => rfl | ⟨2, _⟩ => rfl

/-- THE REFERENCE'S RESULT IS THE SPECIFICATION, on arguments whose entries are real numbers. -/
theorem result_eq (X : SX.Idx → EReal) (WQ WK WV : SW.Idx → EReal) (hX : Cert.Spec.IsReal X) (hQ : Cert.Spec.IsReal WQ)
    (hK : Cert.Spec.IsReal WK) (hV : Cert.Spec.IsReal WV) :
    Cert.ReferenceIdeal.Read.val_main_v20 (F := Ideal) X WQ WK WV = Cert.Spec.G X WQ WK WV := by
  funext i
  obtain ⟨b, q, h, rfl⟩ : ∃ (b : Fin 8) (q : Fin 2048) (h : Fin 64), i = ix3 b q h := ⟨i 0, i 1, i 2, eq_ix3 i⟩
  rw [val_main_v20_apply]
  show _ = ((out (toR3 X) (toR2 WQ) (toR2 WK) (toR2 WV) b q h : ℝ) : EReal)
  unfold out
  rw [coe_sum]
  refine Finset.sum_congr rfl fun k _ => ?_
  rw [lidx20, ridx20, v19_eq X WQ WK hX hQ hK, v2_eq_v0, v0_eq X WV hX hV, EReal.coe_mul]

end Cert.ReferenceIdeal.RefValue

end
-- ==== Proof.Region1Pieces.lean ====
/-
  What each case's stores amount to, as payload terms. One step of the online softmax takes the query, key and value
  blocks and the three scratch buffers to: the new running maximum (the old one against the tile's row maxima), the new
  denominator and the new numerator (both rescaled by e^{old maximum - new maximum} before the tile's terms are added);
  the last key tile's store is the numerator times the reciprocal of the denominator. The first key tile's step starts
  from the reset values. Every load and store is of a whole buffer, so a buffer read back after the stores is the last
  store's payload, and a load after a store reads that store's payload.
-/
import proofs.«178913_j5025111736349_2_alg».proof.Proof.Gen.KernelIdeal.Launch
import proofs.«178913_j5025111736349_2_alg».proof.Proof.Gen.KernelIdeal.Skeleton
import proofs.«178913_j5025111736349_2_alg».proof.Proof.Gen.KernelIdeal.Points
import proofs.«178913_j5025111736349_2_alg».proof.Proof.Region1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hzero2 : (![0, 0] : Fin 2 → Nat) = fun _ => 0 := funext fun a => by fin_cases a <;> rfl
theorem hzero3 : (![0, 0, 0] : Fin 3 → Nat) = fun _ => 0 := funext fun a => by fin_cases a <;> rfl

/-- One step's new running maximum. -/
def stepM (a1 a2 : BitVec 32) (x0 x1 : Vec F S1x512x64 .bf16) (sM : Vec F S512x1 .f32) : Vec F S512x1 .f32 :=
  k1_pay6 (k1_pay10 a1 a2 x0 x1 sM)
/-- One step's new denominator. -/
def stepL (a1 a2 : BitVec 32) (x0 x1 : Vec F S1x512x64 .bf16) (sM sL : Vec F S512x1 .f32) : Vec F S512x1 .f32 :=
  k1_pay4 (k1_pay13 a1 a2 x0 x1 sM sM sL)
/-- One step's new numerator. -/
def stepA (a1 a2 : BitVec 32) (x0 x1 x2 : Vec F S1x512x64 .bf16) (sM : Vec F S512x1 .f32) (sA : Vec F S512x64 .f32) : Vec F S512x64 .f32 :=
  k1_pay5 (k1_pay8 x2) (k1_pay11 a1 a2 x0 x1 sM sM) (k1_pay12 a1 a2 x0 x1 sM) sA

theorem soutM_A_eq (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i)
    (x0 x1 x2 : Vec F S1x512x64 .bf16) :
    soutM_A c i arg3 harg3 arg4 harg4 arg5 harg5 arg6 harg6 arg7 harg7 arg8 harg8 arg9 harg9 hc0 hc1 hc2 x0 x1 x2 = stepM (BitVec.ofNat 32 (i 1).val) (BitVec.ofNat 32 (i 2).val) x0 x1 k1_pay1 := by
  unfold soutM_A
  rw [View.read_writes_eq_canon _ _ _ (coverM_A c i arg3 harg3 arg4 harg4 arg5 harg5 arg6 harg6 arg7 harg7 arg8 harg8 arg9 harg9 hc0 hc1 hc2 x0 x1 x2)]
  unfold kernelRun1_A
  dsimp only
  try sl_unfold_words
  simp only [View.canon_unit_zero (S := S512x1) hzero2, View.canon_unit_zero (S := S512x64) hzero2, View.canon_unit_zero (S := S1x512x64) hzero3, View.canon_cons_unit_zero (S := S512x1) hzero2, View.canon_cons_unit_zero (S := S512x64) hzero2,
    View.readCov_unit_zero (S := S512x1) _ hzero2, View.readCov_unit_zero (S := S512x64) _ hzero2, View.readAt_eq_ld,
    harg3.read_unread, harg4.read_unread, harg5.read_unread, harg7.read_unread, harg8.read_unread, harg9.read_unread,
    View.ld_unit_zero (S := S1x512x64) hzero3, View.ld_unit_zero (S := S512x1) hzero2, View.ld_unit_zero (S := S512x64) hzero2]
  try rfl

theorem soutL_A_eq (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i)
    (x0 x1 x2 : Vec F S1x512x64 .bf16) :
    soutL_A c i arg3 harg3 arg4 harg4 arg5 harg5 arg6 harg6 arg7 harg7 arg8 harg8 arg9 harg9 hc0 hc1 hc2 x0 x1 x2 = stepL (BitVec.ofNat 32 (i 1).val) (BitVec.ofNat 32 (i 2).val) x0 x1 k1_pay1 k1_pay2 := by
  unfold soutL_A
  rw [View.read_writes_eq_canon _ _ _ (coverL_A c i arg3 harg3 arg4 harg4 arg5 harg5 arg6 harg6 arg7 harg7 arg8 harg8 arg9 harg9 hc0 hc1 hc2 x0 x1 x2)]
  unfold kernelRun1_A
  dsimp only
  try sl_unfold_words
  simp only [View.canon_unit_zero (S := S512x1) hzero2, View.canon_unit_zero (S := S512x64) hzero2, View.canon_unit_zero (S := S1x512x64) hzero3, View.canon_cons_unit_zero (S := S512x1) hzero2, View.canon_cons_unit_zero (S := S512x64) hzero2,
    View.readCov_unit_zero (S := S512x1) _ hzero2, View.readCov_unit_zero (S := S512x64) _ hzero2, View.readAt_eq_ld,
    harg3.read_unread, harg4.read_unread, harg5.read_unread, harg7.read_unread, harg8.read_unread, harg9.read_unread,
    View.ld_unit_zero (S := S1x512x64) hzero3, View.ld_unit_zero (S := S512x1) hzero2, View.ld_unit_zero (S := S512x64) hzero2]
  try rfl

theorem soutA_A_eq (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i)
    (x0 x1 x2 : Vec F S1x512x64 .bf16) :
    soutA_A c i arg3 harg3 arg4 harg4 arg5 harg5 arg6 harg6 arg7 harg7 arg8 harg8 arg9 harg9 hc0 hc1 hc2 x0 x1 x2 = stepA (BitVec.ofNat 32 (i 1).val) (BitVec.ofNat 32 (i 2).val) x0 x1 x2 k1_pay1 k1_pay3 := by
  unfold soutA_A
  rw [View.read_writes_eq_canon _ _ _ (coverA_A c i arg3 harg3 arg4 harg4 arg5 harg5 arg6 harg6 arg7 harg7 arg8 harg8 arg9 harg9 hc0 hc1 hc2 x0 x1 x2)]
  unfold kernelRun1_A
  dsimp only
  try sl_unfold_words
  simp only [View.canon_unit_zero (S := S512x1) hzero2, View.canon_unit_zero (S := S512x64) hzero2, View.canon_unit_zero (S := S1x512x64) hzero3, View.canon_cons_unit_zero (S := S512x1) hzero2, View.canon_cons_unit_zero (S := S512x64) hzero2,
    View.readCov_unit_zero (S := S512x1) _ hzero2, View.readCov_unit_zero (S := S512x64) _ hzero2, View.readAt_eq_ld,
    harg3.read_unread, harg4.read_unread, harg5.read_unread, harg7.read_unread, harg8.read_unread, harg9.read_unread,
    View.ld_unit_zero (S := S1x512x64) hzero3, View.ld_unit_zero (S := S512x1) hzero2, View.ld_unit_zero (S := S512x64) hzero2]
  try rfl

theorem soutM_B_eq (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i)
    (x0 x1 x2 : Vec F S1x512x64 .bf16) (xsM : Vec F S512x1 .f32) (xsL : Vec F S512x1 .f32) (xsA : Vec F S512x64 .f32) :
    soutM_B c i arg3 harg3 arg4 harg4 arg5 harg5 arg6 harg6 arg7 harg7 arg8 harg8 arg9 harg9 hc0 hc1 hc2 x0 x1 x2 xsM xsL xsA = stepM (BitVec.ofNat 32 (i 1).val) (BitVec.ofNat 32 (i 2).val) x0 x1 xsM := by
  unfold soutM_B
  rw [View.read_writes_eq_canon _ _ _ (coverM_B c i arg3 harg3 arg4 harg4 arg5 harg5 arg6 harg6 arg7 harg7 arg8 harg8 arg9 harg9 hc0 hc1 hc2 x0 x1 x2 xsM xsL xsA)]
  unfold kernelRun1_B
  dsimp only
  try sl_unfold_words
  simp only [View.canon_unit_zero (S := S512x1) hzero2, View.canon_unit_zero (S := S512x64) hzero2, View.canon_unit_zero (S := S1x512x64) hzero3, View.canon_cons_unit_zero (S := S512x1) hzero2, View.canon_cons_unit_zero (S := S512x64) hzero2,
    View.readCov_unit_zero (S := S512x1) _ hzero2, View.readCov_unit_zero (S := S512x64) _ hzero2, View.readAt_eq_ld,
    harg3.read_unread, harg4.read_unread, harg5.read_unread, harg7.read_unread, harg8.read_unread, harg9.read_unread,
    View.ld_unit_zero (S := S1x512x64) hzero3, View.ld_unit_zero (S := S512x1) hzero2, View.ld_unit_zero (S := S512x64) hzero2]
  try rfl

theorem soutL_B_eq (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i)
    (x0 x1 x2 : Vec F S1x512x64 .bf16) (xsM : Vec F S512x1 .f32) (xsL : Vec F S512x1 .f32) (xsA : Vec F S512x64 .f32) :
    soutL_B c i arg3 harg3 arg4 harg4 arg5 harg5 arg6 harg6 arg7 harg7 arg8 harg8 arg9 harg9 hc0 hc1 hc2 x0 x1 x2 xsM xsL xsA = stepL (BitVec.ofNat 32 (i 1).val) (BitVec.ofNat 32 (i 2).val) x0 x1 xsM xsL := by
  unfold soutL_B
  rw [View.read_writes_eq_canon _ _ _ (coverL_B c i arg3 harg3 arg4 harg4 arg5 harg5 arg6 harg6 arg7 harg7 arg8 harg8 arg9 harg9 hc0 hc1 hc2 x0 x1 x2 xsM xsL xsA)]
  unfold kernelRun1_B
  dsimp only
  try sl_unfold_words
  simp only [View.canon_unit_zero (S := S512x1) hzero2, View.canon_unit_zero (S := S512x64) hzero2, View.canon_unit_zero (S := S1x512x64) hzero3, View.canon_cons_unit_zero (S := S512x1) hzero2, View.canon_cons_unit_zero (S := S512x64) hzero2,
    View.readCov_unit_zero (S := S512x1) _ hzero2, View.readCov_unit_zero (S := S512x64) _ hzero2, View.readAt_eq_ld,
    harg3.read_unread, harg4.read_unread, harg5.read_unread, harg7.read_unread, harg8.read_unread, harg9.read_unread,
    View.ld_unit_zero (S := S1x512x64) hzero3, View.ld_unit_zero (S := S512x1) hzero2, View.ld_unit_zero (S := S512x64) hzero2]
  try rfl

theorem soutA_B_eq (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i)
    (x0 x1 x2 : Vec F S1x512x64 .bf16) (xsM : Vec F S512x1 .f32) (xsL : Vec F S512x1 .f32) (xsA : Vec F S512x64 .f32) :
    soutA_B c i arg3 harg3 arg4 harg4 arg5 harg5 arg6 harg6 arg7 harg7 arg8 harg8 arg9 harg9 hc0 hc1 hc2 x0 x1 x2 xsM xsL xsA = stepA (BitVec.ofNat 32 (i 1).val) (BitVec.ofNat 32 (i 2).val) x0 x1 x2 xsM xsA := by
  unfold soutA_B
  rw [View.read_writes_eq_canon _ _ _ (coverA_B c i arg3 harg3 arg4 harg4 arg5 harg5 arg6 harg6 arg7 harg7 arg8 harg8 arg9 harg9 hc0 hc1 hc2 x0 x1 x2 xsM xsL xsA)]
  unfold kernelRun1_B
  dsimp only
  try sl_unfold_words
  simp only [View.canon_unit_zero (S := S512x1) hzero2, View.canon_unit_zero (S := S512x64) hzero2, View.canon_unit_zero (S := S1x512x64) hzero3, View.canon_cons_unit_zero (S := S512x1) hzero2, View.canon_cons_unit_zero (S := S512x64) hzero2,
    View.readCov_unit_zero (S := S512x1) _ hzero2, View.readCov_unit_zero (S := S512x64) _ hzero2, View.readAt_eq_ld,
    harg3.read_unread, harg4.read_unread, harg5.read_unread, harg7.read_unread, harg8.read_unread, harg9.read_unread,
    View.ld_unit_zero (S := S1x512x64) hzero3, View.ld_unit_zero (S := S512x1) hzero2, View.ld_unit_zero (S := S512x64) hzero2]
  try rfl

theorem soutM_D_eq (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xsM : Vec F S512x1 .f32) (xsL : Vec F S512x1 .f32) (xsA : Vec F S512x64 .f32) :
    soutM_D c i arg3 harg3 arg4 harg4 arg5 harg5 arg6 harg6 arg7 harg7 arg8 harg8 arg9 harg9 hc0 hc1 hc2 x0 x1 x2 xsM xsL xsA = stepM (BitVec.ofNat 32 (i 1).val) (BitVec.ofNat 32 (i 2).val) x0 x1 xsM := by
  unfold soutM_D
  rw [View.read_writes_eq_canon _ _ _ (coverM_D c i arg3 harg3 arg4 harg4 arg5 harg5 arg6 harg6 arg7 harg7 arg8 harg8 arg9 harg9 hc0 hc1 hc2 x0 x1 x2 xsM xsL xsA)]
  unfold kernelRun1_D
  dsimp only
  try sl_unfold_words
  simp only [View.canon_unit_zero (S := S512x1) hzero2, View.canon_unit_zero (S := S512x64) hzero2, View.canon_unit_zero (S := S1x512x64) hzero3, View.canon_cons_unit_zero (S := S512x1) hzero2, View.canon_cons_unit_zero (S := S512x64) hzero2,
    View.readCov_unit_zero (S := S512x1) _ hzero2, View.readCov_unit_zero (S := S512x64) _ hzero2, View.readAt_eq_ld,
    harg3.read_unread, harg4.read_unread, harg5.read_unread, harg7.read_unread, harg8.read_unread, harg9.read_unread,
    View.ld_unit_zero (S := S1x512x64) hzero3, View.ld_unit_zero (S := S512x1) hzero2, View.ld_unit_zero (S := S512x64) hzero2]
  try rfl

theorem soutL_D_eq (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xsM : Vec F S512x1 .f32) (xsL : Vec F S512x1 .f32) (xsA : Vec F S512x64 .f32) :
    soutL_D c i arg3 harg3 arg4 harg4 arg5 harg5 arg6 harg6 arg7 harg7 arg8 harg8 arg9 harg9 hc0 hc1 hc2 x0 x1 x2 xsM xsL xsA = stepL (BitVec.ofNat 32 (i 1).val) (BitVec.ofNat 32 (i 2).val) x0 x1 xsM xsL := by
  unfold soutL_D
  rw [View.read_writes_eq_canon _ _ _ (coverL_D c i arg3 harg3 arg4 harg4 arg5 harg5 arg6 harg6 arg7 harg7 arg8 harg8 arg9 harg9 hc0 hc1 hc2 x0 x1 x2 xsM xsL xsA)]
  unfold kernelRun1_D
  dsimp only
  try sl_unfold_words
  simp only [View.canon_unit_zero (S := S512x1) hzero2, View.canon_unit_zero (S := S512x64) hzero2, View.canon_unit_zero (S := S1x512x64) hzero3, View.canon_cons_unit_zero (S := S512x1) hzero2, View.canon_cons_unit_zero (S := S512x64) hzero2,
    View.readCov_unit_zero (S := S512x1) _ hzero2, View.readCov_unit_zero (S := S512x64) _ hzero2, View.readAt_eq_ld,
    harg3.read_unread, harg4.read_unread, harg5.read_unread, harg7.read_unread, harg8.read_unread, harg9.read_unread,
    View.ld_unit_zero (S := S1x512x64) hzero3, View.ld_unit_zero (S := S512x1) hzero2, View.ld_unit_zero (S := S512x64) hzero2]
  try rfl

theorem soutA_D_eq (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xsM : Vec F S512x1 .f32) (xsL : Vec F S512x1 .f32) (xsA : Vec F S512x64 .f32) :
    soutA_D c i arg3 harg3 arg4 harg4 arg5 harg5 arg6 harg6 arg7 harg7 arg8 harg8 arg9 harg9 hc0 hc1 hc2 x0 x1 x2 xsM xsL xsA = stepA (BitVec.ofNat 32 (i 1).val) (BitVec.ofNat 32 (i 2).val) x0 x1 x2 xsM xsA := by
  unfold soutA_D
  rw [View.read_writes_eq_canon _ _ _ (coverA_D c i arg3 harg3 arg4 harg4 arg5 harg5 arg6 harg6 arg7 harg7 arg8 harg8 arg9 harg9 hc0 hc1 hc2 x0 x1 x2 xsM xsL xsA)]
  unfold kernelRun1_D
  dsimp only
  try sl_unfold_words
  simp only [View.canon_unit_zero (S := S512x1) hzero2, View.canon_unit_zero (S := S512x64) hzero2, View.canon_unit_zero (S := S1x512x64) hzero3, View.canon_cons_unit_zero (S := S512x1) hzero2, View.canon_cons_unit_zero (S := S512x64) hzero2,
    View.readCov_unit_zero (S := S512x1) _ hzero2, View.readCov_unit_zero (S := S512x64) _ hzero2, View.readAt_eq_ld,
    harg3.read_unread, harg4.read_unread, harg5.read_unread, harg7.read_unread, harg8.read_unread, harg9.read_unread,
    View.ld_unit_zero (S := S1x512x64) hzero3, View.ld_unit_zero (S := S512x1) hzero2, View.ld_unit_zero (S := S512x64) hzero2]
  try rfl

theorem soutO_D_eq (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xsM : Vec F S512x1 .f32) (xsL : Vec F S512x1 .f32) (xsA : Vec F S512x64 .f32) :
    soutO_D c i arg3 harg3 arg4 harg4 arg5 harg5 arg6 harg6 arg7 harg7 arg8 harg8 arg9 harg9 hc0 hc1 hc2 x0 x1 x2 xsM xsL xsA = k1_pay7 (stepA (BitVec.ofNat 32 (i 1).val) (BitVec.ofNat 32 (i 2).val) x0 x1 x2 xsM xsA) (stepL (BitVec.ofNat 32 (i 1).val) (BitVec.ofNat 32 (i 2).val) x0 x1 xsM xsL) := by
  unfold soutO_D
  rw [View.read_writes_eq_canon _ _ _ (coverO_D c i arg3 harg3 arg4 harg4 arg5 harg5 arg6 harg6 arg7 harg7 arg8 harg8 arg9 harg9 hc0 hc1 hc2 x0 x1 x2 xsM xsL xsA)]
  unfold kernelRun1_D
  dsimp only
  try sl_unfold_words
  simp only [View.canon_unit_zero (S := S512x1) hzero2, View.canon_unit_zero (S := S512x64) hzero2, View.canon_unit_zero (S := S1x512x64) hzero3, View.canon_cons_unit_zero (S := S512x1) hzero2, View.canon_cons_unit_zero (S := S512x64) hzero2,
    View.readCov_unit_zero (S := S512x1) _ hzero2, View.readCov_unit_zero (S := S512x64) _ hzero2, View.readAt_eq_ld,
    harg3.read_unread, harg4.read_unread, harg5.read_unread, harg7.read_unread, harg8.read_unread, harg9.read_unread,
    View.ld_unit_zero (S := S1x512x64) hzero3, View.ld_unit_zero (S := S512x1) hzero2, View.ld_unit_zero (S := S512x64) hzero2]
  try rfl

theorem soutO_E_eq (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : cond1_2 i)
    (x0 x1 x2 : Vec F S1x512x64 .bf16) (xsM : Vec F S512x1 .f32) (xsL : Vec F S512x1 .f32) (xsA : Vec F S512x64 .f32) :
    soutO_E c i arg3 harg3 arg4 harg4 arg5 harg5 arg6 harg6 arg7 harg7 arg8 harg8 arg9 harg9 hc0 hc1 hc2 x0 x1 x2 xsM xsL xsA = k1_pay7 xsA xsL := by
  unfold soutO_E
  rw [View.read_writes_eq_canon _ _ _ (coverO_E c i arg3 harg3 arg4 harg4 arg5 harg5 arg6 harg6 arg7 harg7 arg8 harg8 arg9 harg9 hc0 hc1 hc2 x0 x1 x2 xsM xsL xsA)]
  unfold kernelRun1_E
  dsimp only
  try sl_unfold_words
  simp only [View.canon_unit_zero (S := S512x1) hzero2, View.canon_unit_zero (S := S512x64) hzero2, View.canon_unit_zero (S := S1x512x64) hzero3, View.canon_cons_unit_zero (S := S512x1) hzero2, View.canon_cons_unit_zero (S := S512x64) hzero2,
    View.readCov_unit_zero (S := S512x1) _ hzero2, View.readCov_unit_zero (S := S512x64) _ hzero2, View.readAt_eq_ld,
    harg3.read_unread, harg4.read_unread, harg5.read_unread, harg7.read_unread, harg8.read_unread, harg9.read_unread,
    View.ld_unit_zero (S := S1x512x64) hzero3, View.ld_unit_zero (S := S512x1) hzero2, View.ld_unit_zero (S := S512x64) hzero2]
  try rfl

end Cert.KernelIdeal.Hand

end
-- ==== Proof.Region1State.lean ====
/-
  The scratch state point by point, through the one-step functions: at the first key tile of a (batch, query tile) the
  step starts from the reset values; at a later key tile not wholly after the query tile it starts from what the point
  before left; at a key tile wholly after the query tile the state is the point before's; and at the last key tile the
  output buffer is the numerator times the reciprocal of the denominator of that point's state.
-/
import proofs.«178913_j5025111736349_2_alg».proof.Proof.Gen.KernelIdeal.Launch
import proofs.«178913_j5025111736349_2_alg».proof.Proof.Gen.KernelIdeal.Skeleton
import proofs.«178913_j5025111736349_2_alg».proof.Proof.Gen.KernelIdeal.Points
import proofs.«178913_j5025111736349_2_alg».proof.Proof.Region1Pieces
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section State
variable (V : (c : Dev nD) → (b : Ref sig .tc) → Buf (Elt F) ((c : Thread nD τ).loc b))

/-- The first key tile: one step from the reset values. -/
theorem state_first (c : Dev nD) (t : Fin cfg1.N) (h0 : t.val % 4 = 0) :
    (outsAt1 V c t.val t.isLt).2 =
      (stepM (BitVec.ofNat 32 ((grid1.coords t) 1).val) (BitVec.ofNat 32 ((grid1.coords t) 2).val) (iblk1 V c 0 t) (iblk1 V c 1 t) k1_pay1,
       stepL (BitVec.ofNat 32 ((grid1.coords t) 1).val) (BitVec.ofNat 32 ((grid1.coords t) 2).val) (iblk1 V c 0 t) (iblk1 V c 1 t) k1_pay1 k1_pay2,
       stepA (BitVec.ofNat 32 ((grid1.coords t) 1).val) (BitVec.ofNat 32 ((grid1.coords t) 2).val) (iblk1 V c 0 t) (iblk1 V c 1 t) (iblk1 V c 2 t) k1_pay1 k1_pay3) := by
  have hN : t.val < 128 := lt_of_lt_of_eq t.isLt (show cfg1.N = 128 from N_1)
  rw [outsAt1_A V c t h0 (by omega) (by omega)]
  unfold caseA
  rw [soutM_A_eq, soutL_A_eq, soutA_A_eq]

/-- A later key tile not wholly after the query tile: one step from the point before's state. -/
theorem state_step (c : Dev nD) (t : Fin cfg1.N) (h0 : ¬t.val % 4 = 0) (h1 : t.val % 4 ≤ t.val / 4 % 4) :
    (outsAt1 V c t.val t.isLt).2 =
      (stepM (BitVec.ofNat 32 ((grid1.coords t) 1).val) (BitVec.ofNat 32 ((grid1.coords t) 2).val) (iblk1 V c 0 t) (iblk1 V c 1 t) (outsAt1 V c (t.val - 1) (Nat.lt_of_le_of_lt (Nat.sub_le _ _) t.isLt)).2.1,
       stepL (BitVec.ofNat 32 ((grid1.coords t) 1).val) (BitVec.ofNat 32 ((grid1.coords t) 2).val) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1,
       stepA (BitVec.ofNat 32 ((grid1.coords t) 1).val) (BitVec.ofNat 32 ((grid1.coords t) 2).val) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.2) := by
  by_cases h2 : t.val % 4 = 3
  · rw [outsAt1_D V c t h0 h1 h2]
    unfold caseD
    rw [soutM_D_eq, soutL_D_eq, soutA_D_eq]
  · rw [outsAt1_B V c t h0 h1 h2]
    unfold caseB
    rw [soutM_B_eq, soutL_B_eq, soutA_B_eq]

/-- A key tile wholly after the query tile: the state is the point before's. -/
theorem state_skip (c : Dev nD) (t : Fin cfg1.N) (h0 : ¬t.val % 4 = 0) (h1 : ¬t.val % 4 ≤ t.val / 4 % 4) :
    (outsAt1 V c t.val t.isLt).2 = (outsAt1 V c (t.val - 1) (Nat.lt_of_le_of_lt (Nat.sub_le _ _) t.isLt)).2 := by
  by_cases h2 : t.val % 4 = 3
  · rw [outsAt1_E V c t h0 h1 h2]; rfl
  · rw [outsAt1_C V c t h0 h1 h2]; rfl

/-- The last key tile: the output buffer is the numerator times the reciprocal of the denominator. -/
theorem out_last (c : Dev nD) (t : Fin cfg1.N) (h2 : t.val % 4 = 3) :
    (outsAt1 V c t.val t.isLt).1 = k1_pay7 (outsAt1 V c t.val t.isLt).2.2.2 (outsAt1 V c t.val t.isLt).2.2.1 := by
  have h0 : ¬t.val % 4 = 0 := by omega
  by_cases h1 : t.val % 4 ≤ t.val / 4 % 4
  · rw [outsAt1_D V c t h0 h1 h2]
    unfold caseD
    rw [soutO_D_eq, soutL_D_eq, soutA_D_eq]
  · rw [outsAt1_E V c t h0 h1 h2]
    unfold caseE
    rw [soutO_E_eq]

end State

end Cert.KernelIdeal.Hand

end
-- ==== Proof.Attn1Seq.lean ====
/-
  One (batch, query tile) at a time. Its four grid points are consecutive; the state after key tile ki is a step from the
  state after ki - 1 while ki ≤ qi and is kept afterwards, so the state after the last key tile is the state after key
  tile qi, and the block written back at the last key tile is that state's numerator over its denominator.
-/
import proofs.«178913_j5025111736349_2_alg».proof.Proof.Gen.KernelIdeal.Launch
import proofs.«178913_j5025111736349_2_alg».proof.Proof.Gen.KernelIdeal.Skeleton
import proofs.«178913_j5025111736349_2_alg».proof.Proof.Gen.KernelIdeal.Points
import proofs.«178913_j5025111736349_2_alg».proof.Proof.Region1State
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The grid point of batch `b`, query tile `qi`, key tile `ki`. -/
def pt (b : Fin 8) (qi ki : Fin 4) : Fin cfg1.N :=
  ⟨16 * b.val + 4 * qi.val + ki.val, by have := b.isLt; have := qi.isLt; have := ki.isLt; rw [show cfg1.N = 128 from N_1]; omega⟩

theorem pt_val (b : Fin 8) (qi ki : Fin 4) : (pt b qi ki).val = 16 * b.val + 4 * qi.val + ki.val := rfl
theorem pt_mod (b : Fin 8) (qi ki : Fin 4) : (pt b qi ki).val % 4 = ki.val := by
  have := ki.isLt; rw [pt_val]; omega
theorem pt_div (b : Fin 8) (qi ki : Fin 4) : (pt b qi ki).val / 4 % 4 = qi.val := by
  have := ki.isLt; have := qi.isLt; rw [pt_val]; omega
theorem pt_div16 (b : Fin 8) (qi ki : Fin 4) : (pt b qi ki).val / 16 = b.val := by
  have := ki.isLt; have := qi.isLt; rw [pt_val]; omega

/-- The grid coordinates of that point are (b, qi, ki). -/
theorem coords_pt : ∀ (b : Fin 8) (qi ki : Fin 4),
    ((grid1.coords (pt b qi ki)) 1).val = qi.val ∧ ((grid1.coords (pt b qi ki)) 2).val = ki.val := by
  decide +kernel

section Seq
variable (V : (c : Dev nD) → (b : Ref sig .tc) → Buf (Elt F) ((c : Thread nD τ).loc b))

theorem outsAt1_congr (c : Dev nD) {n n' : ℕ} (h : n = n') (hn : n < cfg1.N) (hn' : n' < cfg1.N) :
    outsAt1 V c n hn = outsAt1 V c n' hn' := by subst h; rfl

/-- The scratch state (running maximum, denominator, numerator) after key tile `ki` of (b, qi). -/
def stAt (c : Dev nD) (b : Fin 8) (qi ki : Fin 4) : Vec F S512x1 .f32 × Vec F S512x1 .f32 × Vec F S512x64 .f32 :=
  (outsAt1 V c (pt b qi ki).val (pt b qi ki).isLt).2

/-- After the first key tile: one step from the reset values. -/
theorem stAt_zero (c : Dev nD) (b : Fin 8) (qi : Fin 4) :
    stAt V c b qi 0 =
      (stepM (BitVec.ofNat 32 qi.val) (BitVec.ofNat 32 (0 : Fin 4).val) (iblk1 V c 0 (pt b qi 0)) (iblk1 V c 1 (pt b qi 0)) k1_pay1,
       stepL (BitVec.ofNat 32 qi.val) (BitVec.ofNat 32 (0 : Fin 4).val) (iblk1 V c 0 (pt b qi 0)) (iblk1 V c 1 (pt b qi 0)) k1_pay1 k1_pay2,
       stepA (BitVec.ofNat 32 qi.val) (BitVec.ofNat 32 (0 : Fin 4).val) (iblk1 V c 0 (pt b qi 0)) (iblk1 V c 1 (pt b qi 0)) (iblk1 V c 2 (pt b qi 0)) k1_pay1 k1_pay3) := by
  unfold stAt
  rw [state_first V c (pt b qi 0) (pt_mod b qi 0), (coords_pt b qi 0).1, (coords_pt b qi 0).2]

/-- After a later key tile not wholly after the query tile: one step from the state after the tile before. -/
theorem stAt_succ (c : Dev nD) (b : Fin 8) (qi ki ki' : Fin 4) (hk : ki'.val = ki.val + 1) (hle : ki'.val ≤ qi.val) :
    stAt V c b qi ki' =
      (stepM (BitVec.ofNat 32 qi.val) (BitVec.ofNat 32 ki'.val) (iblk1 V c 0 (pt b qi ki')) (iblk1 V c 1 (pt b qi ki')) (stAt V c b qi ki).1,
       stepL (BitVec.ofNat 32 qi.val) (BitVec.ofNat 32 ki'.val) (iblk1 V c 0 (pt b qi ki')) (iblk1 V c 1 (pt b qi ki')) (stAt V c b qi ki).1 (stAt V c b qi ki).2.1,
       stepA (BitVec.ofNat 32 qi.val) (BitVec.ofNat 32 ki'.val) (iblk1 V c 0 (pt b qi ki')) (iblk1 V c 1 (pt b qi ki')) (iblk1 V c 2 (pt b qi ki')) (stAt V c b qi ki).1 (stAt V c b qi ki).2.2) := by
  have hprev : (pt b qi ki').val - 1 = (pt b qi ki).val := by rw [pt_val, pt_val]; omega
  unfold stAt
  rw [state_step V c (pt b qi ki') (by rw [pt_mod]; omega) (by rw [pt_mod, pt_div]; exact hle),
    (coords_pt b qi ki').1, (coords_pt b qi ki').2,
    outsAt1_congr V c hprev _ (pt b qi ki).isLt]

/-- After a key tile wholly after the query tile: the state after the tile before. -/
theorem stAt_skip (c : Dev nD) (b : Fin 8) (qi ki ki' : Fin 4) (hk : ki'.val = ki.val + 1) (hgt : qi.val < ki'.val) :
    stAt V c b qi ki' = stAt V c b qi ki := by
  have hprev : (pt b qi ki').val - 1 = (pt b qi ki).val := by rw [pt_val, pt_val]; omega
  unfold stAt
  rw [state_skip V c (pt b qi ki') (by rw [pt_mod]; omega) (by rw [pt_mod, pt_div]; omega),
    outsAt1_congr V c hprev _ (pt b qi ki).isLt]

/-- After the last key tile the state is the one after key tile `qi`. -/
theorem stAt_last (c : Dev nD) (b : Fin 8) (qi : Fin 4) : stAt V c b qi 3 = stAt V c b qi qi := by
  match qi with
  | ⟨0, _⟩ =>
    exact (stAt_skip V c b 0 2 3 rfl (by decide)).trans ((stAt_skip V c b 0 1 2 rfl (by decide)).trans (stAt_skip V c b 0 0 1 rfl (by decide)))
  | ⟨1, _⟩ =>
    exact (stAt_skip V c b 1 2 3 rfl (by decide)).trans (stAt_skip V c b 1 1 2 rfl (by decide))
  | ⟨2, _⟩ =>
    exact stAt_skip V c b 2 2 3 rfl (by decide)
  | ⟨3, _⟩ => rfl

/-- The block written back at the last key tile: the numerator times the reciprocal of the denominator. -/
theorem out_at_last (c : Dev nD) (b : Fin 8) (qi : Fin 4) :
    (outsAt1 V c (pt b qi 3).val (pt b qi 3).isLt).1 = k1_pay7 (stAt V c b qi qi).2.2 (stAt V c b qi qi).2.1 := by
  rw [out_last V c (pt b qi 3) (pt_mod b qi 3), ← stAt_last V c b qi]
  rfl

end Seq

end Cert.KernelIdeal.Hand

end
-- ==== Proof.Attn1Layout.lean ====
/-
  The attention call's layout. The grid is 8 × 4 × 4: point t works on batch t / 16, query tile t / 4 % 4 and key tile
  t % 4, the key tile moving fastest; tiles are 512 positions of one batch. The query window and the output window sit at
  (batch, query tile); the key and value windows sit at (batch, min (key tile) (query tile)): past the diagonal the key tile
  does not advance. The output window is written back at the last key tile only, and those 32 blocks tile the output array.
-/
import proofs.«178913_j5025111736349_2_alg».proof.Proof.Region1
import proofs.«178913_j5025111736349_2_alg».proof.Proof.Region1Cond
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable {F : FTy → Type} [FloatOps F] [Named F]

/-- A point's coordinates: batch t / 16, query tile t / 4 % 4, key tile t % 4. -/
theorem coords1 : ∀ t : Fin cfg1.N,
    ((grid1.coords t) 0).val = t.val / 16 ∧ ((grid1.coords t) 1).val = t.val / 4 % 4 ∧ ((grid1.coords t) 2).val = t.val % 4 :=
  (by decide +kernel : ∀ t : Fin grid1.N, _)

/-- The index maps over the grid: the query and output windows at (batch, query tile, 0); the key and value windows at
    (batch, min (key tile) (query tile), 0). -/
theorem idx_facts1 : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = min (t.val % 4) (t.val / 4 % 4) ∧ win1_1.index t (2 : Fin 3) = 0
    ∧ win1_2.index t (0 : Fin 3) = t.val / 16 ∧ win1_2.index t (1 : Fin 3) = min (t.val % 4) (t.val / 4 % 4) ∧ win1_2.index t (2 : Fin 3) = 0
    ∧ win1_3.index t (0 : Fin 3) = t.val / 16 ∧ win1_3.index t (1 : Fin 3) = t.val / 4 % 4 ∧ win1_3.index t (2 : Fin 3) = 0 :=
  (by decide +kernel : ∀ t : Fin grid1.N, _)

theorem pt_lt1 (t : Fin cfg1.N) : t.val < 128 := by
  have h := t.isLt
  have e : cfg1.N = 128 := N_1
  omega

section Arr
variable (V : (c : Dev nD) → (b : Ref sig .tc) → Buf (Elt F) ((c : Thread nD τ).loc b))

/-- The query tile at point t, at (0, r, h), is q at (t / 16, (t / 4 % 4) · 512 + r, h). -/
theorem iblk1_q_apply (c : Dev nD) (t : Fin cfg1.N) (r : Fin 512) (h : Fin 64) (b : Fin 8) (s : Fin 2048)
    (hb : b.val = t.val / 16) (hs : s.val = (t.val / 4 % 4) * 512 + r.val) :
    iblk1 V c 0 t (ix3 (0 : Fin 1) r h) = V c main_v1_0 (ix3 b s h) := by
  obtain ⟨f0, f1, f2, -⟩ := idx_facts1 t
  show V c main_v1_0 (((cfg1.win 0).blk t).view.emb (ix3 (0 : Fin 1) r h)) = V c main_v1_0 (ix3 b s h)
  refine congrArg _ (funext fun a => Fin.ext ?_)
  match a with
  | ⟨0, _⟩ => show win1_0.index t (0 : Fin 3) * 1 + 1 * (0 : Fin 1).val = b.val; rw [f0, hb]; simp
  | ⟨1, _⟩ => show win1_0.index t (1 : Fin 3) * 512 + 1 * r.val = s.val; rw [f1, hs]; omega
  | ⟨2, _⟩ => show win1_0.index t (2 : Fin 3) * 64 + 1 * h.val = h.val; rw [f2]; omega

theorem iblk1_q (c : Dev nD) (t : Fin cfg1.N) (r : Fin 512) (h : Fin 64) :
    iblk1 V c 0 t (ix3 (0 : Fin 1) r h)
      = V c main_v1_0 (ix3 (⟨t.val / 16, by have := pt_lt1 t; omega⟩ : Fin 8)
          (⟨(t.val / 4 % 4) * 512 + r.val, by have := r.isLt; have := pt_lt1 t; omega⟩ : Fin 2048) h) :=
  iblk1_q_apply V c t r h _ _ rfl rfl

/-- The key tile at point t, at (0, j, h), is k at (t / 16, min (t % 4) (t / 4 % 4) · 512 + j, h). -/
theorem iblk1_k_apply (c : Dev nD) (t : Fin cfg1.N) (r : Fin 512) (h : Fin 64) (b : Fin 8) (s : Fin 2048)
    (hb : b.val = t.val / 16) (hs : s.val = (min (t.val % 4) (t.val / 4 % 4)) * 512 + r.val) :
    iblk1 V c 1 t (ix3 (0 : Fin 1) r h) = V c main_v1_1 (ix3 b s h) := by
  obtain ⟨-, -, -, f0, f1, f2, -⟩ := idx_facts1 t
  show V c main_v1_1 (((cfg1.win 1).blk t).view.emb (ix3 (0 : Fin 1) r h)) = V c main_v1_1 (ix3 b s h)
  refine congrArg _ (funext fun a => Fin.ext ?_)
  match a with
  | ⟨0, _⟩ => show win1_1.index t (0 : Fin 3) * 1 + 1 * (0 : Fin 1).val = b.val; rw [f0, hb]; simp
  | ⟨1, _⟩ => show win1_1.index t (1 : Fin 3) * 512 + 1 * r.val = s.val; rw [f1, hs]; omega
  | ⟨2, _⟩ => show win1_1.index t (2 : Fin 3) * 64 + 1 * h.val = h.val; rw [f2]; omega

theorem iblk1_k (c : Dev nD) (t : Fin cfg1.N) (r : Fin 512) (h : Fin 64) :
    iblk1 V c 1 t (ix3 (0 : Fin 1) r h)
      = V c main_v1_1 (ix3 (⟨t.val / 16, by have := pt_lt1 t; omega⟩ : Fin 8)
          (⟨(min (t.val % 4) (t.val / 4 % 4)) * 512 + r.val, by have := r.isLt; have := pt_lt1 t; omega⟩ : Fin 2048) h) :=
  iblk1_k_apply V c t r h _ _ rfl rfl

/-- The value tile at point t, at (0, j, h), is v at (t / 16, min (t % 4) (t / 4 % 4) · 512 + j, h). -/
theorem iblk1_v_apply (c : Dev nD) (t : Fin cfg1.N) (r : Fin 512) (h : Fin 64) (b : Fin 8) (s : Fin 2048)
    (hb : b.val = t.val / 16) (hs : s.val = (min (t.val % 4) (t.val / 4 % 4)) * 512 + r.val) :
    iblk1 V c 2 t (ix3 (0 : Fin 1) r h) = V c main_v1_2 (ix3 b s h) := by
  obtain ⟨-, -, -, -, -, -, f0, f1, f2, -⟩ := idx_facts1 t
  show V c main_v1_2 (((cfg1.win 2).blk t).view.emb (ix3 (0 : Fin 1) r h)) = V c main_v1_2 (ix3 b s h)
  refine congrArg _ (funext fun a => Fin.ext ?_)
  match a with
  | ⟨0, _⟩ => show win1_2.index t (0 : Fin 3) * 1 + 1 * (0 : Fin 1).val = b.val; rw [f0, hb]; simp
  | ⟨1, _⟩ => show win1_2.index t (1 : Fin 3) * 512 + 1 * r.val = s.val; rw [f1, hs]; omega
  | ⟨2, _⟩ => show win1_2.index t (2 : Fin 3) * 64 + 1 * h.val = h.val; rw [f2]; omega

theorem iblk1_v (c : Dev nD) (t : Fin cfg1.N) (r : Fin 512) (h : Fin 64) :
    iblk1 V c 2 t (ix3 (0 : Fin 1) r h)
      = V c main_v1_2 (ix3 (⟨t.val / 16, by have := pt_lt1 t; omega⟩ : Fin 8)
          (⟨(min (t.val % 4) (t.val / 4 % 4)) * 512 + r.val, by have := r.isLt; have := pt_lt1 t; omega⟩ : Fin 2048) h) :=
  iblk1_v_apply V c t r h _ _ rfl rfl

/-! ## The output array (window 3) -/

/-- An index of the output array is in point t's block iff each coordinate is in the block's range on its axis. -/
theorem mem_blkO (t : Fin cfg1.N) (i : S8x2048x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v2).slice (win1_3.rect t)).set ↔ _
  rw [View.set_slice_whole, Rect.mem_set_unit]
  exact Iff.rfl

/-- Row s of batch b is in the block of the point 16 · b + 4 · (s / 512) + 3, a last key tile: those blocks tile the array. -/
theorem coverO (i : S8x2048x64.Idx) : ∃ t : Fin cfg1.N, (cfg1.win 3).flush t = true ∧ i ∈ ((cfg1.win 3).blk t).view.set := by
  have h0 : (i 0).val < 8 := (i 0).isLt
  have h1 : (i 1).val < 2048 := (i 1).isLt
  have h2 : (i 2).val < 64 := (i 2).isLt
  have e : cfg1.N = 128 := N_1
  obtain ⟨t, tv⟩ : ∃ t : Fin cfg1.N, t.val = 16 * (i 0).val + 4 * ((i 1).val / 512) + 3 :=
    ⟨⟨16 * (i 0).val + 4 * ((i 1).val / 512) + 3, by omega⟩, rfl⟩
  refine ⟨t, (flush1_3 t).mpr (by rw [tv]; omega), ?_⟩
  rw [mem_blkO]
  obtain ⟨-, -, -, -, -, -, -, -, -, g0, g1, g2⟩ := idx_facts1 t
  intro a
  match a with
  | ⟨0, _⟩ => show win1_3.index t (0 : Fin 3) * 1 ≤ (i 0).val ∧ (i 0).val < win1_3.index t (0 : Fin 3) * 1 + 1; rw [g0, tv]; omega
  | ⟨1, _⟩ => show win1_3.index t (1 : Fin 3) * 512 ≤ (i 1).val ∧ (i 1).val < win1_3.index t (1 : Fin 3) * 512 + 512; rw [g1, tv]; omega
  | ⟨2, _⟩ => show win1_3.index t (2 : Fin 3) * 64 ≤ (i 2).val ∧ (i 2).val < win1_3.index t (2 : Fin 3) * 64 + 64; rw [g2]; omega

/-- Where the output buffer after each last key tile is block (batch, query tile) of one function of the index, what the
    point writes back is that block of the function. -/
theorem flushedO_eq (c : Dev nD) (Gout : Buf (Elt F) ((c : Thread nD τ).loc main_v2))
    (hG : ∀ t : Fin cfg1.N, t.val % 4 = 3 → ∀ (r : Fin 512) (h : Fin 64),
      (outsAt1 V c t.val t.isLt).1 (ix3 (0 : Fin 1) r h)
        = Gout (ix3 (⟨t.val / 16, by have := pt_lt1 t; omega⟩ : Fin 8)
            (⟨(t.val / 4 % 4) * 512 + r.val, by have := r.isLt; omega⟩ : Fin 2048) h))
    (t : Fin cfg1.N) (hf : (cfg1.win 3).flush t = true) :
    (dat1 V c).flushed 3 t = ((cfg1.win 3).blk t).view.read (Elt F) Gout := by
  show (cfg1.win 3).cut (grid1.coords t) ((dat1 V c).after 3 t) = _
  rw [after1_3]
  funext y
  obtain ⟨z, r, h, rfl⟩ : ∃ (z : Fin 1) (r : Fin 512) (h : Fin 64), y = (ix3 z r h : S1x512x64.Idx) := ⟨y 0, y 1, y 2, eq_ix3 y⟩
  obtain rfl : z = 0 := Subsingleton.elim _ _
  have ht := pt_lt1 t
  have h3 := (flush1_3 t).mp hf
  obtain ⟨-, -, -, -, -, -, -, -, -, g0, g1, g2⟩ := idx_facts1 t
  have hemb : ((cfg1.win 3).blk t).view.emb (ix3 (0 : Fin 1) r h)
      = (ix3 (⟨t.val / 16, by omega⟩ : Fin 8) (⟨(t.val / 4 % 4) * 512 + r.val, by have := r.isLt; omega⟩ : Fin 2048) h : S8x2048x64.Idx) := by
    funext a; apply Fin.ext
    match a with
    | ⟨0, _⟩ => show win1_3.index t (0 : Fin 3) * 1 + 1 * (0 : Fin 1).val = t.val / 16; rw [g0]; simp
    | ⟨1, _⟩ => show win1_3.index t (1 : Fin 3) * 512 + 1 * r.val = (t.val / 4 % 4) * 512 + r.val; rw [g1]; omega
    | ⟨2, _⟩ => show win1_3.index t (2 : Fin 3) * 64 + 1 * h.val = h.val; rw [g2]; omega
  show (outsAt1 V c t.val t.isLt).1 (ix3 (0 : Fin 1) r h) = Gout (((cfg1.win 3).blk t).view.emb (ix3 (0 : Fin 1) r h))
  rw [hemb]
  exact hG t h3 r h

/-- THE OUTPUT ARRAY after the call is that function. -/
theorem arrO_eq (c : Dev nD) (Gout : Buf (Elt F) ((c : Thread nD τ).loc main_v2))
    (hG : ∀ t : Fin cfg1.N, t.val % 4 = 3 → ∀ (r : Fin 512) (h : Fin 64),
      (outsAt1 V c t.val t.isLt).1 (ix3 (0 : Fin 1) r h)
        = Gout (ix3 (⟨t.val / 16, by have := pt_lt1 t; omega⟩ : Fin 8)
            (⟨(t.val / 4 % 4) * 512 + r.val, by have := r.isLt; omega⟩ : Fin 2048) h)) :
    (dat1 V c).arrAt 3 cfg1.N = Gout :=
  (dat1 V c).arrAt_eq_of_cover 3 Gout (fun t hf => flushedO_eq V c Gout hG t hf) coverO

/-! ## The inputs are kept -/

/-- The call leaves q's array as it found it. -/
theorem arr1_q (c : Dev nD) : (dat1 V c).arrAt 0 cfg1.N = V c main_v1_0 :=
  ((dat1 V c).arrAt_in 0 rfl cfg1.N).trans (A_eq1 V c 0)
/-- The call leaves k's array as it found it. -/
theorem arr1_k (c : Dev nD) : (dat1 V c).arrAt 1 cfg1.N = V c main_v1_1 :=
  ((dat1 V c).arrAt_in 1 rfl cfg1.N).trans (A_eq1 V c 1)
/-- The call leaves v's array as it found it. -/
theorem arr1_v (c : Dev nD) : (dat1 V c).arrAt 2 cfg1.N = V c main_v1_2 :=
  ((dat1 V c).arrAt_in 2 rfl cfg1.N).trans (A_eq1 V c 2)

end Arr

end Cert.KernelIdeal.Hand

end
-- ==== Proof.Attn1Payload.lean ====
/-
  The attention call's payloads read at an index, over the extended reals: the initial values of the running maximum
  (-∞), the denominator and the numerator (0); the copies; the v block read as a matrix; the final store, the numerator
  times the reciprocal of the denominator; the numerator's update, the old one scaled plus the weights times the v block;
  the rescaling factor and the weights, e to a difference from the new maximum; and the denominator's update, the old one
  rescaled plus the row sum of the weights. The masked scores and the new maximum are left as named subterms.
-/
import proofs.«178913_j5025111736349_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

/-! ## Constants and layout changes -/

/-- The word of -∞. -/
theorem ofBits_neg_inf_f32 : Ideal.ofBits .f32 0xFF800000#32 = ⊥ := by simp [Ideal.ofBits, Ideal.ieee]
/-- The word of 1. -/
theorem ofBits_one_f32 : Ideal.ofBits .f32 0x3F800000#32 = 1 := by
  have h : Ideal.ofBits .f32 0x3F800000#32 = ((1 : ℝ) : EReal) := by
    simp [Ideal.ofBits, Ideal.ieee, -EReal.coe_mul]; norm_num
  rw [h]; rfl

/-- A column [a,1] copied across b columns, at (p, c): the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    simp

/-! ## The initial values and the stores that copy -/

theorem k1_pay1_apply (r : Fin 512) : k1_pay1 (F := Ideal) (ix2 r (0 : Fin 1)) = ⊥ := by
  unfold k1_pay1
  show shapeCast S512x1 (broadcast S512x1 (Scalar.ofBits (F := Ideal) .f32 0xFF800000#32)) shapeCasts_S512x1_S512x1 (ix2 r (0 : Fin 1)) = ⊥
  rw [shapeCast_self]
  exact ofBits_neg_inf_f32

theorem k1_pay2_apply (r : Fin 512) : k1_pay2 (F := Ideal) (ix2 r (0 : Fin 1)) = 0 := by
  unfold k1_pay2
  show shapeCast S512x1 (broadcast S512x1 (Scalar.ofBits (F := Ideal) .f32 0x00000000#32)) shapeCasts_S512x1_S512x1 (ix2 r (0 : Fin 1)) = 0
  rw [shapeCast_self]
  exact Ideal.ofBits_zero_f32

theorem k1_pay3_apply (r : Fin 512) (h : Fin 64) : k1_pay3 (F := Ideal) (ix2 r h) = 0 := by
  unfold k1_pay3
  show shapeCast S512x64 (broadcast S512x64 (Scalar.ofBits (F := Ideal) .f32 0x00000000#32)) shapeCasts_S512x64_S512x64 (ix2 r h) = 0
  rw [shapeCast_self]
  exact Ideal.ofBits_zero_f32

theorem k1_pay4_eq (v : FVec Ideal S512x1 .f32) : k1_pay4 (F := Ideal) v = v := shapeCast_self v _
theorem k1_pay6_eq (v : FVec Ideal S512x1 .f32) : k1_pay6 (F := Ideal) v = v := shapeCast_self v _

/-- The v block read as a matrix. -/
theorem k1_pay8_apply (x2 : Vec Ideal S1x512x64 .bf16) (j : Fin 512) (h : Fin 64) :
    k1_pay8 (F := Ideal) x2 (ix2 j h) = x2 (ix3 (0 : Fin 1) j h) :=
  shapeCast_1ab_ab_apply x2 shapeCasts_S1x512x64_S512x64 j h

/-- The final store: the numerator times the reciprocal of the denominator. -/
theorem k1_pay7_apply (v12 : Vec Ideal S512x64 .f32) (v13 : Vec Ideal S512x1 .f32) (r : Fin 512) (h : Fin 64) :
    k1_pay7 (F := Ideal) v12 v13 (ix3 (0 : Fin 1) r h) = v12 (ix2 r h) * Ideal.div 1 (v13 (ix2 r (0 : Fin 1))) := by
  unfold k1_pay7
  refine (shapeCast_ab_1ab_apply _ shapeCasts_S512x64_S1x512x64 (0 : Fin 1) r h).trans ?_
  show v12 (ix2 r h) * broadcastTo S512x64 (divf (broadcast S512x1 (Scalar.ofBits (F := Ideal) .f32 0x3F800000#32)) v13) broadcasts_S512x1_S512x64 (ix2 r h) = _
  rw [broadcastTo_a1_ab_apply]
  show v12 (ix2 r h) * Ideal.div (Ideal.ofBits .f32 0x3F800000#32) (v13 (ix2 r (0 : Fin 1))) = _
  rw [ofBits_one_f32]

/-! ## The weights times v, and the numerator's update -/

theorem DPV_lhs0 (i : S512x64.Idx) (q : dot_S512x512_S512x64_S512x64_1_0_0_1_n_n.contr.Idx) : (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem DPV_lhs1 (i : S512x64.Idx) (q : dot_S512x512_S512x64_S512x64_1_0_0_1_n_n.contr.Idx) : (dot_S512x512_S512x64_S512x64_1_0_0_1_n_n.lhsIdx i q 1).val = (q ⟨0, by decide⟩).val :=
  dot_S512x512_S512x64_S512x64_1_0_0_1_n_n.lhsIdx_val_of_single rfl i q
theorem DPV_rhs0 (i : S512x64.Idx) (q : dot_S512x512_S512x64_S512x64_1_0_0_1_n_n.contr.Idx) : (dot_S512x512_S512x64_S512x64_1_0_0_1_n_n.rhsIdx i q 0).val = (q ⟨0, by decide⟩).val :=
  dot_S512x512_S512x64_S512x64_1_0_0_1_n_n.rhsIdx_val_of_single rfl i q
theorem DPV_rhs1 (i : S512x64.Idx) (q : dot_S512x512_S512x64_S512x64_1_0_0_1_n_n.contr.Idx) : (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- The numerator's update: the old numerator scaled, plus the weights times the v block. -/
theorem k1_pay5_apply (v17 : FVec Ideal S512x64 .bf16) (v39 : FVec Ideal S512x1 .f32) (v42 : FVec Ideal S512x512 .f32) (v51 : Vec Ideal S512x64 .f32)
    (r : Fin 512) (h : Fin 64) :
    k1_pay5 (F := Ideal) v17 v39 v42 v51 (ix2 r h)
      = v39 (ix2 r (0 : Fin 1)) * v51 (ix2 r h) + ∑ j : Fin 512, v42 (ix2 r j) * v17 (ix2 j h) := by
  unfold k1_pay5
  show shapeCast S512x64 (addf (mulf (broadcastTo S512x64 v39 broadcasts_S512x1_S512x64) v51)
      (matmul dot_S512x512_S512x64_S512x64_1_0_0_1_n_n none (truncf .bf16 v42 bitsLt_bf16_f32) v17 (constant S512x64 .f32 0x00000000#32)))
      shapeCasts_S512x64_S512x64 (ix2 r h) = _
  rw [shapeCast_self]
  show broadcastTo S512x64 v39 broadcasts_S512x1_S512x64 (ix2 r h) * v51 (ix2 r h)
      + matmul dot_S512x512_S512x64_S512x64_1_0_0_1_n_n none (truncf .bf16 v42 bitsLt_bf16_f32) v17 (constant S512x64 .f32 0x00000000#32) (ix2 r h) = _
  rw [broadcastTo_a1_ab_apply]
  refine congrArg (fun y => v39 (ix2 r (0 : Fin 1)) * v51 (ix2 r h) + y) ?_
  refine (Ideal.matmul_constant_zero_apply dot_S512x512_S512x64_S512x64_1_0_0_1_n_n none _ _ (ix2 r h)).trans ?_
  rw [← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  have el : dot_S512x512_S512x64_S512x64_1_0_0_1_n_n.lhsIdx (ix2 r h) ((contrEquiv1 dot_S512x512_S512x64_S512x64_1_0_0_1_n_n 512 rfl rfl).symm k) = (ix2 r k : S512x512.Idx) := funext fun a => Fin.ext (by
    match a with
    | ⟨0, _⟩ => exact DPV_lhs0 _ _
    | ⟨1, _⟩ => exact (DPV_lhs1 _ _).trans hk)
  have er : dot_S512x512_S512x64_S512x64_1_0_0_1_n_n.rhsIdx (ix2 r h) ((contrEquiv1 dot_S512x512_S512x64_S512x64_1_0_0_1_n_n 512 rfl rfl).symm k) = (ix2 k h : S512x64.Idx) := funext fun a => Fin.ext (by
    match a with
    | ⟨0, _⟩ => exact (DPV_rhs0 _ _).trans hk
    | ⟨1, _⟩ => exact DPV_rhs1 _ _)
  rw [el, er]
  rfl

/-! ## The rescaling factor, the weights, the denominator's update -/

/-- The factor by which the old maximum's terms are rescaled. -/
theorem k1_pay11_apply (a1 a2 : BitVec 32) (x0 x1 : Vec Ideal S1x512x64 .bf16) (v33 v37 : Vec Ideal S512x1 .f32) (r : Fin 512) :
    k1_pay11 (F := Ideal) a1 a2 x0 x1 v33 v37 (ix2 r (0 : Fin 1))
      = Ideal.exp (v37 (ix2 r (0 : Fin 1)) - k1_pay10 (F := Ideal) a1 a2 x0 x1 v33 (ix2 r (0 : Fin 1))) := by
  unfold k1_pay11
  rfl

/-- The weights: e to the score less the new maximum. -/
theorem k1_pay12_apply (a1 a2 : BitVec 32) (x0 x1 : Vec Ideal S1x512x64 .bf16) (v33 : Vec Ideal S512x1 .f32) (r j : Fin 512) :
    k1_pay12 (F := Ideal) a1 a2 x0 x1 v33 (ix2 r j)
      = Ideal.exp (k1_pay9 (F := Ideal) a1 a2 x0 x1 (ix2 r j) - k1_pay10 (F := Ideal) a1 a2 x0 x1 v33 (ix2 r (0 : Fin 1))) := by
  unfold k1_pay12
  show Ideal.exp (k1_pay9 (F := Ideal) a1 a2 x0 x1 (ix2 r j)
    - broadcastTo S512x512 (k1_pay10 (F := Ideal) a1 a2 x0 x1 v33) broadcasts_S512x1_S512x512 (ix2 r j)) = _
  rw [broadcastTo_a1_ab_apply]

/-- A vector [a] read as a column [a,1]. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) := by
  refine shapeCast_apply x h (ix2 p u) (ix1 p) ?_
  rw [Shape.rowMajor_val_one, Shape.rowMajor_val_two]
  show p.val = p.val * 1 + u.val
  have := u.isLt
  omega

/-- Inserting coordinate j on axis 1 of a row's index. -/
theorem lift_row (hr : S512x512.Reduces [1] S512) (r j : Fin 512) : hr.lift (ix1 r) j = (ix2 r j : S512x512.Idx) := by
  funext c
  apply Fin.ext
  match c with
  | ⟨0, _⟩ =>
    show hr.liftVal (ix1 r) j.val (0 : Fin 2) = r.val
    unfold Shape.Reduces.liftVal
    rw [dif_neg (by decide), dif_pos (by decide)]
  | ⟨1, _⟩ =>
    show hr.liftVal (ix1 r) j.val (1 : Fin 2) = j.val
    unfold Shape.Reduces.liftVal
    rw [dif_pos rfl]

/-- The denominator's update: the old denominator rescaled, plus the row sum of the weights. -/
theorem k1_pay13_apply (a1 a2 : BitVec 32) (x0 x1 : Vec Ideal S1x512x64 .bf16) (v33 v37 v43 : Vec Ideal S512x1 .f32) (r : Fin 512) :
    k1_pay13 (F := Ideal) a1 a2 x0 x1 v33 v37 v43 (ix2 r (0 : Fin 1))
      = k1_pay11 (F := Ideal) a1 a2 x0 x1 v33 v37 (ix2 r (0 : Fin 1)) * v43 (ix2 r (0 : Fin 1))
        + ∑ j : Fin 512, k1_pay12 (F := Ideal) a1 a2 x0 x1 v33 (ix2 r j) := by
  unfold k1_pay13
  show k1_pay11 (F := Ideal) a1 a2 x0 x1 v33 v37 (ix2 r (0 : Fin 1)) * v43 (ix2 r (0 : Fin 1))
      + shapeCast S512x1 (multiReduction .add [1] S512 (k1_pay12 (F := Ideal) a1 a2 x0 x1 v33) 0x00000000#32 reduces_S512x512_S512 (.inl rfl) rfl)
          shapeCasts_S512_S512x1 (ix2 r (0 : Fin 1)) = _
  rw [shapeCast_a_a1_apply]
  refine congrArg (fun y => k1_pay11 (F := Ideal) a1 a2 x0 x1 v33 v37 (ix2 r (0 : Fin 1)) * v43 (ix2 r (0 : Fin 1)) + y) ?_
  refine (Ideal.multiReduction_add_single (k1_pay12 (F := Ideal) a1 a2 x0 x1 v33) 0x00000000#32 reduces_S512x512_S512 (.inl rfl) rfl (ix1 r)).trans ?_
  refine Finset.sum_congr rfl fun j _ => ?_
  exact congrArg (k1_pay12 (F := Ideal) a1 a2 x0 x1 v33) (lift_row reduces_S512x512_S512 r j)

end Cert.KernelIdeal.Hand

end
-- ==== Proof.Attn1Score.lean ====
/-
  The attention body's score tile and its row maximum, read at an index, over the extended reals. The score tile at (r, j)
  is the inner product over the 64 features of the query tile's row r and the key tile's row j (the key tile read
  transposed, the accumulator zero), times the constant word 0x3C800000, where key position ki·512 + j is at most query
  position qi·512 + r, and -∞ (the named fill) elsewhere: the positions are below 2048, so the 32-bit signed comparison
  of the two sums is the comparison of the numbers. The lane maximum of a row from -∞ is the supremum of the row.
-/
import proofs.«178913_j5025111736349_2_alg».proof.Proof.Gen.KernelIdeal.Skeleton
import Idealize.ShloMosaic.Lib.Pipeline.Value
import Idealize.ShloMosaic.Lib.ValueIdx
import Idealize.ShloMosaic.Lib.Affine
import Idealize.ShloMosaic.PureOps.Ideal.Laws
import Idealize.ShloMosaic.PureOps.IdealRules

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

/-! ## The contraction's index maps, coordinate by coordinate -/

theorem D1_lhs0 (i : S512x512.Idx) (q : dot_S512x64_S64x512_S512x512_1_0_0_1_n_n.contr.Idx) : (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
theorem D1_lhs1 (i : S512x512.Idx) (q : dot_S512x64_S64x512_S512x512_1_0_0_1_n_n.contr.Idx) : (dot_S512x64_S64x512_S512x512_1_0_0_1_n_n.lhsIdx i q 1).val = (q ⟨0, by decide⟩).val :=
  dot_S512x64_S64x512_S512x512_1_0_0_1_n_n.lhsIdx_val_of_single rfl i q
theorem D1_rhs0 (i : S512x512.Idx) (q : dot_S512x64_S64x512_S512x512_1_0_0_1_n_n.contr.Idx) : (dot_S512x64_S64x512_S512x512_1_0_0_1_n_n.rhsIdx i q 0).val = (q ⟨0, by decide⟩).val :=
  dot_S512x64_S64x512_S512x512_1_0_0_1_n_n.rhsIdx_val_of_single rfl i q
theorem D1_rhs1 (i : S512x512.Idx) (q : dot_S512x64_S64x512_S512x512_1_0_0_1_n_n.contr.Idx) : (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-! ## The layout changes at an index, and the product -/

/-- Reading a [1,512,64] block as a [512,64] matrix. -/
theorem cast_tile_apply {α : Type} (x : S1x512x64.Idx → α) (r : Fin 512) (h : Fin 64) :
    shapeCast S512x64 x shapeCasts_S1x512x64_S512x64 (ix2 r h) = x (ix3 (0 : Fin 1) r h) := by
  refine shapeCast_apply x _ (ix2 r h) (ix3 (0 : Fin 1) r h) ?_
  rw [Shape.rowMajor_val_three, Shape.rowMajor_val_two]
  show ((0 : Fin 1).val * 512 + r.val) * 64 + h.val = r.val * 64 + h.val
  simp

/-- The transposed key tile at (h, j) is the key tile at (j, h). -/
theorem transpose_tile_apply {α : Type} (y : S512x64.Idx → α) (h : Fin 64) (j : Fin 512) :
    transpose S64x512 [1, 0] y transposes_S512x64_p1_0_S64x512 (ix2 h j) = y (ix2 j h) :=
  transpose_apply [1, 0] y transposes_S512x64_p1_0_S64x512 (ix2 h j) (ix2 j h) (fun b => match b with
    | ⟨0, _⟩ => rfl
    | ⟨1, _⟩ => rfl)

/-- The product of the query tile and the transposed key tile at (r, j): the inner product of row r and row j. -/
theorem score_mm_apply (x0 x1 : Vec Ideal S1x512x64 .bf16) (r j : Fin 512) :
    matmul (F := Ideal) (φ₁ := .bf16) (φ₂ := .bf16) dot_S512x64_S64x512_S512x512_1_0_0_1_n_n none (shapeCast S512x64 x0 shapeCasts_S1x512x64_S512x64 : FVec Ideal S512x64 .bf16)
      (transpose S64x512 [1, 0] (shapeCast S512x64 x1 shapeCasts_S1x512x64_S512x64 : FVec Ideal S512x64 .bf16) transposes_S512x64_p1_0_S64x512 : FVec Ideal S64x512 .bf16)
      (constant S512x512 .f32 0x00000000#32) (ix2 r j)
      = ∑ h : Fin 64, x0 (ix3 (0 : Fin 1) r h) * x1 (ix3 (0 : Fin 1) j h) := by
  refine (Ideal.matmul_constant_zero_apply dot_S512x64_S64x512_S512x512_1_0_0_1_n_n none _ _ (ix2 r j)).trans ?_
  rw [← Equiv.sum_comp (contrEquiv1 dot_S512x64_S64x512_S512x512_1_0_0_1_n_n 64 rfl rfl).symm]
  refine Finset.sum_congr rfl fun k _ => ?_
  have hk := contrEquiv1_symm_val dot_S512x64_S64x512_S512x512_1_0_0_1_n_n 64 rfl rfl k
  have el : dot_S512x64_S64x512_S512x512_1_0_0_1_n_n.lhsIdx (ix2 r j) ((contrEquiv1 dot_S512x64_S64x512_S512x512_1_0_0_1_n_n 64 rfl rfl).symm k) = (ix2 r k : S512x64.Idx) := funext fun a => Fin.ext (by
    match a with
    | ⟨0, _⟩ => exact D1_lhs0 _ _
    | ⟨1, _⟩ => exact (D1_lhs1 _ _).trans hk)
  have er : dot_S512x64_S64x512_S512x512_1_0_0_1_n_n.rhsIdx (ix2 r j) ((contrEquiv1 dot_S512x64_S64x512_S512x512_1_0_0_1_n_n 64 rfl rfl).symm k) = (ix2 k j : S64x512.Idx) := funext fun a => Fin.ext (by
    match a with
    | ⟨0, _⟩ => exact (D1_rhs0 _ _).trans hk
    | ⟨1, _⟩ => exact D1_rhs1 _ _)
  rw [el, er, cast_tile_apply, transpose_tile_apply, cast_tile_apply]

/-! ## The mask -/

/-- Tile a's position k as a 32-bit word, read signed, is the number a · 512 + k. -/
theorem pos_word (a : Fin 4) (k : Fin 512) :
    (IntOp.addi (Scalar.muli (BitVec.ofNat 32 a.val) 512#32) (BitVec.ofNat 32 (0 * 512 + k.val))).toInt = ((a.val * 512 + k.val : ℕ) : ℤ) := by
  have ha := a.isLt
  have hk := k.isLt
  have e : IntOp.addi (Scalar.muli (BitVec.ofNat 32 a.val) 512#32) (BitVec.ofNat 32 (0 * 512 + k.val)) = BitVec.ofNat 32 (a.val * 512 + k.val) := by
    show BitVec.ofNat 32 a.val * 512#32 + BitVec.ofNat 32 (0 * 512 + k.val) = _
    apply BitVec.eq_of_toNat_eq
    simp only [BitVec.toNat_add, BitVec.toNat_mul, BitVec.toNat_ofNat, Nat.reducePow]
    omega
  rw [e, BitVec.toInt_eq_toNat_cond, BitVec.toNat_ofNat]
  simp only [Nat.reducePow]
  split_ifs <;> omega

/-- The mask bit at (r, j): 1 where key position ki · 512 + j is at most query position qi · 512 + r. -/
theorem mask_apply (qi ki : Fin 4) (r j : Fin 512) :
    cmpi .sle (addi (broadcast S512x512 (Scalar.muli (BitVec.ofNat 32 ki.val) 512#32)) (iota .tc S512x512 32 [1] iota_S512x512_d1_w32))
      (addi (broadcast S512x512 (Scalar.muli (BitVec.ofNat 32 qi.val) 512#32)) (iota .tc S512x512 32 [0] iota_S512x512_d0_w32)) (ix2 r j)
      = if ki.val * 512 + j.val ≤ qi.val * 512 + r.val then 1#1 else 0#1 := by
  show IntOp.cmpi .sle (IntOp.addi (Scalar.muli (BitVec.ofNat 32 ki.val) 512#32) (BitVec.ofNat 32 (0 * 512 + j.val)))
      (IntOp.addi (Scalar.muli (BitVec.ofNat 32 qi.val) 512#32) (BitVec.ofNat 32 (0 * 512 + r.val))) = _
  have e1 := pos_word ki j
  have e2 := pos_word qi r
  split_ifs with hle
  · rw [IntOp.cmpi_sle, e1, e2]
    exact_mod_cast hle
  · refine eq_zero_of_ne_one fun h1 => hle ?_
    have := IntOp.cmpi_sle.mp h1
    rw [e1, e2] at this
    exact_mod_cast this

/-- The named fill is -∞. -/
theorem neg_big : Named.named (F := Ideal) κ "neg_big" (φ := .f32) 0xFF333332#32 = (⊥ : EReal) :=
  IdealRules.named_const.ideal_named_scalar _ _ _ _ rfl

/-- The word 0x3C800000 is 1/64. -/
theorem ofBits_inv64 : Ideal.ofBits .f32 0x3C800000#32 = ((1 / 64 : ℝ) : EReal) := by
  simp [Ideal.ofBits, Ideal.ieee]
  exact_mod_cast (by norm_num : (8388608 : ℝ) * (2 ^ 29)⁻¹ = 64⁻¹)

/-! ## The score tile at an index -/

/-- THE SCORE TILE at (r, j): the scaled inner product where the key position is visible to the query position, -∞
    elsewhere. -/
theorem k1_pay9_apply (qi ki : Fin 4) (r j : Fin 512) (x0 x1 : Vec Ideal S1x512x64 .bf16) :
    k1_pay9 (F := Ideal) (BitVec.ofNat 32 qi.val) (BitVec.ofNat 32 ki.val) x0 x1 (ix2 r j)
      = if ki.val * 512 + j.val ≤ qi.val * 512 + r.val
        then (∑ h : Fin 64, x0 (ix3 (0 : Fin 1) r h) * x1 (ix3 (0 : Fin 1) j h)) * Ideal.ofBits .f32 0x3C800000#32 else ⊥ := by
  unfold k1_pay9
  show Scalar.select
      (cmpi .sle (addi (broadcast S512x512 (Scalar.muli (BitVec.ofNat 32 ki.val) 512#32)) (iota .tc S512x512 32 [1] iota_S512x512_d1_w32))
        (addi (broadcast S512x512 (Scalar.muli (BitVec.ofNat 32 qi.val) 512#32)) (iota .tc S512x512 32 [0] iota_S512x512_d0_w32)) (ix2 r j))
      (matmul (F := Ideal) (φ₁ := .bf16) (φ₂ := .bf16) dot_S512x64_S64x512_S512x512_1_0_0_1_n_n none (shapeCast S512x64 x0 shapeCasts_S1x512x64_S512x64 : FVec Ideal S512x64 .bf16)
        (transpose S64x512 [1, 0] (shapeCast S512x64 x1 shapeCasts_S1x512x64_S512x64 : FVec Ideal S512x64 .bf16) transposes_S512x64_p1_0_S64x512 : FVec Ideal S64x512 .bf16)
        (constant S512x512 .f32 0x00000000#32) (ix2 r j) * Ideal.ofBits .f32 0x3C800000#32)
      (Named.named (F := Ideal) κ "neg_big" (φ := .f32) 0xFF333332#32) = _
  rw [mask_apply, score_mm_apply, neg_big]
  split_ifs
  · exact select_one _ _
  · exact select_zero _ _

/-! ## The row maximum -/

/-- The source index over row r with lane k put back is (r, k). -/
theorem lane_lift_row (hR : S512x512.Reduces [1] S512) (r : Fin 512) (k : Fin (S512x512.size 1)) :
    hR.lift (ix1 r) k = ix2 r (⟨k.val, k.isLt⟩ : Fin 512) := by
  funext c; apply Fin.ext
  match c with
  | ⟨0, _⟩ => rfl
  | ⟨1, _⟩ => rfl

/-- The maximum from -∞ over a finite family is its supremum. -/
theorem fold_max_eq_sup (f : Fin 512 → EReal) : Finset.fold max (⊥ : EReal) f Finset.univ = Finset.univ.sup f := by
  apply le_antisymm
  · exact (Finset.fold_max_le _).mpr ⟨bot_le, fun j _ => Finset.le_sup (f := f) (Finset.mem_univ j)⟩
  · exact Finset.sup_le fun j _ => (Finset.le_fold_max _).mpr (Or.inr ⟨j, Finset.mem_univ _, le_rfl⟩)

/-- The supremum of a finite family is the least upper bound of its range. -/
theorem isLUB_sup (f : Fin 512 → EReal) : IsLUB (Set.range f) (Finset.univ.sup f) :=
  ⟨fun _ ⟨j, e⟩ => e ▸ Finset.le_sup (f := f) (Finset.mem_univ j), fun _ hc => Finset.sup_le fun j _ => hc ⟨j, rfl⟩⟩

/-- The lane maximum from the word 0xFF800000 of a [512,512] tile, read as a column, at row r: the supremum of the row. -/
theorem rowmax_apply (P : FVec Ideal S512x512 .f32) (r : Fin 512) :
    shapeCast S512x1 (multiReduction (F := Ideal) .maximumf [1] S512 P 0xFF800000#32 reduces_S512x512_S512 (.inl rfl) rfl)
        shapeCasts_S512_S512x1 (ix2 r (0 : Fin 1))
      = Finset.univ.sup fun j : Fin 512 => P (ix2 r j) := by
  refine (shapeCast_apply _ shapeCasts_S512_S512x1 (ix2 r (0 : Fin 1)) (ix1 r) ?_).trans ?_
  · rw [Shape.rowMajor_val_one, Shape.rowMajor_val_two]
    show r.val = r.val * 1 + (0 : Fin 1).val
    simp
  · refine (Ideal.multiReduction_maximumf_single P 0xFF800000#32 reduces_S512x512_S512 (.inl rfl) rfl (ix1 r)).trans ?_
    have hb : FloatOps.ofBits (F := Ideal) .f32 0xFF800000#32 = (⊥ : EReal) := by simp [Ideal.ofBits, Ideal.ieee]
    rw [hb]
    have hf : (P ∘ reduces_S512x512_S512.lift (ix1 r)) = fun j : Fin 512 => P (ix2 r j) :=
      funext fun k => by rw [Function.comp_apply, lane_lift_row]; rfl
    rw [hf]
    exact fold_max_eq_sup _

/-- THE RUNNING MAXIMUM'S UPDATE at row r: the maximum of the old one and the supremum of the score tile's row. -/
theorem k1_pay10_sup (qi ki : Fin 4) (r : Fin 512) (x0 x1 : Vec Ideal S1x512x64 .bf16) (v33 : Vec Ideal S512x1 .f32) :
    k1_pay10 (F := Ideal) (BitVec.ofNat 32 qi.val) (BitVec.ofNat 32 ki.val) x0 x1 v33 (ix2 r (0 : Fin 1))
      = max (v33 (ix2 r (0 : Fin 1)))
          (Finset.univ.sup fun j : Fin 512 => k1_pay9 (F := Ideal) (BitVec.ofNat 32 qi.val) (BitVec.ofNat 32 ki.val) x0 x1 (ix2 r j)) := by
  unfold k1_pay10
  show max (v33 (ix2 r (0 : Fin 1)))
      (shapeCast S512x1 (multiReduction (F := Ideal) .maximumf [1] S512 (k1_pay9 (F := Ideal) (BitVec.ofNat 32 qi.val) (BitVec.ofNat 32 ki.val) x0 x1)
        0xFF800000#32 reduces_S512x512_S512 (.inl rfl) rfl) shapeCasts_S512_S512x1 (ix2 r (0 : Fin 1))) = _
  rw [rowmax_apply]

/-- The same with the tile maximum named only as a least upper bound of the row's scores. -/
theorem k1_pay10_apply (qi ki : Fin 4) (r : Fin 512) (x0 x1 : Vec Ideal S1x512x64 .bf16) (v33 : Vec Ideal S512x1 .f32) :
    ∃ T : EReal, IsLUB (Set.range fun j : Fin 512 => k1_pay9 (F := Ideal) (BitVec.ofNat 32 qi.val) (BitVec.ofNat 32 ki.val) x0 x1 (ix2 r j)) T
      ∧ k1_pay10 (F := Ideal) (BitVec.ofNat 32 qi.val) (BitVec.ofNat 32 ki.val) x0 x1 v33 (ix2 r (0 : Fin 1)) = max (v33 (ix2 r (0 : Fin 1))) T :=
  ⟨_, isLUB_sup _, k1_pay10_sup qi ki r x0 x1 v33⟩

end Cert.KernelIdeal.Hand

end
-- ==== Proof.Proj0Payload.lean ====
/-
  The projection call's payloads read at an index, over the extended reals. The body forms the product of the x tile
  (read as a 1024 × 1024 matrix) and the 1024 × 192 weight matrix — at (r, j) the sum over e of x[r, e] · W[e, j], the
  accumulator being zero and the narrowing of the operands the identity — and stores its three column bands: band k at
  (r, h) is the product at (r, 64·k + h).
-/
import proofs.«178913_j5025111736349_2_alg».proof.Proof.Region0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The contraction's index maps, coordinate by coordinate -/

theorem D0_lhs0 (i : S1024x192.Idx) (q : dot_S1024x1024_S1024x192_S1024x192_1_0_0_1_n_n.contr.Idx) :
    (dot_S1024x1024_S1024x192_S1024x192_1_0_0_1_n_n.lhsIdx i q 0).val = (i 0).val := by
  unfold DotDims.lhsIdx
  rw [dif_neg (show ¬(0 : Fin S1024x1024.rank) ∈ dot_S1024x1024_S1024x192_S1024x192_1_0_0_1_n_n.lhsBatch by decide), dif_pos (show (0 : Fin S1024x1024.rank) ∈ dot_S1024x1024_S1024x192_S1024x192_1_0_0_1_n_n.lhsNonContracting by decide)]
  rfl
theorem D0_lhs1 (i : S1024x192.Idx) (q : dot_S1024x1024_S1024x192_S1024x192_1_0_0_1_n_n.contr.Idx) :
    (dot_S1024x1024_S1024x192_S1024x192_1_0_0_1_n_n.lhsIdx i q 1).val = (q ⟨0, by decide⟩).val :=
  dot_S1024x1024_S1024x192_S1024x192_1_0_0_1_n_n.lhsIdx_val_of_single rfl i q
theorem D0_rhs0 (i : S1024x192.Idx) (q : dot_S1024x1024_S1024x192_S1024x192_1_0_0_1_n_n.contr.Idx) :
    (dot_S1024x1024_S1024x192_S1024x192_1_0_0_1_n_n.rhsIdx i q 0).val = (q ⟨0, by decide⟩).val :=
  dot_S1024x1024_S1024x192_S1024x192_1_0_0_1_n_n.rhsIdx_val_of_single rfl i q
theorem D0_rhs1 (i : S1024x192.Idx) (q : dot_S1024x1024_S1024x192_S1024x192_1_0_0_1_n_n.contr.Idx) :
    (dot_S1024x1024_S1024x192_S1024x192_1_0_0_1_n_n.rhsIdx i q 1).val = (i 1).val := by
  unfold DotDims.rhsIdx
  rw [dif_neg (show ¬(1 : Fin S1024x192.rank) ∈ dot_S1024x1024_S1024x192_S1024x192_1_0_0_1_n_n.rhsBatch by decide), dif_pos (show (1 : Fin S1024x192.rank) ∈ dot_S1024x1024_S1024x192_S1024x192_1_0_0_1_n_n.rhsNonContracting by decide)]
  rfl

/-! ## The layout changes at an index, and the product -/

/-- Reading a [1,1024,1024] block as a [1024,1024] matrix. -/
theorem cast_x_apply {α : Type} (x : S1x1024x1024.Idx → α) (r e : Fin 1024) :
    shapeCast S1024x1024 x shapeCasts_S1x1024x1024_S1024x1024 (ix2 r e) = x (ix3 (0 : Fin 1) r e) := by
  refine shapeCast_apply x _ (ix2 r e) (ix3 (0 : Fin 1) r e) ?_
  rw [Shape.rowMajor_val_three, Shape.rowMajor_val_two]
  show ((0 : Fin 1).val * 1024 + r.val) * 1024 + e.val = r.val * 1024 + e.val
  simp

/-- Reading a [1024,64] matrix as a [1,1024,64] block. -/
theorem cast_o_apply {α : Type} (x : S1024x64.Idx → α) (r : Fin 1024) (h : Fin 64) :
    shapeCast S1x1024x64 x shapeCasts_S1024x64_S1x1024x64 (ix3 (0 : Fin 1) r h) = x (ix2 r h) := by
  refine shapeCast_apply x _ (ix3 (0 : Fin 1) r h) (ix2 r h) ?_
  rw [Shape.rowMajor_val_three, Shape.rowMajor_val_two]
  show r.val * 64 + h.val = ((0 : Fin 1).val * 1024 + r.val) * 64 + h.val
  simp

/-- The product of the two loaded blocks at an index: the sum over the contracted axis. -/
theorem pay1_apply (x0 : Vec Ideal S1x1024x1024 .f32) (x1 : Vec Ideal S1024x192 .f32) (r : Fin 1024) (j : Fin 192) :
    k0_pay1 (F := Ideal) x0 x1 (ix2 r j) = ∑ e : Fin 1024, x0 (ix3 (0 : Fin 1) r e) * x1 (ix2 e j) := by
  unfold k0_pay1
  refine (Ideal.matmul_constant_zero_apply dot_S1024x1024_S1024x192_S1024x192_1_0_0_1_n_n none _ _ (ix2 r j)).trans ?_
  rw [← Equiv.sum_comp (contrEquiv1 dot_S1024x1024_S1024x192_S1024x192_1_0_0_1_n_n 1024 rfl rfl).symm]
  refine Finset.sum_congr rfl fun k _ => ?_
  have hk := contrEquiv1_symm_val dot_S1024x1024_S1024x192_S1024x192_1_0_0_1_n_n 1024 rfl rfl k
  have el : dot_S1024x1024_S1024x192_S1024x192_1_0_0_1_n_n.lhsIdx (ix2 r j) ((contrEquiv1 dot_S1024x1024_S1024x192_S1024x192_1_0_0_1_n_n 1024 rfl rfl).symm k) = (ix2 r k : S1024x1024.Idx) := funext fun a => Fin.ext (by
    match a with
    | ⟨0, _⟩ => exact D0_lhs0 _ _
    | ⟨1, _⟩ => exact (D0_lhs1 _ _).trans hk)
  have er : dot_S1024x1024_S1024x192_S1024x192_1_0_0_1_n_n.rhsIdx (ix2 r j) ((contrEquiv1 dot_S1024x1024_S1024x192_S1024x192_1_0_0_1_n_n 1024 rfl rfl).symm k) = (ix2 k j : S1024x192.Idx) := funext fun a => Fin.ext (by
    match a with
    | ⟨0, _⟩ => exact (D0_rhs0 _ _).trans hk
    | ⟨1, _⟩ => exact D0_rhs1 _ _)
  rw [el, er]
  show shapeCast S1024x1024 x0 shapeCasts_S1x1024x1024_S1024x1024 (ix2 r k) * shapeCast S1024x192 x1 shapeCasts_S1024x192_S1024x192 (ix2 k j) = _
  rw [cast_x_apply, shapeCast_self]

/-! ## The three bands -/

/-- A column band of a [1024,192] matrix, narrowed and read as a [1,1024,64] block, at an index: the matrix at the row
    and the shifted column. -/
theorem band0_apply (M : FVec Ideal S1024x192 .f32) (r : Fin 1024) (h : Fin 64) :
    (shapeCast S1x1024x64 (truncf .bf16 (extractStridedSlice S1024x64 ![0, 0] M slices_S1024x192_o0_0_S1024x64) bitsLt_bf16_f32 : FVec Ideal S1024x64 .bf16) shapeCasts_S1024x64_S1x1024x64 : FVec Ideal S1x1024x64 .bf16) (ix3 (0 : Fin 1) r h)
      = M (ix2 r (⟨h.val, by omega⟩ : Fin 192)) := by
  refine (cast_o_apply _ r h).trans ?_
  show extractStridedSlice S1024x64 ![0, 0] M slices_S1024x192_o0_0_S1024x64 (ix2 r h) = _
  refine extractStridedSlice_apply ![0, 0] M slices_S1024x192_o0_0_S1024x64 (ix2 r h) (ix2 r (⟨h.val, by omega⟩ : Fin 192)) ?_
  intro a
  match a with
  | ⟨0, _⟩ => show r.val = 0 + r.val; omega
  | ⟨1, _⟩ => show h.val = 0 + h.val; omega

theorem band1_apply (M : FVec Ideal S1024x192 .f32) (r : Fin 1024) (h : Fin 64) :
    (shapeCast S1x1024x64 (truncf .bf16 (extractStridedSlice S1024x64 ![0, 64] M slices_S1024x192_o0_64_S1024x64) bitsLt_bf16_f32 : FVec Ideal S1024x64 .bf16) shapeCasts_S1024x64_S1x1024x64 : FVec Ideal S1x1024x64 .bf16) (ix3 (0 : Fin 1) r h)
      = M (ix2 r (⟨64 + h.val, by omega⟩ : Fin 192)) := by
  refine (cast_o_apply _ r h).trans ?_
  show extractStridedSlice S1024x64 ![0, 64] M slices_S1024x192_o0_64_S1024x64 (ix2 r h) = _
  refine extractStridedSlice_apply ![0, 64] M slices_S1024x192_o0_64_S1024x64 (ix2 r h) (ix2 r (⟨64 + h.val, by omega⟩ : Fin 192)) ?_
  intro a
  match a with
  | ⟨0, _⟩ => show r.val = 0 + r.val; omega
  | ⟨1, _⟩ => show 64 + h.val = 64 + h.val; rfl

theorem band2_apply (M : FVec Ideal S1024x192 .f32) (r : Fin 1024) (h : Fin 64) :
    (shapeCast S1x1024x64 (truncf .bf16 (extractStridedSlice S1024x64 ![0, 128] M slices_S1024x192_o0_128_S1024x64) bitsLt_bf16_f32 : FVec Ideal S1024x64 .bf16) shapeCasts_S1024x64_S1x1024x64 : FVec Ideal S1x1024x64 .bf16) (ix3 (0 : Fin 1) r h)
      = M (ix2 r (⟨128 + h.val, by omega⟩ : Fin 192)) := by
  refine (cast_o_apply _ r h).trans ?_
  show extractStridedSlice S1024x64 ![0, 128] M slices_S1024x192_o0_128_S1024x64 (ix2 r h) = _
  refine extractStridedSlice_apply ![0, 128] M slices_S1024x192_o0_128_S1024x64 (ix2 r h) (ix2 r (⟨128 + h.val, by omega⟩ : Fin 192)) ?_
  intro a
  match a with
  | ⟨0, _⟩ => show r.val = 0 + r.val; omega
  | ⟨1, _⟩ => show 128 + h.val = 128 + h.val; rfl

/-- The q band of the product at an index. -/
theorem pay2_apply (x0 : Vec Ideal S1x1024x1024 .f32) (x1 : Vec Ideal S1024x192 .f32) (r : Fin 1024) (h : Fin 64) :
    k0_pay2 (F := Ideal) x0 x1 (ix3 (0 : Fin 1) r h) = ∑ e : Fin 1024, x0 (ix3 (0 : Fin 1) r e) * x1 (ix2 e (⟨h.val, by omega⟩ : Fin 192)) :=
  (band0_apply (k0_pay1 (F := Ideal) x0 x1) r h).trans (pay1_apply x0 x1 r _)

/-- The k band of the product at an index. -/
theorem pay3_apply (x0 : Vec Ideal S1x1024x1024 .f32) (x1 : Vec Ideal S1024x192 .f32) (r : Fin 1024) (h : Fin 64) :
    k0_pay3 (F := Ideal) x0 x1 (ix3 (0 : Fin 1) r h) = ∑ e : Fin 1024, x0 (ix3 (0 : Fin 1) r e) * x1 (ix2 e (⟨64 + h.val, by omega⟩ : Fin 192)) :=
  (band1_apply (k0_pay1 (F := Ideal) x0 x1) r h).trans (pay1_apply x0 x1 r _)

/-- The v band of the product at an index. -/
theorem pay4_apply (x0 : Vec Ideal S1x1024x1024 .f32) (x1 : Vec Ideal S1024x192 .f32) (r : Fin 1024) (h : Fin 64) :
    k0_pay4 (F := Ideal) x0 x1 (ix3 (0 : Fin 1) r h) = ∑ e : Fin 1024, x0 (ix3 (0 : Fin 1) r e) * x1 (ix2 e (⟨128 + h.val, by omega⟩ : Fin 192)) :=
  (band2_apply (k0_pay1 (F := Ideal) x0 x1) r h).trans (pay1_apply x0 x1 r _)

end Cert.KernelIdeal.Hand

end
-- ==== Proof.Proj0Array.lean ====
/-
  The arrays the projection call leaves, over the extended reals. The grid is 8 × 2: point t works on batch t / 2 and the
  row tile t % 2 of 1024 rows; the weight matrix's block is the whole matrix at every point. Point t writes back, to each of
  q, k, v, the block (t / 2, t % 2, 0) of one function of the whole arrays — band 0, 1, 2 of x · W: at (b, s, h) the sum over e
  of x[b, s, e] · W[e, 64 · band + h] — and the 16 blocks tile each array, so each ends holding that function; x and W are
  inputs of the call and end as they were found.
-/
import proofs.«178913_j5025111736349_2_alg».proof.Proof.Proj0Payload
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The arrays the call leaves, index by index -/

/-- Band `off` of the product x · W of the whole arrays: at (b, s, h) the sum over e of x[b, s, e] · W[e, off + h]. -/
def projBand (X : S8x2048x1024.Idx → EReal) (W : S1024x192.Idx → EReal) (off : Nat) (hoff : off + 64 ≤ 192) : S8x2048x64.Idx → EReal :=
  fun i => ∑ e : Fin 1024, X (ix3 (⟨(i 0).val, (i 0).isLt⟩ : Fin 8) (⟨(i 1).val, (i 1).isLt⟩ : Fin 2048) e)
    * W (ix2 e (⟨off + (i 2).val, by have h2 : (i 2).val < 64 := (i 2).isLt; omega⟩ : Fin 192))

theorem projBand_apply (X : S8x2048x1024.Idx → EReal) (W : S1024x192.Idx → EReal) (off : Nat) (hoff : off + 64 ≤ 192)
    (b : Fin 8) (s : Fin 2048) (h : Fin 64) :
    projBand X W off hoff (ix3 b s h) = ∑ e : Fin 1024, X (ix3 b s e) * W (ix2 e (⟨off + h.val, by omega⟩ : Fin 192)) := rfl

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: point t is batch t / 2, row tile t % 2; the weight matrix's block never moves. -/
theorem idx_facts0 : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 3) = t.val / 2 ∧ win0_2.index t (1 : Fin 3) = t.val % 2 ∧ win0_2.index t (2 : Fin 3) = 0
    ∧ win0_3.index t (0 : Fin 3) = t.val / 2 ∧ win0_3.index t (1 : Fin 3) = t.val % 2 ∧ win0_3.index t (2 : Fin 3) = 0
    ∧ win0_4.index t (0 : Fin 3) = t.val / 2 ∧ win0_4.index t (1 : Fin 3) = t.val % 2 ∧ win0_4.index t (2 : Fin 3) = 0 :=
  (by decide +kernel : ∀ t : Fin grid0.N, _)

section Arr
variable (V : (c : Dev nD) → (b : Ref sig .tc) → Buf (Elt Ideal) ((c : Thread nD τ).loc b))

theorem pt_lt (t : Fin cfg0.N) : t.val < 16 := by
  have h := t.isLt
  have e : cfg0.N = 16 := N_0
  omega

/-- The x tile at point t, at (0, r, e), is x at (t / 2, (t % 2) · 1024 + r, e). -/
theorem iblk0_x_apply (c : Dev nD) (t : Fin cfg0.N) (r e : Fin 1024) (b : Fin 8) (s : Fin 2048)
    (hb : b.val = t.val / 2) (hs : s.val = (t.val % 2) * 1024 + r.val) :
    iblk0 V c 0 t (ix3 (0 : Fin 1) r e) = V c main_arg0 (ix3 b s e) := by
  obtain ⟨f0, f1, f2, -⟩ := idx_facts0 t
  show V c main_arg0 (((cfg0.win 0).blk t).view.emb (ix3 (0 : Fin 1) r e)) = V c main_arg0 (ix3 b s e)
  refine congrArg _ (funext fun a => Fin.ext ?_)
  match a with
  | ⟨0, _⟩ => show win0_0.index t (0 : Fin 3) * 1 + 1 * (0 : Fin 1).val = b.val; rw [f0, hb]; simp
  | ⟨1, _⟩ => show win0_0.index t (1 : Fin 3) * 1024 + 1 * r.val = s.val; rw [f1, hs]; omega
  | ⟨2, _⟩ => show win0_0.index t (2 : Fin 3) * 1024 + 1 * e.val = e.val; rw [f2]; omega

/-- The weight matrix's block at any point is the whole matrix. -/
theorem iblk0_w_apply (c : Dev nD) (t : Fin cfg0.N) (e : Fin 1024) (j j' : Fin 192) (hj : j'.val = j.val) :
    iblk0 V c 1 t (ix2 e j) = V c main_v0 (ix2 e j') := by
  obtain ⟨-, -, -, f0, f1, -⟩ := idx_facts0 t
  show V c main_v0 (((cfg0.win 1).blk t).view.emb (ix2 e j)) = V c main_v0 (ix2 e j')
  refine congrArg _ (funext fun a => Fin.ext ?_)
  match a with
  | ⟨0, _⟩ => show win0_1.index t (0 : Fin 2) * 1024 + 1 * e.val = e.val; rw [f0]; omega
  | ⟨1, _⟩ => show win0_1.index t (1 : Fin 2) * 192 + 1 * j.val = j'.val; rw [f1, hj]; omega

/-! ## q's array (window 2) -/

/-- What point t writes back to q's array is block t of band 0 of x · W. -/
theorem flushedQ_eq (c : Dev nD) (t : Fin cfg0.N) :
    (dat0 (F := Ideal) V c).flushed 2 t = ((cfg0.win 2).blk t).view.read (Elt Ideal) (projBand (V c main_arg0) (V c main_v0) 0 (by omega)) := by
  show (cfg0.win 2).cut (grid0.coords t) ((dat0 (F := Ideal) V c).after 2 t) = _
  rw [after0_2]
  unfold outQ
  rw [View.canon_unit_zero hz3]
  simp only [View.ld_unit_zero (S := S1x1024x1024) hz3, View.ld_unit_zero (S := S1024x192) hz2]
  funext y
  obtain ⟨z, r, h, rfl⟩ : ∃ (z : Fin 1) (r : Fin 1024) (h : Fin 64), y = (ix3 z r h : S1x1024x64.Idx) := ⟨y 0, y 1, y 2, eq_ix3 y⟩
  obtain rfl : z = 0 := Subsingleton.elim _ _
  have ht := pt_lt t
  obtain ⟨-, -, -, -, -, g0, g1, g2, -⟩ := idx_facts0 t
  have hemb : ((cfg0.win 2).blk t).view.emb (ix3 (0 : Fin 1) r h) = (ix3 (⟨t.val / 2, by omega⟩ : Fin 8) (⟨(t.val % 2) * 1024 + r.val, by omega⟩ : Fin 2048) h : S8x2048x64.Idx) := by
    funext a; apply Fin.ext
    match a with
    | ⟨0, _⟩ => show win0_2.index t (0 : Fin 3) * 1 + 1 * (0 : Fin 1).val = t.val / 2; rw [g0]; simp
    | ⟨1, _⟩ => show win0_2.index t (1 : Fin 3) * 1024 + 1 * r.val = (t.val % 2) * 1024 + r.val; rw [g1]; omega
    | ⟨2, _⟩ => show win0_2.index t (2 : Fin 3) * 64 + 1 * h.val = h.val; rw [g2]; omega
  show k0_pay2 (F := Ideal) (iblk0 V c 0 t) (iblk0 V c 1 t) (ix3 (0 : Fin 1) r h)
    = projBand (V c main_arg0) (V c main_v0) 0 (by omega) (((cfg0.win 2).blk t).view.emb (ix3 (0 : Fin 1) r h))
  rw [hemb, projBand_apply]
  refine (pay2_apply (iblk0 V c 0 t) (iblk0 V c 1 t) r h).trans ?_
  refine Finset.sum_congr rfl fun e _ => ?_
  exact congrArg₂ (· * ·) (iblk0_x_apply V c t r e _ _ rfl rfl) (iblk0_w_apply V c t e _ _ (by show 0 + h.val = h.val; omega))

/-- An index of q's array is in point t's block iff each coordinate is in the block's range on its axis. -/
theorem mem_blkQ (t : Fin cfg0.N) (i : S8x2048x64.Idx) :
    i ∈ ((cfg0.win 2).blk t).view.set ↔ ∀ a : Fin 3, win0_2.index t a * S1x1024x64.size a ≤ (i a).val ∧ (i a).val < win0_2.index t a * S1x1024x64.size a + S1x1024x64.size a := by
  show i ∈ ((View.whole main_v1_0).slice (win0_2.rect t)).set ↔ _
  rw [View.set_slice_whole, Rect.mem_set_unit]
  exact Iff.rfl

/-- Row s of batch b is in the block of point 2 · b + s / 1024: the blocks tile the array. -/
theorem coverQ (i : S8x2048x64.Idx) : ∃ t : Fin cfg0.N, (cfg0.win 2).flush t = true ∧ i ∈ ((cfg0.win 2).blk t).view.set := by
  have h0 : (i 0).val < 8 := (i 0).isLt
  have h1 : (i 1).val < 2048 := (i 1).isLt
  have h2 : (i 2).val < 64 := (i 2).isLt
  have e : cfg0.N = 16 := N_0
  obtain ⟨t, tv⟩ : ∃ t : Fin cfg0.N, t.val = 2 * (i 0).val + (i 1).val / 1024 := ⟨⟨2 * (i 0).val + (i 1).val / 1024, by omega⟩, rfl⟩
  refine ⟨t, flush0_2 t, ?_⟩
  rw [mem_blkQ]
  obtain ⟨-, -, -, -, -, g0, g1, g2, -⟩ := idx_facts0 t
  intro a
  match a with
  | ⟨0, _⟩ => show win0_2.index t (0 : Fin 3) * 1 ≤ (i 0).val ∧ (i 0).val < win0_2.index t (0 : Fin 3) * 1 + 1; rw [g0, tv]; omega
  | ⟨1, _⟩ => show win0_2.index t (1 : Fin 3) * 1024 ≤ (i 1).val ∧ (i 1).val < win0_2.index t (1 : Fin 3) * 1024 + 1024; rw [g1, tv]; omega
  | ⟨2, _⟩ => show win0_2.index t (2 : Fin 3) * 64 ≤ (i 2).val ∧ (i 2).val < win0_2.index t (2 : Fin 3) * 64 + 64; rw [g2]; omega

/-- q's array after the call is band 0 of x · W. -/
theorem arrQ_eq (c : Dev nD) : (dat0 (F := Ideal) V c).arrAt 2 cfg0.N = projBand (V c main_arg0) (V c main_v0) 0 (by omega) :=
  (dat0 (F := Ideal) V c).arrAt_eq_of_cover 2 _ (fun t _ => flushedQ_eq V c t) coverQ

/-- q at an index: the sum over e of x[b, s, e] · W[e, h] (X, W name the two arrays as the call finds them). -/
theorem arrQ (c : Dev nD) (X : S8x2048x1024.Idx → EReal) (W : S1024x192.Idx → EReal) (hX : V c main_arg0 = X) (hW : V c main_v0 = W)
    (b : Fin 8) (s : Fin 2048) (h : Fin 64) :
    (dat0 (F := Ideal) V c).arrAt 2 cfg0.N (ix3 b s h) = ∑ e : Fin 1024, X (ix3 b s e) * W (ix2 e (⟨h.val, by omega⟩ : Fin 192)) := by
  have hj : (⟨0 + h.val, by omega⟩ : Fin 192) = ⟨h.val, by omega⟩ := Fin.ext (Nat.zero_add _)
  rw [arrQ_eq, hX, hW, projBand_apply, hj]

/-! ## k's array (window 3) -/

/-- What point t writes back to k's array is block t of band 1 of x · W. -/
theorem flushedK_eq (c : Dev nD) (t : Fin cfg0.N) :
    (dat0 (F := Ideal) V c).flushed 3 t = ((cfg0.win 3).blk t).view.read (Elt Ideal) (projBand (V c main_arg0) (V c main_v0) 64 (by omega)) := by
  show (cfg0.win 3).cut (grid0.coords t) ((dat0 (F := Ideal) V c).after 3 t) = _
  rw [after0_3]
  unfold outK
  rw [View.canon_unit_zero hz3]
  simp only [View.ld_unit_zero (S := S1x1024x1024) hz3, View.ld_unit_zero (S := S1024x192) hz2]
  funext y
  obtain ⟨z, r, h, rfl⟩ : ∃ (z : Fin 1) (r : Fin 1024) (h : Fin 64), y = (ix3 z r h : S1x1024x64.Idx) := ⟨y 0, y 1, y 2, eq_ix3 y⟩
  obtain rfl : z = 0 := Subsingleton.elim _ _
  have ht := pt_lt t
  obtain ⟨-, -, -, -, -, -, -, -, g0, g1, g2, -⟩ := idx_facts0 t
  have hemb : ((cfg0.win 3).blk t).view.emb (ix3 (0 : Fin 1) r h) = (ix3 (⟨t.val / 2, by omega⟩ : Fin 8) (⟨(t.val % 2) * 1024 + r.val, by omega⟩ : Fin 2048) h : S8x2048x64.Idx) := by
    funext a; apply Fin.ext
    match a with
    | ⟨0, _⟩ => show win0_3.index t (0 : Fin 3) * 1 + 1 * (0 : Fin 1).val = t.val / 2; rw [g0]; simp
    | ⟨1, _⟩ => show win0_3.index t (1 : Fin 3) * 1024 + 1 * r.val = (t.val % 2) * 1024 + r.val; rw [g1]; omega
    | ⟨2, _⟩ => show win0_3.index t (2 : Fin 3) * 64 + 1 * h.val = h.val; rw [g2]; omega
  show k0_pay3 (F := Ideal) (iblk0 V c 0 t) (iblk0 V c 1 t) (ix3 (0 : Fin 1) r h)
    = projBand (V c main_arg0) (V c main_v0) 64 (by omega) (((cfg0.win 3).blk t).view.emb (ix3 (0 : Fin 1) r h))
  rw [hemb, projBand_apply]
  refine (pay3_apply (iblk0 V c 0 t) (iblk0 V c 1 t) r h).trans ?_
  refine Finset.sum_congr rfl fun e _ => ?_
  exact congrArg₂ (· * ·) (iblk0_x_apply V c t r e _ _ rfl rfl) (iblk0_w_apply V c t e _ _ rfl)

/-- An index of k's array is in point t's block iff each coordinate is in the block's range on its axis. -/
theorem mem_blkK (t : Fin cfg0.N) (i : S8x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v1_1).slice (win0_3.rect t)).set ↔ _
  rw [View.set_slice_whole, Rect.mem_set_unit]
  exact Iff.rfl

/-- Row s of batch b is in the block of point 2 · b + s / 1024: the blocks tile the array. -/
theorem coverK (i : S8x2048x64.Idx) : ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 64 := (i 2).isLt
  have e : cfg0.N = 16 := N_0
  obtain ⟨t, tv⟩ : ∃ t : Fin cfg0.N, t.val = 2 * (i 0).val + (i 1).val / 1024 := ⟨⟨2 * (i 0).val + (i 1).val / 1024, by omega⟩, rfl⟩
  refine ⟨t, flush0_3 t, ?_⟩
  rw [mem_blkK]
  obtain ⟨-, -, -, -, -, -, -, -, g0, g1, g2, -⟩ := idx_facts0 t
  intro a
  match a with
  | ⟨0, _⟩ => show win0_3.index t (0 : Fin 3) * 1 ≤ (i 0).val ∧ (i 0).val < win0_3.index t (0 : Fin 3) * 1 + 1; rw [g0, tv]; omega
  | ⟨1, _⟩ => show win0_3.index t (1 : Fin 3) * 1024 ≤ (i 1).val ∧ (i 1).val < win0_3.index t (1 : Fin 3) * 1024 + 1024; rw [g1, tv]; omega
  | ⟨2, _⟩ => show win0_3.index t (2 : Fin 3) * 64 ≤ (i 2).val ∧ (i 2).val < win0_3.index t (2 : Fin 3) * 64 + 64; rw [g2]; omega

/-- k's array after the call is band 1 of x · W. -/
theorem arrK_eq (c : Dev nD) : (dat0 (F := Ideal) V c).arrAt 3 cfg0.N = projBand (V c main_arg0) (V c main_v0) 64 (by omega) :=
  (dat0 (F := Ideal) V c).arrAt_eq_of_cover 3 _ (fun t _ => flushedK_eq V c t) coverK

/-- k at an index: the sum over e of x[b, s, e] · W[e, 64 + h] (X, W name the two arrays as the call finds them). -/
theorem arrK (c : Dev nD) (X : S8x2048x1024.Idx → EReal) (W : S1024x192.Idx → EReal) (hX : V c main_arg0 = X) (hW : V c main_v0 = W)
    (b : Fin 8) (s : Fin 2048) (h : Fin 64) :
    (dat0 (F := Ideal) V c).arrAt 3 cfg0.N (ix3 b s h) = ∑ e : Fin 1024, X (ix3 b s e) * W (ix2 e (⟨64 + h.val, by omega⟩ : Fin 192)) := by
  rw [arrK_eq, hX, hW, projBand_apply]

/-! ## v's array (window 4) -/

/-- What point t writes back to v's array is block t of band 2 of x · W. -/
theorem flushedV_eq (c : Dev nD) (t : Fin cfg0.N) :
    (dat0 (F := Ideal) V c).flushed 4 t = ((cfg0.win 4).blk t).view.read (Elt Ideal) (projBand (V c main_arg0) (V c main_v0) 128 (by omega)) := by
  show (cfg0.win 4).cut (grid0.coords t) ((dat0 (F := Ideal) V c).after 4 t) = _
  rw [after0_4]
  unfold outV
  rw [View.canon_unit_zero hz3]
  simp only [View.ld_unit_zero (S := S1x1024x1024) hz3, View.ld_unit_zero (S := S1024x192) hz2]
  funext y
  obtain ⟨z, r, h, rfl⟩ : ∃ (z : Fin 1) (r : Fin 1024) (h : Fin 64), y = (ix3 z r h : S1x1024x64.Idx) := ⟨y 0, y 1, y 2, eq_ix3 y⟩
  obtain rfl : z = 0 := Subsingleton.elim _ _
  have ht := pt_lt t
  obtain ⟨-, -, -, -, -, -, -, -, -, -, -, g0, g1, g2⟩ := idx_facts0 t
  have hemb : ((cfg0.win 4).blk t).view.emb (ix3 (0 : Fin 1) r h) = (ix3 (⟨t.val / 2, by omega⟩ : Fin 8) (⟨(t.val % 2) * 1024 + r.val, by omega⟩ : Fin 2048) h : S8x2048x64.Idx) := by
    funext a; apply Fin.ext
    match a with
    | ⟨0, _⟩ => show win0_4.index t (0 : Fin 3) * 1 + 1 * (0 : Fin 1).val = t.val / 2; rw [g0]; simp
    | ⟨1, _⟩ => show win0_4.index t (1 : Fin 3) * 1024 + 1 * r.val = (t.val % 2) * 1024 + r.val; rw [g1]; omega
    | ⟨2, _⟩ => show win0_4.index t (2 : Fin 3) * 64 + 1 * h.val = h.val; rw [g2]; omega
  show k0_pay4 (F := Ideal) (iblk0 V c 0 t) (iblk0 V c 1 t) (ix3 (0 : Fin 1) r h)
    = projBand (V c main_arg0) (V c main_v0) 128 (by omega) (((cfg0.win 4).blk t).view.emb (ix3 (0 : Fin 1) r h))
  rw [hemb, projBand_apply]
  refine (pay4_apply (iblk0 V c 0 t) (iblk0 V c 1 t) r h).trans ?_
  refine Finset.sum_congr rfl fun e _ => ?_
  exact congrArg₂ (· * ·) (iblk0_x_apply V c t r e _ _ rfl rfl) (iblk0_w_apply V c t e _ _ rfl)

/-- An index of v's array is in point t's block iff each coordinate is in the block's range on its axis. -/
theorem mem_blkV (t : Fin cfg0.N) (i : S8x2048x64.Idx) :
    i ∈ ((cfg0.win 4).blk t).view.set ↔ ∀ a : Fin 3, win0_4.index t a * S1x1024x64.size a ≤ (i a).val ∧ (i a).val < win0_4.index t a * S1x1024x64.size a + S1x1024x64.size a := by
  show i ∈ ((View.whole main_v1_2).slice (win0_4.rect t)).set ↔ _
  rw [View.set_slice_whole, Rect.mem_set_unit]
  exact Iff.rfl

/-- Row s of batch b is in the block of point 2 · b + s / 1024: the blocks tile the array. -/
theorem coverV (i : S8x2048x64.Idx) : ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 64 := (i 2).isLt
  have e : cfg0.N = 16 := N_0
  obtain ⟨t, tv⟩ : ∃ t : Fin cfg0.N, t.val = 2 * (i 0).val + (i 1).val / 1024 := ⟨⟨2 * (i 0).val + (i 1).val / 1024, by omega⟩, rfl⟩
  refine ⟨t, flush0_4 t, ?_⟩
  rw [mem_blkV]
  obtain ⟨-, -, -, -, -, -, -, -, -, -, -, g0, g1, g2⟩ := idx_facts0 t
  intro a
  match a with
  | ⟨0, _⟩ => show win0_4.index t (0 : Fin 3) * 1 ≤ (i 0).val ∧ (i 0).val < win0_4.index t (0 : Fin 3) * 1 + 1; rw [g0, tv]; omega
  | ⟨1, _⟩ => show win0_4.index t (1 : Fin 3) * 1024 ≤ (i 1).val ∧ (i 1).val < win0_4.index t (1 : Fin 3) * 1024 + 1024; rw [g1, tv]; omega
  | ⟨2, _⟩ => show win0_4.index t (2 : Fin 3) * 64 ≤ (i 2).val ∧ (i 2).val < win0_4.index t (2 : Fin 3) * 64 + 64; rw [g2]; omega

/-- v's array after the call is band 2 of x · W. -/
theorem arrV_eq (c : Dev nD) : (dat0 (F := Ideal) V c).arrAt 4 cfg0.N = projBand (V c main_arg0) (V c main_v0) 128 (by omega) :=
  (dat0 (F := Ideal) V c).arrAt_eq_of_cover 4 _ (fun t _ => flushedV_eq V c t) coverV

/-- v at an index: the sum over e of x[b, s, e] · W[e, 128 + h] (X, W name the two arrays as the call finds them). -/
theorem arrV (c : Dev nD) (X : S8x2048x1024.Idx → EReal) (W : S1024x192.Idx → EReal) (hX : V c main_arg0 = X) (hW : V c main_v0 = W)
    (b : Fin 8) (s : Fin 2048) (h : Fin 64) :
    (dat0 (F := Ideal) V c).arrAt 4 cfg0.N (ix3 b s h) = ∑ e : Fin 1024, X (ix3 b s e) * W (ix2 e (⟨128 + h.val, by omega⟩ : Fin 192)) := by
  rw [arrV_eq, hX, hW, projBand_apply]

/-! ## The inputs are kept -/

/-- The call leaves x's array as it found it. -/
theorem arrX (c : Dev nD) : (dat0 (F := Ideal) V c).arrAt 0 cfg0.N = V c main_arg0 :=
  ((dat0 (F := Ideal) V c).arrAt_in 0 rfl cfg0.N).trans (A_eq0 V c 0)

/-- The call leaves the weight matrix's array as it found it. -/
theorem arrW (c : Dev nD) : (dat0 (F := Ideal) V c).arrAt 1 cfg0.N = V c main_v0 :=
  ((dat0 (F := Ideal) V c).arrAt_in 1 rfl cfg0.N).trans (A_eq0 V c 1)

end Arr

end Cert.KernelIdeal.Hand

end
-- ==== Proof.HostConcat.lean ====
/-
  The host's one operation before the calls: the three 1024 × 64 weight matrices set side by side as one 1024 × 192
  matrix. Read at an index, column j of the result is column j of the first matrix for j < 64, column j − 64 of the second
  for 64 ≤ j < 128, column j − 128 of the third from there on; every other array is left as it was.
-/
import proofs.«178913_j5025111736349_2_alg».proof.Proof.Gen.KernelIdeal.Regions
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open scoped BigOperators

/-! ## Three [1024,64] matrices side by side, read at an index -/

theorem cat3_apply0 {α : Type} (A0 A1 A2 : S1024x64.Idx → α) (hc : Shape.Concatenates [S1024x64, S1024x64, S1024x64] S1024x192 1)
    (e : Fin 1024) (h : Fin 64) :
    concatenate S1024x192 1 [⟨S1024x64, A0⟩, ⟨S1024x64, A1⟩, ⟨S1024x64, A2⟩] hc (ix2 e (⟨h.val, by omega⟩ : Fin 192)) = A0 (ix2 e h) := by
  refine concatenate_apply_piece (t := S1024x192) (1 : Fin 2) [⟨S1024x64, A0⟩, ⟨S1024x64, A1⟩, ⟨S1024x64, A2⟩] hc (ix2 e (⟨h.val, by omega⟩ : Fin 192))
    0 (by simp) S1024x64 A0 rfl rfl 0 rfl (ix2 e h) ?_ ?_
  · intro b hb
    match b with
    | ⟨0, _⟩ => rfl
    | ⟨1, _⟩ => exact absurd rfl hb
  · show 0 + h.val = h.val
    omega

theorem cat3_apply1 {α : Type} (A0 A1 A2 : S1024x64.Idx → α) (hc : Shape.Concatenates [S1024x64, S1024x64, S1024x64] S1024x192 1)
    (e : Fin 1024) (h : Fin 64) :
    concatenate S1024x192 1 [⟨S1024x64, A0⟩, ⟨S1024x64, A1⟩, ⟨S1024x64, A2⟩] hc (ix2 e (⟨64 + h.val, by omega⟩ : Fin 192)) = A1 (ix2 e h) := by
  refine concatenate_apply_piece (t := S1024x192) (1 : Fin 2) [⟨S1024x64, A0⟩, ⟨S1024x64, A1⟩, ⟨S1024x64, A2⟩] hc (ix2 e (⟨64 + h.val, by omega⟩ : Fin 192))
    1 (by simp) S1024x64 A1 rfl rfl 64 rfl (ix2 e h) ?_ ?_
  · intro b hb
    match b with
    | ⟨0, _⟩ => rfl
    | ⟨1, _⟩ => exact absurd rfl hb
  · show 64 + h.val = 64 + h.val
    omega

theorem cat3_apply2 {α : Type} (A0 A1 A2 : S1024x64.Idx → α) (hc : Shape.Concatenates [S1024x64, S1024x64, S1024x64] S1024x192 1)
    (e : Fin 1024) (h : Fin 64) :
    concatenate S1024x192 1 [⟨S1024x64, A0⟩, ⟨S1024x64, A1⟩, ⟨S1024x64, A2⟩] hc (ix2 e (⟨128 + h.val, by omega⟩ : Fin 192)) = A2 (ix2 e h) := by
  refine concatenate_apply_piece (t := S1024x192) (1 : Fin 2) [⟨S1024x64, A0⟩, ⟨S1024x64, A1⟩, ⟨S1024x64, A2⟩] hc (ix2 e (⟨128 + h.val, by omega⟩ : Fin 192))
    2 (by simp) S1024x64 A2 rfl rfl 128 rfl (ix2 e h) ?_ ?_
  · intro b hb
    match b with
    | ⟨0, _⟩ => rfl
    | ⟨1, _⟩ => exact absurd rfl hb
  · show 128 + h.val = 128 + h.val
    omega

/-! ## The host's concatenation -/

/-- The concatenated weight matrix at column h: the first matrix at column h. -/
theorem concat_band0 (W0 : Valuation τ sig (Elt Ideal)) (A : S1024x64.Idx → EReal) (hA : W0 (Proc.devRef .tc main_arg1) = A)
    (e : Fin 1024) (h : Fin 64) :
    (StableHlo.after (hostOps0 (F := Ideal)) W0) (Proc.devRef .tc main_v0) (ix2 e (⟨h.val, by omega⟩ : Fin 192)) = A (ix2 e h) := by
  dsimp only [hostOps0]
  after_results
  exact (cat3_apply0 _ _ _ concatenates_S1024x64_S1024x64_S1024x64_S1024x192_d1 e h).trans (congrFun hA (ix2 e h))

/-- The concatenated weight matrix at column 64 + h: the second matrix at column h. -/
theorem concat_band1 (W0 : Valuation τ sig (Elt Ideal)) (A : S1024x64.Idx → EReal) (hA : W0 (Proc.devRef .tc main_arg2) = A)
    (e : Fin 1024) (h : Fin 64) :
    (StableHlo.after (hostOps0 (F := Ideal)) W0) (Proc.devRef .tc main_v0) (ix2 e (⟨64 + h.val, by omega⟩ : Fin 192)) = A (ix2 e h) := by
  dsimp only [hostOps0]
  after_results
  exact (cat3_apply1 _ _ _ concatenates_S1024x64_S1024x64_S1024x64_S1024x192_d1 e h).trans (congrFun hA (ix2 e h))

/-- The concatenated weight matrix at column 128 + h: the third matrix at column h. -/
theorem concat_band2 (W0 : Valuation τ sig (Elt Ideal)) (A : S1024x64.Idx → EReal) (hA : W0 (Proc.devRef .tc main_arg3) = A)
    (e : Fin 1024) (h : Fin 64) :
    (StableHlo.after (hostOps0 (F := Ideal)) W0) (Proc.devRef .tc main_v0) (ix2 e (⟨128 + h.val, by omega⟩ : Fin 192)) = A (ix2 e h) := by
  dsimp only [hostOps0]
  after_results
  exact (cat3_apply2 _ _ _ concatenates_S1024x64_S1024x64_S1024x64_S1024x192_d1 e h).trans (congrFun hA (ix2 e h))

/-- The concatenated weight matrix at any column: the matrix whose band holds the column, at the column within the band. -/
theorem concat_apply (W0 : Valuation τ sig (Elt Ideal)) (A1 A2 A3 : S1024x64.Idx → EReal)
    (h1 : W0 (Proc.devRef .tc main_arg1) = A1) (h2 : W0 (Proc.devRef .tc main_arg2) = A2) (h3 : W0 (Proc.devRef .tc main_arg3) = A3)
    (e : Fin 1024) (j : Fin 192) :
    (StableHlo.after (hostOps0 (F := Ideal)) W0) (Proc.devRef .tc main_v0) (ix2 e j)
      = if hj : j.val < 64 then A1 (ix2 e (⟨j.val, hj⟩ : Fin 64))
        else if hj2 : j.val < 128 then A2 (ix2 e (⟨j.val - 64, by omega⟩ : Fin 64))
        else A3 (ix2 e (⟨j.val - 128, by omega⟩ : Fin 64)) := by
  have hj192 : j.val < 192 := j.isLt
  by_cases hj : j.val < 64
  · rw [dif_pos hj]
    exact concat_band0 W0 A1 h1 e ⟨j.val, hj⟩
  · rw [dif_neg hj]
    by_cases hj2 : j.val < 128
    · rw [dif_pos hj2]
      have ej : j = (⟨64 + (j.val - 64), by omega⟩ : Fin 192) := Fin.ext (by show j.val = 64 + (j.val - 64); omega)
      exact (congrArg (fun j' : Fin 192 => (StableHlo.after (hostOps0 (F := Ideal)) W0) (Proc.devRef .tc main_v0) (ix2 e j')) ej).trans
        (concat_band1 W0 A2 h2 e (⟨j.val - 64, by omega⟩ : Fin 64))
    · rw [dif_neg hj2]
      have ej : j = (⟨128 + (j.val - 128), by omega⟩ : Fin 192) := Fin.ext (by show j.val = 128 + (j.val - 128); omega)
      exact (congrArg (fun j' : Fin 192 => (StableHlo.after (hostOps0 (F := Ideal)) W0) (Proc.devRef .tc main_v0) (ix2 e j')) ej).trans
        (concat_band2 W0 A3 h3 e (⟨j.val - 128, by omega⟩ : Fin 64))

/-- The concatenation writes the weight matrix's array and no other. -/
theorem concat_other (W0 : Valuation τ sig (Elt Ideal)) (r : Ref sig .tc) (h : r ∉ ([main_v0] : List (Ref sig .tc))) :
    (StableHlo.after (hostOps0 (F := Ideal)) W0) (Proc.devRef .tc r) = W0 (Proc.devRef .tc r) :=
  StableHlo.after_of_writes_sub hostOps0 _ hostOps0_writes h

end Cert.KernelIdeal.Hand

end
-- ==== Proof.Proj0Real.lean ====
/-
  q, k and v after the projection call, over the real numbers. Where x and the three weight matrices hold real numbers,
  each entry of q (k, v) is the real sum over e of x[b, s, e] · Wq[e, h] (Wk, Wv) — the projection of the specification —
  as an extended real: the call leaves the bands of x · W, W the three matrices side by side, whose band 0, 1, 2 is Wq, Wk,
  Wv; x is unchanged by the host's concatenation; and a finite sum of products of reals is the real sum of products.
-/
import proofs.«178913_j5025111736349_2_alg».proof.Proof.Run
import proofs.«178913_j5025111736349_2_alg».proof.Proof.Proj0Array
import proofs.«178913_j5025111736349_2_alg».proof.Proof.HostConcat
import proofs.«178913_j5025111736349_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

/-- A sum of products of real entries is the real projection, as an extended real (the weight matrix's columns read through
    an embedding of its 64 columns among 192). -/
theorem proj_real (X : Cert.Spec.SX.Idx → EReal) (W : S1024x192.Idx → EReal) (WM : Cert.Spec.SW.Idx → EReal)
    (hX : Cert.Spec.IsReal X) (hW : Cert.Spec.IsReal WM) (col : Fin 64 → Fin 192)
    (hcol : ∀ (e : Fin 1024) (h : Fin 64), W (ix2 e (col h)) = WM (ix2 e h)) (b : Fin 8) (s : Fin 2048) (h : Fin 64) :
    ∑ e : Fin 1024, X (ix3 b s e) * W (ix2 e (col h)) = ((Cert.Spec.proj (Cert.Spec.toR3 X) (Cert.Spec.toR2 WM) b s h : ℝ) : EReal) := by
  unfold Cert.Spec.proj
  rw [Cert.Spec.coe_sum]
  refine Finset.sum_congr rfl fun e _ => ?_
  rw [EReal.coe_mul, hcol]
  show _ = ((X (ix3 b s e)).toReal : EReal) * ((WM (ix2 e h)).toReal : EReal)
  rw [hX.coe_toReal, hW.coe_toReal]

section Real
variable (m : (ℓ : Loc nD τ sig) → Buf (Elt Ideal) ℓ) (ρ : Dev nD → PrngReg) (c : Dev nD)

/-- q after the projection call, at an index: the real projection of x's real parts by the first weight
    matrix's, as an extended real. -/
theorem qArr_real (X : Cert.Spec.SX.Idx → EReal) (WM : Cert.Spec.SW.Idx → EReal)
    (eX : m ((c : Thread nD τ).loc main_arg0) = X) (eW : m ((c : Thread nD τ).loc main_arg1) = WM)
    (hX : Cert.Spec.IsReal X) (hW : Cert.Spec.IsReal WM) (b : Fin 8) (s : Fin 2048) (h : Fin 64) :
    (dat0 (F := Ideal) (V1 m ρ) c).arrAt 2 cfg0.N (ix3 b s h)
      = ((Cert.Spec.proj (Cert.Spec.toR3 X) (Cert.Spec.toR2 WM) b s h : ℝ) : EReal) := by
  have e0 : V1 m ρ c main_arg0 = X := (W1_arg m ρ c main_arg0 (by decide)).trans eX
  obtain ⟨WW, hWW⟩ : ∃ WW : S1024x192.Idx → EReal, V1 m ρ c main_v0 = WW := ⟨_, rfl⟩
  have hb : ∀ (e : Fin 1024) (h : Fin 64), WW (ix2 e (⟨h.val, by omega⟩ : Fin 192)) = WM (ix2 e h) := fun e h => by
    rw [← hWW]
    exact concat_band0 (W0 m ρ c) WM ((show W0 m ρ c (Proc.devRef .tc main_arg1) = m ((c : Thread nD τ).loc main_arg1) from rfl).trans eW) e h
  exact (arrQ (V1 m ρ) c X WW e0 hWW b s h).trans
    (proj_real X WW WM hX hW (fun h : Fin 64 => (⟨h.val, by omega⟩ : Fin 192)) hb b s h)

/-- k after the projection call, at an index: the real projection of x's real parts by the second weight
    matrix's, as an extended real. -/
theorem kArr_real (X : Cert.Spec.SX.Idx → EReal) (WM : Cert.Spec.SW.Idx → EReal)
    (eX : m ((c : Thread nD τ).loc main_arg0) = X) (eW : m ((c : Thread nD τ).loc main_arg2) = WM)
    (hX : Cert.Spec.IsReal X) (hW : Cert.Spec.IsReal WM) (b : Fin 8) (s : Fin 2048) (h : Fin 64) :
    (dat0 (F := Ideal) (V1 m ρ) c).arrAt 3 cfg0.N (ix3 b s h)
      = ((Cert.Spec.proj (Cert.Spec.toR3 X) (Cert.Spec.toR2 WM) b s h : ℝ) : EReal) := by
  have e0 : V1 m ρ c main_arg0 = X := (W1_arg m ρ c main_arg0 (by decide)).trans eX
  obtain ⟨WW, hWW⟩ : ∃ WW : S1024x192.Idx → EReal, V1 m ρ c main_v0 = WW := ⟨_, rfl⟩
  have hb : ∀ (e : Fin 1024) (h : Fin 64), WW (ix2 e (⟨64 + h.val, by omega⟩ : Fin 192)) = WM (ix2 e h) := fun e h => by
    rw [← hWW]
    exact concat_band1 (W0 m ρ c) WM ((show W0 m ρ c (Proc.devRef .tc main_arg2) = m ((c : Thread nD τ).loc main_arg2) from rfl).trans eW) e h
  exact (arrK (V1 m ρ) c X WW e0 hWW b s h).trans
    (proj_real X WW WM hX hW (fun h : Fin 64 => (⟨64 + h.val, by omega⟩ : Fin 192)) hb b s h)

/-- v after the projection call, at an index: the real projection of x's real parts by the third weight
    matrix's, as an extended real. -/
theorem vArr_real (X : Cert.Spec.SX.Idx → EReal) (WM : Cert.Spec.SW.Idx → EReal)
    (eX : m ((c : Thread nD τ).loc main_arg0) = X) (eW : m ((c : Thread nD τ).loc main_arg3) = WM)
    (hX : Cert.Spec.IsReal X) (hW : Cert.Spec.IsReal WM) (b : Fin 8) (s : Fin 2048) (h : Fin 64) :
    (dat0 (F := Ideal) (V1 m ρ) c).arrAt 4 cfg0.N (ix3 b s h)
      = ((Cert.Spec.proj (Cert.Spec.toR3 X) (Cert.Spec.toR2 WM) b s h : ℝ) : EReal) := by
  have e0 : V1 m ρ c main_arg0 = X := (W1_arg m ρ c main_arg0 (by decide)).trans eX
  obtain ⟨WW, hWW⟩ : ∃ WW : S1024x192.Idx → EReal, V1 m ρ c main_v0 = WW := ⟨_, rfl⟩
  have hb : ∀ (e : Fin 1024) (h : Fin 64), WW (ix2 e (⟨128 + h.val, by omega⟩ : Fin 192)) = WM (ix2 e h) := fun e h => by
    rw [← hWW]
    exact concat_band2 (W0 m ρ c) WM ((show W0 m ρ c (Proc.devRef .tc main_arg3) = m ((c : Thread nD τ).loc main_arg3) from rfl).trans eW) e h
  exact (arrV (V1 m ρ) c X WW e0 hWW b s h).trans
    (proj_real X WW WM hX hW (fun h : Fin 64 => (⟨128 + h.val, by omega⟩ : Fin 192)) hb b s h)

end Real

end Cert.KernelIdeal.Hand

end
-- ==== Proof.TiledRow.lean ====
/-
  One output row of causal attention, computed tile by tile.

  The 2048 key positions are cut into 4 tiles of 512. For the query position qi·512 + r only tiles 0..qi hold a visible
  position, and tile 0 always holds one (key position 0). The running maximum starts at -∞ and becomes a real number after
  tile 0; the running denominator and numerator are rescaled by e^{old maximum - new maximum} before each tile's terms are
  added. After tile qi the running maximum is the row maximum over the visible positions, the denominator is the row sum of
  the weights and the numerator is the weighted sum of the values: the tiles not visited carry weight 0 only. Dividing at
  the end gives the attention output.
-/
import proofs.«178913_j5025111736349_2_alg».proof.Proof.Spec
import proofs.«178913_j5025111736349_2_alg».proof.Proof.LibOnlineSoftmax

noncomputable section

namespace Cert.Tiled

open Finset Idealize.ShloMosaic Cert.Spec OnlineSoftmax

/-- Key (or query) position k of tile j. -/
def kpos (j : Fin 4) (k : Fin 512) : Fin 2048 := ⟨j.val * 512 + k.val, by have := j.isLt; have := k.isLt; omega⟩

theorem kpos_val (j : Fin 4) (k : Fin 512) : (kpos j k).val = j.val * 512 + k.val := rfl

/-- Every position is a position of some tile. -/
theorem exists_kpos (p : Fin 2048) : ∃ (j : Fin 4) (k : Fin 512), p = kpos j k :=
  ⟨⟨p.val / 512, by have := p.isLt; omega⟩, ⟨p.val % 512, by omega⟩, Fin.ext (by show p.val = p.val / 512 * 512 + p.val % 512; omega)⟩

/-- A sum over the 2048 positions is the double sum over tiles and positions in the tile. -/
theorem sum_kpos {M : Type*} [AddCommMonoid M] (f : Fin 2048 → M) : ∑ p : Fin 2048, f p = ∑ j : Fin 4, ∑ k : Fin 512, f (kpos j k) := by
  rw [← Finset.sum_product', Finset.univ_product_univ]
  refine (Fintype.sum_equiv (finProdFinEquiv (m := 4) (n := 512)) (fun jk => f (kpos jk.1 jk.2)) f fun jk => ?_).symm
  refine congrArg f (Fin.ext ?_)
  show jk.1.val * 512 + jk.2.val = jk.2.val + 512 * jk.1.val
  omega

section Row

variable (x : Fin 8 → Fin 2048 → Fin 1024 → ℝ) (wq wk wv : Fin 1024 → Fin 64 → ℝ) (b : Fin 8) (Q : Fin 2048)

/-- The masked score of key position n, a natural number: -∞ past the last position. -/
def ms (n : ℕ) : EReal := if h : n < 2048 then mscore x wq wk b Q ⟨n, h⟩ else ⊥

/-- The value projection at key position n, feature h: 0 past the last position. -/
def vl (h : Fin 64) (n : ℕ) : ℝ := if hn : n < 2048 then proj x wv b ⟨n, hn⟩ h else 0

theorem ms_kpos (j : Fin 4) (k : Fin 512) : ms x wq wk b Q (j.val * 512 + k.val) = mscore x wq wk b Q (kpos j k) := by
  unfold ms; rw [dif_pos (show j.val * 512 + k.val < 2048 from (kpos j k).isLt)]; rfl

theorem vl_kpos (h : Fin 64) (j : Fin 4) (k : Fin 512) : vl x wv b h (j.val * 512 + k.val) = proj x wv b (kpos j k) h := by
  unfold vl; rw [dif_pos (show j.val * 512 + k.val < 2048 from (kpos j k).isLt)]; rfl

theorem ms_ne_top (n : ℕ) : ms x wq wk b Q n ≠ ⊤ := by
  unfold ms
  split_ifs
  · unfold mscore
    split_ifs
    · exact EReal.coe_ne_top _
    · exact bot_ne_top
  · exact bot_ne_top

/-- Past the query's position every score is hidden. -/
theorem ms_hidden (n : ℕ) (h : Q.val < n) : ms x wq wk b Q n = ⊥ := by
  unfold ms
  split_ifs with hn
  · unfold mscore
    rw [if_neg]
    intro hle
    have := Fin.le_def.mp hle
    simp only at this
    omega
  · rfl

theorem ms_le_rowMax (n : ℕ) : ms x wq wk b Q n ≤ ((rowMax x wq wk b Q : ℝ) : EReal) := by
  unfold ms
  split_ifs with hn
  · unfold mscore
    split_ifs with hk
    · rw [EReal.coe_le_coe_iff]
      unfold rowMax
      exact Finset.le_sup' _ (by simp [hk])
    · exact bot_le
  · exact bot_le

/-- Some visible position attains the row maximum. -/
theorem exists_ms_eq_rowMax : ∃ n : ℕ, n ≤ Q.val ∧ ms x wq wk b Q n = ((rowMax x wq wk b Q : ℝ) : EReal) := by
  obtain ⟨k0, hk0, e⟩ := Finset.exists_mem_eq_sup' (s := Finset.univ.filter (fun k : Fin 2048 => k ≤ Q)) ⟨Q, by simp⟩ (score x wq wk b Q)
  have hk : k0 ≤ Q := (Finset.mem_filter.mp hk0).2
  refine ⟨k0.val, Fin.le_def.mp hk, ?_⟩
  unfold ms
  rw [dif_pos k0.isLt]
  unfold mscore rowMax
  rw [if_pos hk, e]

/-- Position 0 is visible to every query. -/
theorem ms_zero_ne_bot : ms x wq wk b Q 0 ≠ ⊥ := by
  unfold ms
  rw [dif_pos (by norm_num)]
  unfold mscore
  rw [if_pos (Fin.le_def.mpr (Nat.zero_le _))]
  exact EReal.coe_ne_bot _

/-- The running maximum after n tiles, from -∞. -/
def rmax : ℕ → EReal
  | 0 => ⊥
  | n + 1 => max (rmax n) (⨆ k : Fin 512, ms x wq wk b Q (n * 512 + k.val))

theorem rmax_zero : rmax x wq wk b Q 0 = ⊥ := rfl
theorem rmax_succ (n : ℕ) : rmax x wq wk b Q (n + 1) = max (rmax x wq wk b Q n) (⨆ k : Fin 512, ms x wq wk b Q (n * 512 + k.val)) := rfl

/-- The running maximum is the least upper bound of the scores of the tiles seen. -/
theorem rmax_le_iff (n : ℕ) (c : EReal) :
    rmax x wq wk b Q n ≤ c ↔ ∀ j, j < n → ∀ k : Fin 512, ms x wq wk b Q (j * 512 + k.val) ≤ c := by
  induction n with
  | zero => simp [rmax_zero]
  | succ n ih =>
    rw [rmax_succ, max_le_iff, ih, iSup_le_iff]
    constructor
    · rintro ⟨h1, h2⟩ j hj k
      rcases Nat.lt_succ_iff_lt_or_eq.mp hj with h | rfl
      · exact h1 j h k
      · exact h2 k
    · intro h
      exact ⟨fun j hj k => h j (Nat.lt_succ_of_lt hj) k, fun k => h n (Nat.lt_succ_self n) k⟩

theorem rmax_le_rowMax (n : ℕ) : rmax x wq wk b Q n ≤ ((rowMax x wq wk b Q : ℝ) : EReal) :=
  (rmax_le_iff x wq wk b Q n _).mpr fun _ _ _ => ms_le_rowMax x wq wk b Q _

theorem rmax_ne_top (n : ℕ) : rmax x wq wk b Q n ≠ ⊤ :=
  ne_top_of_le_ne_top (EReal.coe_ne_top _) (rmax_le_rowMax x wq wk b Q n)

/-- After tile 0 the running maximum is above -∞: position 0 is visible. -/
theorem rmax_succ_ne_bot (n : ℕ) : rmax x wq wk b Q (n + 1) ≠ ⊥ := by
  have h := (rmax_le_iff x wq wk b Q (n + 1) _).mp le_rfl 0 (Nat.succ_pos n) ⟨0, by norm_num⟩
  simp only [Nat.zero_mul, Nat.zero_add] at h
  intro e
  rw [e, le_bot_iff] at h
  exact ms_zero_ne_bot x wq wk b Q h

/-- The running maximum as a real number (meaningful from tile 0 on). -/
def M (n : ℕ) : ℝ := (rmax x wq wk b Q n).toReal

theorem coe_M_succ (n : ℕ) : ((M x wq wk b Q (n + 1) : ℝ) : EReal) = rmax x wq wk b Q (n + 1) :=
  EReal.coe_toReal (rmax_ne_top x wq wk b Q _) (rmax_succ_ne_bot x wq wk b Q n)

end Row

section Sequences

variable (x : Fin 8 → Fin 2048 → Fin 1024 → ℝ) (wq wk wv : Fin 1024 → Fin 64 → ℝ) (b : Fin 8) (Q : Fin 2048) (h : Fin 64)

/-- The running denominator over the reals. -/
def lseq : ℕ → ℝ
  | 0 => 0
  | n + 1 => Real.exp (M x wq wk b Q n - M x wq wk b Q (n + 1)) * lseq n
      + ∑ k : Fin 512, wt (ms x wq wk b Q (n * 512 + k.val)) (M x wq wk b Q (n + 1))

/-- The running numerator over the reals, at feature h. -/
def aseq : ℕ → ℝ
  | 0 => 0
  | n + 1 => Real.exp (M x wq wk b Q n - M x wq wk b Q (n + 1)) * aseq n
      + ∑ k : Fin 512, wt (ms x wq wk b Q (n * 512 + k.val)) (M x wq wk b Q (n + 1)) * vl x wv b h (n * 512 + k.val)

theorem lseq_zero : lseq x wq wk b Q 0 = 0 := rfl
theorem aseq_zero : aseq x wq wk wv b Q h 0 = 0 := rfl
theorem lseq_succ (n : ℕ) : lseq x wq wk b Q (n + 1) = Real.exp (M x wq wk b Q n - M x wq wk b Q (n + 1)) * lseq x wq wk b Q n
      + ∑ k : Fin 512, wt (ms x wq wk b Q (n * 512 + k.val)) (M x wq wk b Q (n + 1)) := rfl
theorem aseq_succ (n : ℕ) : aseq x wq wk wv b Q h (n + 1) = Real.exp (M x wq wk b Q n - M x wq wk b Q (n + 1)) * aseq x wq wk wv b Q h n
      + ∑ k : Fin 512, wt (ms x wq wk b Q (n * 512 + k.val)) (M x wq wk b Q (n + 1)) * vl x wv b h (n * 512 + k.val) := rfl

/-- After n tiles both running sums are the plain sums against the last maximum. -/
theorem seq_closed (n : ℕ) :
    lseq x wq wk b Q n = ∑ j ∈ range n, ∑ k : Fin 512, wt (ms x wq wk b Q (j * 512 + k.val)) (M x wq wk b Q n)
      ∧ aseq x wq wk wv b Q h n
        = ∑ j ∈ range n, ∑ k : Fin 512, wt (ms x wq wk b Q (j * 512 + k.val)) (M x wq wk b Q n) * vl x wv b h (j * 512 + k.val) :=
  fold_eq (fun j (k : Fin 512) m => wt (ms x wq wk b Q (j * 512 + k.val)) m) (fun j k => vl x wv b h (j * 512 + k.val)) (M x wq wk b Q)
    (fun _ _ a c => wt_shift _ a c) (lseq x wq wk b Q) (aseq x wq wk wv b Q h)
    (fun j => Real.exp (M x wq wk b Q j - M x wq wk b Q (j + 1))) rfl rfl (fun _ _ => rfl) (fun _ => rfl) (fun _ => rfl) n

/-- The rescaling factor times a running sum: e^{old - new} over the reals, and at the first tile 0 · 0. -/
theorem rescale (n : ℕ) (y : ℝ) (hy : n = 0 → y = 0) :
    Ideal.exp (rmax x wq wk b Q n - rmax x wq wk b Q (n + 1)) * (y : EReal)
      = ((Real.exp (M x wq wk b Q n - M x wq wk b Q (n + 1)) * y : ℝ) : EReal) := by
  rw [← coe_M_succ x wq wk b Q n]
  cases n with
  | zero => rw [hy rfl, rmax_zero, EReal.bot_sub, Ideal.exp_bot]; simp
  | succ m => rw [← coe_M_succ x wq wk b Q m, ← EReal.coe_sub, Ideal.exp_coe, ← EReal.coe_mul]

/-- A sum over the tiles up to qi of a function that vanishes past them is the sum over all positions. -/
theorem sum_tiles (qi : Fin 4) (g : ℕ → ℝ) (hg : ∀ n, (qi.val + 1) * 512 ≤ n → g n = 0) :
    ∑ j ∈ range (qi.val + 1), ∑ k : Fin 512, g (j * 512 + k.val) = ∑ p : Fin 2048, g p.val := by
  rw [sum_kpos (fun p => g p.val)]
  have e1 : ∑ j : Fin 4, ∑ k : Fin 512, g (kpos j k).val = ∑ j ∈ range 4, ∑ k : Fin 512, g (j * 512 + k.val) :=
    Fin.sum_univ_eq_sum_range (fun j => ∑ k : Fin 512, g (j * 512 + k.val)) 4
  rw [e1]
  refine Finset.sum_subset (fun a ha => Finset.mem_range.mpr (by have := Finset.mem_range.mp ha; have := qi.isLt; omega)) fun j _ hj => Finset.sum_eq_zero fun k _ => hg _ ?_
  have := Finset.mem_range.not.mp hj
  omega

end Sequences

section Last

variable (x : Fin 8 → Fin 2048 → Fin 1024 → ℝ) (wq wk wv : Fin 1024 → Fin 64 → ℝ) (b : Fin 8) (qi : Fin 4) (r : Fin 512) (h : Fin 64)

/-- After tile qi the running maximum is the row maximum: every visible position lies in tiles 0..qi. -/
theorem rmax_last : rmax x wq wk b (kpos qi r) (qi.val + 1) = ((rowMax x wq wk b (kpos qi r) : ℝ) : EReal) := by
  apply le_antisymm (rmax_le_rowMax _ _ _ _ _ _)
  obtain ⟨n, hn, e⟩ := exists_ms_eq_rowMax x wq wk b (kpos qi r)
  rw [← e]
  have hn' : n ≤ qi.val * 512 + r.val := hn
  have hr := r.isLt
  have h1 := (rmax_le_iff x wq wk b (kpos qi r) (qi.val + 1) _).mp le_rfl (n / 512) (by omega) ⟨n % 512, by omega⟩
  have e2 : n / 512 * 512 + (⟨n % 512, by omega⟩ : Fin 512).val = n := by show n / 512 * 512 + n % 512 = n; omega
  rwa [e2] at h1

theorem M_last : M x wq wk b (kpos qi r) (qi.val + 1) = rowMax x wq wk b (kpos qi r) :=
  EReal.coe_eq_coe_iff.mp ((coe_M_succ x wq wk b (kpos qi r) qi.val).trans (rmax_last x wq wk b qi r))

/-- Past tile qi every weight is 0. -/
theorem wt_ms_eq_zero (n : ℕ) (hn : (qi.val + 1) * 512 ≤ n) (m : ℝ) : wt (ms x wq wk b (kpos qi r) n) m = 0 := by
  rw [ms_hidden x wq wk b (kpos qi r) n (by have := r.isLt; rw [kpos_val]; omega)]
  unfold wt; rw [if_pos rfl]

theorem ms_val (Q p : Fin 2048) : ms x wq wk b Q p.val = mscore x wq wk b Q p := by
  unfold ms; rw [dif_pos p.isLt]

theorem vl_val (p : Fin 2048) : vl x wv b h p.val = proj x wv b p h := by
  unfold vl; rw [dif_pos p.isLt]

/-- The row sum of the weights is not 0: a position attaining the maximum has weight 1. -/
theorem denom_ne_zero (Q : Fin 2048) : denom x wq wk b Q ≠ 0 := by
  obtain ⟨n, hn, e⟩ := exists_ms_eq_rowMax x wq wk b Q
  have hn2 : n < 2048 := by have := Q.isLt; omega
  have e' : mscore x wq wk b Q ⟨n, hn2⟩ = ((rowMax x wq wk b Q : ℝ) : EReal) := (ms_val x wq wk b Q ⟨n, hn2⟩).symm.trans e
  have h1 : weight x wq wk b Q ⟨n, hn2⟩ = 1 := by
    unfold weight; rw [e']; exact wt_self _
  have h2 := one_le_sum_of_mem Finset.univ (weight x wq wk b Q) (fun k _ => wt_nonneg _ _) ⟨n, hn2⟩ (Finset.mem_univ _) h1
  unfold denom
  intro h0
  rw [h0] at h2
  norm_num at h2

/-- After tile qi the running denominator is the row sum of the weights. -/
theorem lseq_last : lseq x wq wk b (kpos qi r) (qi.val + 1) = denom x wq wk b (kpos qi r) := by
  rw [(seq_closed x wq wk (fun _ _ => 0) b (kpos qi r) 0 (qi.val + 1)).1, M_last]
  refine (sum_tiles qi (fun n => wt (ms x wq wk b (kpos qi r) n) (rowMax x wq wk b (kpos qi r)))
    (fun n hn => wt_ms_eq_zero x wq wk b qi r n hn _)).trans ?_
  unfold denom weight
  exact Finset.sum_congr rfl fun p _ => congrArg (fun s => wt s _) (ms_val x wq wk b _ p)

/-- After tile qi the running numerator is the weighted sum of the values. -/
theorem aseq_last : aseq x wq wk wv b (kpos qi r) h (qi.val + 1) = ∑ p : Fin 2048, weight x wq wk b (kpos qi r) p * proj x wv b p h := by
  rw [(seq_closed x wq wk wv b (kpos qi r) h (qi.val + 1)).2, M_last]
  refine (sum_tiles qi (fun n => wt (ms x wq wk b (kpos qi r) n) (rowMax x wq wk b (kpos qi r)) * vl x wv b h n)
    (fun n hn => by simp only [wt_ms_eq_zero x wq wk b qi r n hn, zero_mul])).trans ?_
  refine Finset.sum_congr rfl fun p _ => ?_
  show wt (ms x wq wk b (kpos qi r) p.val) _ * vl x wv b h p.val = _
  rw [ms_val, vl_val]
  rfl

end Last

/-- ONE ROW, TILE BY TILE. The online-softmax recurrence on the extended reals over tiles 0..qi, from maximum -∞ and sums 0,
    divided at the end, is the attention output at query position qi·512 + r. -/
theorem row_eq (x : Fin 8 → Fin 2048 → Fin 1024 → ℝ) (wq wk wv : Fin 1024 → Fin 64 → ℝ) (b : Fin 8) (qi : Fin 4) (r : Fin 512)
    (sc : ℕ → Fin 512 → EReal) (tmax : ℕ → EReal) (mE lE : ℕ → EReal) (accE : ℕ → Fin 64 → EReal)
    (hsc : ∀ j : Fin 4, j ≤ qi → ∀ k : Fin 512, sc j.val k = mscore x wq wk b (kpos qi r) (kpos j k))
    (htmax : ∀ j : Fin 4, j ≤ qi → IsLUB (Set.range (sc j.val)) (tmax j.val))
    (hm0 : mE 0 = ⊥) (hl0 : lE 0 = 0) (hacc0 : ∀ h, accE 0 h = 0)
    (hm : ∀ j : Fin 4, j ≤ qi → mE (j.val + 1) = max (mE j.val) (tmax j.val))
    (hl : ∀ j : Fin 4, j ≤ qi → lE (j.val + 1)
        = Ideal.exp (mE j.val - mE (j.val + 1)) * lE j.val + ∑ k : Fin 512, Ideal.exp (sc j.val k - mE (j.val + 1)))
    (hacc : ∀ j : Fin 4, j ≤ qi → ∀ h : Fin 64, accE (j.val + 1) h
        = Ideal.exp (mE j.val - mE (j.val + 1)) * accE j.val h
          + ∑ k : Fin 512, Ideal.exp (sc j.val k - mE (j.val + 1)) * ((proj x wv b (kpos j k) h : ℝ) : EReal))
    (h : Fin 64) :
    accE (qi.val + 1) h * Ideal.div 1 (lE (qi.val + 1)) = ((out x wq wk wv b (kpos qi r) h : ℝ) : EReal) := by
  have hq := qi.isLt
  have track : ∀ n, n ≤ qi.val + 1 → mE n = rmax x wq wk b (kpos qi r) n
      ∧ lE n = ((lseq x wq wk b (kpos qi r) n : ℝ) : EReal)
      ∧ ∀ h, accE n h = ((aseq x wq wk wv b (kpos qi r) h n : ℝ) : EReal) := by
    intro n
    induction n with
    | zero =>
      intro _
      exact ⟨hm0, by rw [hl0, lseq_zero, EReal.coe_zero], fun h => by rw [hacc0, aseq_zero, EReal.coe_zero]⟩
    | succ n ih =>
      intro hn
      obtain ⟨e1, e2, e3⟩ := ih (by omega)
      have hn4 : n < 4 := by omega
      have hj : (⟨n, hn4⟩ : Fin 4) ≤ qi := Fin.le_def.mpr (by show n ≤ qi.val; omega)
      have hscn : ∀ k, sc n k = ms x wq wk b (kpos qi r) (n * 512 + k.val) := fun k =>
        (hsc ⟨n, hn4⟩ hj k).trans (ms_kpos x wq wk b (kpos qi r) ⟨n, hn4⟩ k).symm
      have ht : tmax n = ⨆ k : Fin 512, ms x wq wk b (kpos qi r) (n * 512 + k.val) := by
        have h1 : IsLUB (Set.range (sc n)) (tmax n) := htmax ⟨n, hn4⟩ hj
        rw [show sc n = fun k => ms x wq wk b (kpos qi r) (n * 512 + k.val) from funext hscn] at h1
        exact h1.unique isLUB_iSup
      have hm' : mE (n + 1) = max (mE n) (tmax n) := hm ⟨n, hn4⟩ hj
      have em : mE (n + 1) = rmax x wq wk b (kpos qi r) (n + 1) := by
        rw [rmax_succ, ← e1, ← ht]; exact hm'
      have emc : mE (n + 1) = ((M x wq wk b (kpos qi r) (n + 1) : ℝ) : EReal) :=
        em.trans (coe_M_succ x wq wk b (kpos qi r) n).symm
      have hs : ∀ k, Ideal.exp (sc n k - mE (n + 1))
          = ((wt (ms x wq wk b (kpos qi r) (n * 512 + k.val)) (M x wq wk b (kpos qi r) (n + 1)) : ℝ) : EReal) := fun k => by
        rw [hscn, emc]; exact exp_sub_eq_wt _ (ms_ne_top x wq wk b (kpos qi r) _) _
      have hfac : ∀ y : ℝ, (n = 0 → y = 0) → Ideal.exp (mE n - mE (n + 1)) * (y : EReal)
          = ((Real.exp (M x wq wk b (kpos qi r) n - M x wq wk b (kpos qi r) (n + 1)) * y : ℝ) : EReal) := fun y hy => by
        rw [e1, em]; exact rescale x wq wk b (kpos qi r) n y hy
      refine ⟨em, ?_, fun h => ?_⟩
      · have hl' : lE (n + 1) = Ideal.exp (mE n - mE (n + 1)) * lE n + ∑ k : Fin 512, Ideal.exp (sc n k - mE (n + 1)) :=
          hl ⟨n, hn4⟩ hj
        rw [hl', e2, hfac _ (fun h0 => by subst h0; rfl), lseq_succ, EReal.coe_add, coe_sum]
        simp only [hs]
      · have ha' : accE (n + 1) h = Ideal.exp (mE n - mE (n + 1)) * accE n h
            + ∑ k : Fin 512, Ideal.exp (sc n k - mE (n + 1)) * ((proj x wv b (kpos ⟨n, hn4⟩ k) h : ℝ) : EReal) :=
          hacc ⟨n, hn4⟩ hj h
        have hv : ∀ k : Fin 512, proj x wv b (kpos ⟨n, hn4⟩ k) h = vl x wv b h (n * 512 + k.val) := fun k =>
          (vl_kpos x wv b h ⟨n, hn4⟩ k).symm
        rw [ha', e3 h, hfac _ (fun h0 => by subst h0; rfl), aseq_succ, EReal.coe_add, coe_sum]
        simp only [hs, hv, EReal.coe_mul]
  obtain ⟨_, e2, e3⟩ := track (qi.val + 1) le_rfl
  rw [e3 h, e2, lseq_last x wq wk b qi r, aseq_last x wq wk wv b qi r h,
    Ideal.div_coe (denom_ne_zero x wq wk b (kpos qi r)) 1, one_mul, ← EReal.coe_mul]
  congr 1
  unfold out
  exact mul_one_div_eq_sum Finset.univ (weight x wq wk b (kpos qi r)) (fun p => proj x wv b p h) (denom x wq wk b (kpos qi r))

end Cert.Tiled

end
-- ==== Proof.Attn1Value.lean ====
/-
  The attention call's output array is the specification. For a batch b, a query tile qi and a row r of the tile, the
  scratch state after key tile j ≤ qi, read at row r, is one step of the online softmax from the state after tile j - 1
  (from the reset values at j = 0): the running maximum against the tile's row maximum, the denominator and the numerator
  rescaled and extended by the tile's terms, the tile's scores being the masked scaled inner products of the query row
  with the tile's key rows. The tiled-row theorem then says the numerator over the denominator after tile qi — which is
  what the last key tile writes back — is the attention output of that query position; the blocks written back cover
  the output array.
-/
import proofs.«178913_j5025111736349_2_alg».proof.Proof.Gen.KernelIdeal.Launch
import proofs.«178913_j5025111736349_2_alg».proof.Proof.Gen.KernelIdeal.Skeleton
import proofs.«178913_j5025111736349_2_alg».proof.Proof.Gen.KernelIdeal.Points
import proofs.«178913_j5025111736349_2_alg».proof.Proof.Attn1Seq
import proofs.«178913_j5025111736349_2_alg».proof.Proof.Attn1Layout
import proofs.«178913_j5025111736349_2_alg».proof.Proof.Attn1Payload
import proofs.«178913_j5025111736349_2_alg».proof.Proof.Attn1Score
import proofs.«178913_j5025111736349_2_alg».proof.Proof.Proj0Real
import proofs.«178913_j5025111736349_2_alg».proof.Proof.Run
import proofs.«178913_j5025111736349_2_alg».proof.Proof.TiledRow
import proofs.«178913_j5025111736349_2_alg».proof.Proof.Spec
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx Cert.Spec Cert.Tiled OnlineSoftmax

section Row
variable (V : (c : Dev nD) → (b : Ref sig .tc) → Buf (Elt Ideal) ((c : Thread nD τ).loc b)) (c : Dev nD)
variable (x : Fin 8 → Fin 2048 → Fin 1024 → ℝ) (wq wk wv : Fin 1024 → Fin 64 → ℝ)
variable (b : Fin 8) (qi : Fin 4) (r : Fin 512)

/-- A natural number as a key tile (read modulo 4). -/
def kiOf (n : ℕ) : Fin 4 := ⟨n % 4, Nat.mod_lt _ (by decide)⟩
theorem kiOf_val (j : Fin 4) : kiOf j.val = j := Fin.ext (Nat.mod_eq_of_lt j.isLt)

/-- The query, key and value blocks at key tile `j` of (b, qi). -/
abbrev bq (j : Fin 4) := iblk1 V c 0 (pt b qi j)
abbrev bk (j : Fin 4) := iblk1 V c 1 (pt b qi j)
abbrev bv (j : Fin 4) := iblk1 V c 2 (pt b qi j)

/-- What the step at key tile `j` starts from: the reset values at the first tile, the state after the tile before otherwise. -/
def pM (j : Fin 4) : Vec Ideal S512x1 .f32 := if j.val = 0 then k1_pay1 (F := Ideal) else (stAt V c b qi (kiOf (j.val - 1))).1
def pL (j : Fin 4) : Vec Ideal S512x1 .f32 := if j.val = 0 then k1_pay2 (F := Ideal) else (stAt V c b qi (kiOf (j.val - 1))).2.1
def pA (j : Fin 4) : Vec Ideal S512x64 .f32 := if j.val = 0 then k1_pay3 (F := Ideal) else (stAt V c b qi (kiOf (j.val - 1))).2.2

/-- The state after key tile `j ≤ qi` is one step from what the step starts from. -/
theorem stAt_eq (j : Fin 4) (hj : j ≤ qi) :
    stAt V c b qi j =
      (stepM (BitVec.ofNat 32 qi.val) (BitVec.ofNat 32 j.val) (bq V c b qi j) (bk V c b qi j) (pM V c b qi j),
       stepL (BitVec.ofNat 32 qi.val) (BitVec.ofNat 32 j.val) (bq V c b qi j) (bk V c b qi j) (pM V c b qi j) (pL V c b qi j),
       stepA (BitVec.ofNat 32 qi.val) (BitVec.ofNat 32 j.val) (bq V c b qi j) (bk V c b qi j) (bv V c b qi j) (pM V c b qi j) (pA V c b qi j)) := by
  by_cases h0 : j.val = 0
  · obtain rfl : j = 0 := Fin.ext h0
    unfold pM pL pA; rw [if_pos h0, if_pos h0, if_pos h0]
    exact stAt_zero V c b qi
  · have hlt := j.isLt
    have hk' : j.val = (kiOf (j.val - 1)).val + 1 := by
      show j.val = (j.val - 1) % 4 + 1
      omega
    unfold pM pL pA; rw [if_neg h0, if_neg h0, if_neg h0]
    exact stAt_succ V c b qi (kiOf (j.val - 1)) j hk' hj

/-- The tile's scores for row `r`: the masked scaled inner products. -/
def sc (n : ℕ) (k : Fin 512) : EReal :=
  k1_pay9 (BitVec.ofNat 32 qi.val) (BitVec.ofNat 32 (kiOf n).val) (bq V c b qi (kiOf n)) (bk V c b qi (kiOf n)) (ix2 r k)
/-- The running maximum, denominator and numerator of row `r` after `n` key tiles. -/
def mE (n : ℕ) : EReal := if n = 0 then ⊥ else (stAt V c b qi (kiOf (n - 1))).1 (ix2 r (0 : Fin 1))
def lE (n : ℕ) : EReal := if n = 0 then 0 else (stAt V c b qi (kiOf (n - 1))).2.1 (ix2 r (0 : Fin 1))
def accE (n : ℕ) (h : Fin 64) : EReal := if n = 0 then 0 else (stAt V c b qi (kiOf (n - 1))).2.2 (ix2 r h)

theorem pM_apply (j : Fin 4) : pM V c b qi j (ix2 r (0 : Fin 1)) = mE V c b qi r j.val := by
  unfold pM mE
  by_cases h0 : j.val = 0
  · rw [if_pos h0, if_pos h0]; exact k1_pay1_apply r
  · rw [if_neg h0, if_neg h0]
theorem pL_apply (j : Fin 4) : pL V c b qi j (ix2 r (0 : Fin 1)) = lE V c b qi r j.val := by
  unfold pL lE
  by_cases h0 : j.val = 0
  · rw [if_pos h0, if_pos h0]; exact k1_pay2_apply r
  · rw [if_neg h0, if_neg h0]
theorem pA_apply (j : Fin 4) (h : Fin 64) : pA V c b qi j (ix2 r h) = accE V c b qi r j.val h := by
  unfold pA accE
  by_cases h0 : j.val = 0
  · rw [if_pos h0, if_pos h0]; exact k1_pay3_apply r h
  · rw [if_neg h0, if_neg h0]

theorem mE_succ (j : Fin 4) : mE V c b qi r (j.val + 1) = (stAt V c b qi j).1 (ix2 r (0 : Fin 1)) := by
  unfold mE; rw [if_neg (Nat.succ_ne_zero _), Nat.add_sub_cancel, kiOf_val]
theorem lE_succ (j : Fin 4) : lE V c b qi r (j.val + 1) = (stAt V c b qi j).2.1 (ix2 r (0 : Fin 1)) := by
  unfold lE; rw [if_neg (Nat.succ_ne_zero _), Nat.add_sub_cancel, kiOf_val]
theorem accE_succ (j : Fin 4) (h : Fin 64) : accE V c b qi r (j.val + 1) h = (stAt V c b qi j).2.2 (ix2 r h) := by
  unfold accE; rw [if_neg (Nat.succ_ne_zero _), Nat.add_sub_cancel, kiOf_val]

/-- The new running maximum is the tile's payload for it. -/
theorem mE_succ_eq (j : Fin 4) (hj : j ≤ qi) :
    mE V c b qi r (j.val + 1)
      = k1_pay10 (BitVec.ofNat 32 qi.val) (BitVec.ofNat 32 j.val) (bq V c b qi j) (bk V c b qi j) (pM V c b qi j) (ix2 r (0 : Fin 1)) := by
  rw [mE_succ, stAt_eq V c b qi j hj]
  show stepM _ _ _ _ _ (ix2 r (0 : Fin 1)) = _
  unfold stepM; rw [k1_pay6_eq]

theorem hm (j : Fin 4) (hj : j ≤ qi) :
    mE V c b qi r (j.val + 1) = max (mE V c b qi r j.val) (sSup (Set.range (sc V c b qi r j.val))) := by
  rw [mE_succ_eq V c b qi r j hj]
  obtain ⟨T, hT, hEq⟩ := k1_pay10_apply qi j r (bq V c b qi j) (bk V c b qi j) (pM V c b qi j)
  rw [hEq, pM_apply]
  have hsS : sSup (Set.range (sc V c b qi r j.val)) = T := by
    refine (IsLUB.sSup_eq ?_)
    unfold sc; rw [kiOf_val]; exact hT
  rw [hsS]

theorem hl (j : Fin 4) (hj : j ≤ qi) :
    lE V c b qi r (j.val + 1) = Ideal.exp (mE V c b qi r j.val - mE V c b qi r (j.val + 1)) * lE V c b qi r j.val
      + ∑ k : Fin 512, Ideal.exp (sc V c b qi r j.val k - mE V c b qi r (j.val + 1)) := by
  rw [lE_succ, stAt_eq V c b qi j hj]
  show stepL _ _ _ _ _ _ (ix2 r (0 : Fin 1)) = _
  unfold stepL
  rw [k1_pay4_eq, k1_pay13_apply, k1_pay11_apply, pM_apply, pL_apply, ← mE_succ_eq V c b qi r j hj]
  refine congrArg (HAdd.hAdd _) ?_
  refine Finset.sum_congr rfl fun k _ => ?_
  rw [k1_pay12_apply, ← mE_succ_eq V c b qi r j hj]
  unfold sc; rw [kiOf_val]

theorem hacc (hv : ∀ (b : Fin 8) (s : Fin 2048) (h : Fin 64), V c main_v1_2 (ix3 b s h) = ((proj x wv b s h : ℝ) : EReal))
    (j : Fin 4) (hj : j ≤ qi) (h : Fin 64) :
    accE V c b qi r (j.val + 1) h = Ideal.exp (mE V c b qi r j.val - mE V c b qi r (j.val + 1)) * accE V c b qi r j.val h
      + ∑ k : Fin 512, Ideal.exp (sc V c b qi r j.val k - mE V c b qi r (j.val + 1)) * ((proj x wv b (kpos j k) h : ℝ) : EReal) := by
  rw [accE_succ, stAt_eq V c b qi j hj]
  show stepA _ _ _ _ _ _ _ (ix2 r h) = _
  unfold stepA
  rw [k1_pay5_apply, k1_pay11_apply, pM_apply, pA_apply, ← mE_succ_eq V c b qi r j hj]
  refine congrArg (HAdd.hAdd _) ?_
  refine Finset.sum_congr rfl fun k _ => ?_
  rw [k1_pay12_apply, ← mE_succ_eq V c b qi r j hj, k1_pay8_apply]
  have hmin : min ((pt b qi j).val % 4) ((pt b qi j).val / 4 % 4) = j.val := by
    rw [pt_mod, pt_div]; exact Nat.min_eq_left hj
  rw [show bv V c b qi j (ix3 (0 : Fin 1) k h) = ((proj x wv b (kpos j k) h : ℝ) : EReal) from
    (iblk1_v_apply V c (pt b qi j) k h b (kpos j k) (pt_div16 b qi j).symm (by rw [hmin]; rfl)).trans (hv _ _ _)]
  unfold sc; rw [kiOf_val]

theorem hsc (hq : ∀ (b : Fin 8) (s : Fin 2048) (h : Fin 64), V c main_v1_0 (ix3 b s h) = ((proj x wq b s h : ℝ) : EReal))
    (hk : ∀ (b : Fin 8) (s : Fin 2048) (h : Fin 64), V c main_v1_1 (ix3 b s h) = ((proj x wk b s h : ℝ) : EReal))
    (j : Fin 4) (hj : j ≤ qi) (k : Fin 512) :
    sc V c b qi r j.val k = mscore x wq wk b (kpos qi r) (kpos j k) := by
  unfold sc; rw [kiOf_val, k1_pay9_apply]
  have hmin : min ((pt b qi j).val % 4) ((pt b qi j).val / 4 % 4) = j.val := by
    rw [pt_mod, pt_div]; exact Nat.min_eq_left hj
  have hqrow : ∀ h : Fin 64, bq V c b qi j (ix3 (0 : Fin 1) r h) = ((proj x wq b (kpos qi r) h : ℝ) : EReal) := fun h => by
    exact (iblk1_q_apply V c (pt b qi j) r h b (kpos qi r) (pt_div16 b qi j).symm (by rw [pt_div]; rfl)).trans (hq _ _ _)
  have hkrow : ∀ h : Fin 64, bk V c b qi j (ix3 (0 : Fin 1) k h) = ((proj x wk b (kpos j k) h : ℝ) : EReal) := fun h => by
    exact (iblk1_k_apply V c (pt b qi j) k h b (kpos j k) (pt_div16 b qi j).symm (by rw [hmin]; rfl)).trans (hk _ _ _)
  unfold mscore
  have hcond : (j.val * 512 + k.val ≤ qi.val * 512 + r.val) ↔ kpos j k ≤ kpos qi r := by
    rw [Fin.le_def, kpos_val, kpos_val]
  by_cases hc : j.val * 512 + k.val ≤ qi.val * 512 + r.val
  · rw [if_pos hc, if_pos (hcond.mp hc)]
    simp only [hqrow, hkrow]
    rw [ofBits_inv64]
    simp only [← EReal.coe_mul]
    rw [← coe_sum, ← EReal.coe_mul]
    unfold score
    congr 1
    ring
  · rw [if_neg hc, if_neg (fun h' => hc (hcond.mpr h'))]

/-- THE ROW: the numerator over the denominator after key tile `qi` is the attention output of that query position. -/
theorem row_out (hq : ∀ (b : Fin 8) (s : Fin 2048) (h : Fin 64), V c main_v1_0 (ix3 b s h) = ((proj x wq b s h : ℝ) : EReal))
    (hk : ∀ (b : Fin 8) (s : Fin 2048) (h : Fin 64), V c main_v1_1 (ix3 b s h) = ((proj x wk b s h : ℝ) : EReal))
    (hv : ∀ (b : Fin 8) (s : Fin 2048) (h : Fin 64), V c main_v1_2 (ix3 b s h) = ((proj x wv b s h : ℝ) : EReal))
    (h : Fin 64) :
    (stAt V c b qi qi).2.2 (ix2 r h) * Ideal.div 1 ((stAt V c b qi qi).2.1 (ix2 r (0 : Fin 1)))
      = ((out x wq wk wv b (kpos qi r) h : ℝ) : EReal) := by
  rw [← accE_succ V c b qi r qi h, ← lE_succ V c b qi r qi]
  exact row_eq x wq wk wv b qi r (sc V c b qi r) (fun n => sSup (Set.range (sc V c b qi r n))) (mE V c b qi r) (lE V c b qi r) (accE V c b qi r)
    (fun j hj k => hsc V c x wq wk b qi r hq hk j hj k) (fun j _ => isLUB_sSup _)
    (by unfold mE; rw [if_pos rfl]) (by unfold lE; rw [if_pos rfl]) (fun h => by unfold accE; rw [if_pos rfl])
    (fun j hj => hm V c b qi r j hj) (fun j hj => hl V c b qi r j hj) (fun j hj h => hacc V c x wv b qi r hv j hj h) h

end Row

section Result
variable (m : (ℓ : Loc nD τ sig) → Buf (Elt Ideal) ℓ) (ρ : Dev nD → PrngReg) (c : Dev nD)

/-- THE RESULT: under finite arguments the attention call leaves, in the result array, the specification of the launch
    arguments. The projection call's q, k, v arrays are the real projections; the blocks written back at the last key
    tiles cover the result array; each is its row's numerator over its denominator, the attention output. -/
theorem kernel_result (X : SX.Idx → EReal) (WQ WK WV : SW.Idx → EReal)
    (eX : m ((c : Thread nD τ).loc main_arg0) = X) (eQ : m ((c : Thread nD τ).loc main_arg1) = WQ)
    (eK : m ((c : Thread nD τ).loc main_arg2) = WK) (eV : m ((c : Thread nD τ).loc main_arg3) = WV)
    (hX : IsReal X) (hQ : IsReal WQ) (hK : IsReal WK) (hV : IsReal WV) :
    (dat1 (F := Ideal) (V2 m ρ) c).arrAt 3 cfg1.N = G X WQ WK WV := by
  have hq : ∀ (b : Fin 8) (s : Fin 2048) (h : Fin 64),
      V2 m ρ c main_v1_0 (ix3 b s h) = ((proj (toR3 X) (toR2 WQ) b s h : ℝ) : EReal) := fun b s h =>
    (congrFun (W2_arr m ρ c 2) (ix3 b s h)).trans (qArr_real m ρ c X WQ eX eQ hX hQ b s h)
  have hk : ∀ (b : Fin 8) (s : Fin 2048) (h : Fin 64),
      V2 m ρ c main_v1_1 (ix3 b s h) = ((proj (toR3 X) (toR2 WK) b s h : ℝ) : EReal) := fun b s h =>
    (congrFun (W2_arr m ρ c 3) (ix3 b s h)).trans (kArr_real m ρ c X WK eX eK hX hK b s h)
  have hv : ∀ (b : Fin 8) (s : Fin 2048) (h : Fin 64),
      V2 m ρ c main_v1_2 (ix3 b s h) = ((proj (toR3 X) (toR2 WV) b s h : ℝ) : EReal) := fun b s h =>
    (congrFun (W2_arr m ρ c 4) (ix3 b s h)).trans (vArr_real m ρ c X WV eX eV hX hV b s h)
  refine arrO_eq (V2 m ρ) c (G X WQ WK WV) (fun t ht r h => ?_)
  have hN := pt_lt1 t
  have hb : t.val / 16 < 8 := by omega
  have hqi : t.val / 4 % 4 < 4 := by omega
  have et : t.val = (pt ⟨t.val / 16, hb⟩ ⟨t.val / 4 % 4, hqi⟩ 3).val := by
    rw [pt_val]; show t.val = 16 * (t.val / 16) + 4 * (t.val / 4 % 4) + 3; omega
  rw [outsAt1_congr (V2 m ρ) c et t.isLt (pt ⟨t.val / 16, hb⟩ ⟨t.val / 4 % 4, hqi⟩ 3).isLt,
    out_at_last, k1_pay7_apply,
    row_out (V2 m ρ) c (toR3 X) (toR2 WQ) (toR2 WK) (toR2 WV) ⟨t.val / 16, hb⟩ ⟨t.val / 4 % 4, hqi⟩ r hq hk hv h]
  rfl

end Result

end Cert.KernelIdeal.Hand

end
-- ==== Proof.lean ====
/-
  Causal single-head attention by two tiled kernels against its plain reference, over the extended reals.

  The kernel concatenates the three weight matrices, projects x to q, k, v in one call (the three column bands of one
  product per row tile), and computes the attention in a second call, one (batch, query tile) at a time over key tiles
  of 512 positions: it keeps a running row maximum, denominator and numerator, rescaling both sums by
  e^{old maximum - new maximum} at every visible key tile, skips the key tiles wholly after the query tile, and at the
  last key tile stores the numerator times the reciprocal of the denominator. The reference forms the whole score
  matrix, masks it, and applies a softmax row by row. With every float an exact extended real and the kernel's mask fill
  read as -∞, both are the same function of the arguments: the masked scores of a row are real or -∞, the first key
  position is always visible, so after the first tile the running maximum is real and the rescaled sums are the plain
  sums of e^{score - maximum} against the final maximum (the telescoping law e^{a-b} · e^{c-a} = e^{c-b}); hidden
  positions contribute 0 to both sides. Finiteness of the arguments is used: the law needs real scores and values.

  Each program runs to the end, faults nowhere and leaves its arguments unchanged: the two kernels' runs are built from
  each call's body at every grid point; the reference's run is its operations in order.
-/
import proofs.«178913_j5025111736349_2_alg».proof.Defs
import proofs.«178913_j5025111736349_2_alg».proof.Proof.Gen.Kernel
import proofs.«178913_j5025111736349_2_alg».proof.Proof.Gen.Kernel.Skeleton
import proofs.«178913_j5025111736349_2_alg».proof.Proof.Gen.Kernel.Launch
import proofs.«178913_j5025111736349_2_alg».proof.Proof.Gen.Kernel.Regions
import proofs.«178913_j5025111736349_2_alg».proof.Proof.Gen.Kernel.Points
import proofs.«178913_j5025111736349_2_alg».proof.Proof.Gen.KernelIdeal
import proofs.«178913_j5025111736349_2_alg».proof.Proof.Gen.KernelIdeal.Skeleton
import proofs.«178913_j5025111736349_2_alg».proof.Proof.Gen.KernelIdeal.Launch
import proofs.«178913_j5025111736349_2_alg».proof.Proof.Gen.KernelIdeal.Regions
import proofs.«178913_j5025111736349_2_alg».proof.Proof.Gen.KernelIdeal.Points
import proofs.«178913_j5025111736349_2_alg».proof.Proof.Gen.ReferenceIdeal
import proofs.«178913_j5025111736349_2_alg».proof.Proof.Gen.ReferenceIdeal.Run
import proofs.«178913_j5025111736349_2_alg».proof.Proof.Gen.ReferenceIdeal.Read
import proofs.«178913_j5025111736349_2_alg».proof.Proof.Gen.Pre_finite_inputs
import proofs.«178913_j5025111736349_2_alg».proof.Proof.KRun
import proofs.«178913_j5025111736349_2_alg».proof.Proof.Run
import proofs.«178913_j5025111736349_2_alg».proof.Proof.Finite
import proofs.«178913_j5025111736349_2_alg».proof.Proof.RefValue
import proofs.«178913_j5025111736349_2_alg».proof.Proof.Attn1Value
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Hand.frame (F := Bits) m ρ

/-- The idealized kernel runs and leaves its arguments unchanged. -/
theorem frame_kernelIdeal : Cert.frame_KernelIdeal := fun m ρ _ => Cert.KernelIdeal.Hand.frame (F := Ideal) m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the mask fill is named -∞, and the printed constant is that value. -/
theorem preserves : Cert.preserves_Kernel_KernelIdeal :=
  IdealRules.named_const.statement Cert.KernelIdeal.κ "neg_big" .f32 0xFF333332#32 ⊥ rfl

/-- From memories agreeing on finite arguments, both programs end with the attention output of the arguments. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.Hand.run_main (F := Ideal) m ρ)
    obtain ⟨hX, hQ, hK, hV⟩ := Cert.Finite.of_pre _ _ _ _ (hpre c)
    exact Cert.KernelIdeal.Hand.kernel_result m ρ c _ _ _ _ rfl rfl rfl rfl hX hQ hK hV
  · refine (θ_run Cert.ReferenceIdeal.defs _ _).mono (fun _ h c => ⟨?_, (h c).2⟩)
      (Cert.ReferenceIdeal.Value.run (F := Ideal) m' ρ')
    obtain ⟨hX, hQ, hK, hV⟩ := Cert.Finite.of_pre _ _ _ _ (hpre c)
    rw [(h c).1, Cert.ReferenceIdeal.Read.val_main_v20_eq, (hagree c).1, (hagree c).2.1, (hagree c).2.2.1, (hagree c).2.2.2]
    exact Cert.ReferenceIdeal.RefValue.result_eq _ _ _ _ hX hQ hK hV

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
